-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x64 : Shape := ⟨2, ![400000, 64]⟩
abbrev S600000x128 : Shape := ⟨2, ![600000, 128]⟩
abbrev S64x256 : Shape := ⟨2, ![64, 256]⟩
abbrev S256 : Shape := ⟨1, ![256]⟩
abbrev S128x256 : Shape := ⟨2, ![128, 256]⟩
abbrev S256x128 : Shape := ⟨2, ![256, 128]⟩
abbrev S128 : Shape := ⟨1, ![128]⟩
abbrev S_ : Shape := ⟨0, ![]⟩

class Facts : Prop where
  bcast_S_S400000x64 : S_.BroadcastsInDim S400000x64 (![] : Fin 0 → Fin S400000x64.rank)
  reducesTo_S400000x64_S_d0_1 : S400000x64.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg7 : FVec F S128 .f32) (main_arg8 : FVec F S256x128 .f32) (main_arg9 : FVec F S128 .f32) (main_arg10 : FVec F S128 .f32) (main_arg11 : FVec F S128 .f32) (main_arg12 : FVec F S128 .f32) (main_arg13 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg8
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_v48 main_v49 main_v50

def fn_part1 {F : FTy → Type} [FloatOps F] (main_arg4 : FVec F S128x256 .f32) (main_arg5 : FVec F S256 .f32) (main_arg6 : FVec F S256x128 .f32) (main_arg7 : FVec F S128 .f32) (main_arg8 : FVec F S256x128 .f32) (main_arg9 : FVec F S128 .f32) (main_arg10 : FVec F S128 .f32) (main_arg11 : FVec F S128 .f32) (main_arg12 : FVec F S128 .f32) (main_arg13 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S400000x64 .f32) (main_arg1 : FVec F S600000x128 .f32) (main_arg2 : FVec F S64x256 .f32) (main_arg3 : FVec F S256 .f32) (main_arg4 : FVec F S128x256 .f32) (main_arg5 : FVec F S256 .f32) (main_arg6 : FVec F S256x128 .f32) (main_arg7 : FVec F S128 .f32) (main_arg8 : FVec F S256x128 .f32) (main_arg9 : FVec F S128 .f32) (main_arg10 : FVec F S128 .f32) (main_arg11 : FVec F S128 .f32) (main_arg12 : FVec F S128 .f32) (main_arg13 : FVec F S128 .f32) : IVec S_ 1 :=
  let main_v0 : FVec F S400000x64 .f32 := Host.absf main_arg0
  let main_cst : FVec F S_ .f32 := constant S_ .f32 0x7F800000#32
  let main_v1 : FVec F S400000x64 .f32 := broadcastInDim S400000x64 ![] bcast_S_S400000x64 main_cst
  let main_v2 : IVec S400000x64 1 := cmpf .olt main_v0 main_v1
  let main_c : IVec S_ 1 := constantI S_ 1 1#1
  let main_v3 : IVec S_ 1 := (fun x v => Host.reduce IntOp.andi x v reducesTo_S400000x64_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_v13 main_v16
-- ==== Kernel.lean ====
abbrev S400000x64 : Shape := ⟨2, ![400000, 64]⟩
abbrev S600000x128 : Shape := ⟨2, ![600000, 128]⟩
abbrev S64x256 : Shape := ⟨2, ![64, 256]⟩
abbrev S256 : Shape := ⟨1, ![256]⟩
abbrev S128x256 : Shape := ⟨2, ![128, 256]⟩
abbrev S256x128 : Shape := ⟨2, ![256, 128]⟩
abbrev S128 : Shape := ⟨1, ![128]⟩
abbrev S1x256 : Shape := ⟨2, ![1, 256]⟩
abbrev S1x128 : Shape := ⟨2, ![1, 128]⟩
abbrev S2x8x128 : Shape := ⟨3, ![2, 8, 128]⟩
abbrev S8000x64 : Shape := ⟨2, ![8000, 64]⟩
abbrev S1x8x128 : Shape := ⟨3, ![1, 8, 128]⟩
abbrev S8000x256 : Shape := ⟨2, ![8000, 256]⟩
abbrev S8000x128 : Shape := ⟨2, ![8000, 128]⟩
abbrev S8x128 : Shape := ⟨2, ![8, 128]⟩
abbrev S2x1x128 : Shape := ⟨3, ![2, 1, 128]⟩
abbrev S2x128 : Shape := ⟨2, ![2, 128]⟩
abbrev S_ : Shape := ⟨0, ![]⟩
abbrev S400000x128 : Shape := ⟨2, ![400000, 128]⟩
abbrev S10000x128 : Shape := ⟨2, ![10000, 128]⟩
abbrev S10000x256 : Shape := ⟨2, ![10000, 256]⟩

abbrev nBuf : Space → Nat
  | .hbm => 70
  | .vmem => 44
  | .smem => 0
  | _ => 0

abbrev bufTy : (tb : Table) → Fin (tcTables nBuf tb) → BufTy
  | .hbm, ⟨0, _⟩ => ⟨S400000x64, .f32⟩
  | .hbm, ⟨1, _⟩ => ⟨S600000x128, .f32⟩
  | .hbm, ⟨2, _⟩ => ⟨S64x256, .f32⟩
  | .hbm, ⟨3, _⟩ => ⟨S256, .f32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S1x256, .f32⟩
  | .hbm, ⟨15, _⟩ => ⟨S1x128, .f32⟩
  | .hbm, ⟨16, _⟩ => ⟨S2x8x128, .f32⟩
  | .hbm, ⟨17, _⟩ => ⟨S2x8x128, .f32⟩
  | .hbm, ⟨18, _⟩ => ⟨S2x1x128, .f32⟩
  | .hbm, ⟨19, _⟩ => ⟨S2x128, .f32⟩
  | .hbm, ⟨20, _⟩ => ⟨S_, .f32⟩
  | .hbm, ⟨21, _⟩ => ⟨S128, .f32⟩
  | .hbm, ⟨22, _⟩ => ⟨S2x1x128, .f32⟩
  | .hbm, ⟨23, _⟩ => ⟨S2x128, .f32⟩
  | .hbm, ⟨24, _⟩ => ⟨S_, .f32⟩
  | .hbm, ⟨25, _⟩ => ⟨S128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S_, .f32⟩
  | .hbm, ⟨30, _⟩ => ⟨S128, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S400000x128, .f32⟩
  | .hbm, ⟨42, _⟩ => ⟨S1x256, .f32⟩
  | .hbm, ⟨43, _⟩ => ⟨S1x128, .f32⟩
  | .hbm, ⟨44, _⟩ => ⟨S2x8x128, .f32⟩
  | .hbm, ⟨45, _⟩ => ⟨S2x8x128, .f32⟩
  | .hbm, ⟨46, _⟩ => ⟨S2x1x128, .f32⟩
  | .hbm, ⟨47, _⟩ => ⟨S2x128, .f32⟩
  | .hbm, ⟨48, _⟩ => ⟨S_, .f32⟩
  | .hbm, ⟨49, _⟩ => ⟨S128, .f32⟩
  | .hbm, ⟨50, _⟩ => ⟨S2x1x128, .f32⟩
  | .hbm, ⟨51, _⟩ => ⟨S2x128, .f32⟩
  | .hbm, ⟨52, _⟩ => ⟨S_, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S600000x128, .f32⟩
  | .local _ .vmem, ⟨0, _⟩ => ⟨S8000x64, .f32⟩
  | .local _ .vmem, ⟨1, _⟩ => ⟨S8000x64, .f32⟩
  | .local _ .vmem, ⟨2, _⟩ => ⟨S64x256, .f32⟩
  | .local _ .vmem, ⟨3, _⟩ => ⟨S1x256, .f32⟩
  | .local _ .vmem, ⟨4, _⟩ => ⟨S256x128, .f32⟩
  | .local _ .vmem, ⟨5, _⟩ => ⟨S1x128, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S8000x64, .f32⟩
  | .local _ .vmem, ⟨11, _⟩ => ⟨S8000x64, .f32⟩
  | .local _ .vmem, ⟨12, _⟩ => ⟨S64x256, .f32⟩
  | .local _ .vmem, ⟨13, _⟩ => ⟨S1x256, .f32⟩
  | .local _ .vmem, ⟨14, _⟩ => ⟨S256x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S8000x128, .f32⟩
  | .local _ .vmem, ⟨21, _⟩ => ⟨S8000x128, .f32⟩
  | .local _ .vmem, ⟨22, _⟩ => ⟨S10000x128, .f32⟩
  | .local _ .vmem, ⟨23, _⟩ => ⟨S10000x128, .f32⟩
  | .local _ .vmem, ⟨24, _⟩ => ⟨S128x256, .f32⟩
  | .local _ .vmem, ⟨25, _⟩ => ⟨S1x256, .f32⟩
  | .local _ .vmem, ⟨26, _⟩ => ⟨S256x128, .f32⟩
  | .local _ .vmem, ⟨27, _⟩ => ⟨S1x128, .f32⟩
  | .local _ .vmem, ⟨28, _⟩ => ⟨S1x8x128, .f32⟩
  | .local _ .vmem, ⟨29, _⟩ => ⟨S1x8x128, .f32⟩
  | .local _ .vmem, ⟨30, _⟩ => ⟨S1x8x128, .f32⟩
  | .local _ .vmem, ⟨31, _⟩ => ⟨S1x8x128, .f32⟩
  | .local _ .vmem, ⟨32, _⟩ => ⟨S10000x128, .f32⟩
  | .local _ .vmem, ⟨33, _⟩ => ⟨S10000x128, .f32⟩
  | .local _ .vmem, ⟨34, _⟩ => ⟨S128x256, .f32⟩
  | .local _ .vmem, ⟨35, _⟩ => ⟨S1x256, .f32⟩
  | .local _ .vmem, ⟨36, _⟩ => ⟨S256x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S10000x128, .f32⟩
  | .local _ .vmem, ⟨43, _⟩ => ⟨S10000x128, .f32⟩
  | _, _ => ⟨S400000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2_0 : Ref sig .tc := ⟨.hbm, 16, rfl⟩
abbrev main_v2_1 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24_0 : Ref sig .tc := ⟨.hbm, 44, rfl⟩
abbrev main_v24_1 : Ref sig .tc := ⟨.hbm, 45, rfl⟩
abbrev main_v25 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_cst_6 : Ref sig .tc := ⟨.hbm, 54, rfl⟩
abbrev main_v31 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc3_stg8_0 : Ref sig .tc := ⟨.vmem, 41, rfl⟩
abbrev cc3_stg9_0 : Ref sig .tc := ⟨.vmem, 42, rfl⟩
abbrev cc3_stg9_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc2_sem6_0 : DmaSem sig := 30
abbrev cc2_sem6_1 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem7_0 : DmaSem sig := 40
abbrev cc3_sem8_0 : DmaSem sig := 41
abbrev cc3_sem9_0 : DmaSem sig := 42
abbrev cc3_sem9_1 : DmaSem sig := 43

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S8000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨2, ![2, 30], ![false, false]⟩

def cc2_transform_0 (i : grid2.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.muli arg0 c30_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x8x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1x8x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev grid3 : Pipeline.Grid := ⟨1, ![60], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S10000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  shapeCasts_S256_S1x256 : S256.ShapeCasts S1x256
  shapeCasts_S128_S1x128 : S128.ShapeCasts S1x128
  inb_S8000x64_S8000x64_0_0 : ∀ a, (![0, 0] : Fin 2 → Nat) a + S8000x64.size a ≤ S8000x64.size a
  h_S8000x64 : 0 < S8000x64.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8000x256 : S1x256.Broadcasts S8000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reduces_S8000x128_S128 : S8000x128.Reduces [0] S128
  broadcasts_S1x128_S8x128 : S1x128.Broadcasts S8x128
  slices_S2x8x128_S2x1x128_0_0_0 : S2x8x128.Slices ![0, 0, 0] S2x1x128
  shapeCasts_S2x1x128_S2x128 : S2x1x128.ShapeCasts S2x128
  reducesTo_S2x128_S128_d0 : S2x128.ReducesTo [0] S128
  h_S_ : 0 < S_.numel
  bcast_S_S128 : S_.BroadcastsInDim S128 (![] : Fin 0 → Fin S128.rank)
  inb_S8000x128_S8000x128_0_0 : ∀ a, (![0, 0] : Fin 2 → Nat) a + S8000x128.size a ≤ S8000x128.size a
  h_S8000x128 : 0 < S8000x128.numel
  inb_S10000x128_S10000x128_0_0 : ∀ a, (![0, 0] : Fin 2 → Nat) a + S10000x128.size a ≤ S10000x128.size a
  h_S10000x128 : 0 < S10000x128.numel
  inb_S128x256_S128x256_0_0 : ∀ a, (![0, 0] : Fin 2 → Nat) a + S128x256.size a ≤ S128x256.size a
  h_S128x256 : 0 < S128x256.numel
  broadcasts_S1x256_S10000x256 : S1x256.Broadcasts S10000x256
  broadcasts_S1x128_S10000x128 : S1x128.Broadcasts S10000x128
  reduces_S10000x128_S128 : S10000x128.Reduces [0] S128
  dot_S8000x64_S64x256_S8000x256_1_0_0_1_n_n_wf : DotDims.WF S8000x64 S64x256 S8000x256 [1] [0] [0] [1] [] []
  dot_S8000x256_S256x128_S8000x128_1_0_0_1_n_n_wf : DotDims.WF S8000x256 S256x128 S8000x128 [1] [0] [0] [1] [] []
  dot_S10000x128_S128x256_S10000x256_1_0_0_1_n_n_wf : DotDims.WF S10000x128 S128x256 S10000x256 [1] [0] [0] [1] [] []
  dot_S10000x256_S256x128_S10000x128_1_0_0_1_n_n_wf : DotDims.WF S10000x256 S256x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S400000x64.size a
  hwx0_0 : ∀ i : grid0.Coords, EltTy.bits .f32 = 32 ∨ (Rect.block (s := S400000x64) S8000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S2x8x128.size a
  hwx0_5 : ∀ i : grid0.Coords, EltTy.bits .f32 = 32 ∨ (Rect.block (s := S2x8x128) S1x8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S2x8x128.size a
  hwx0_6 : ∀ i : grid0.Coords, EltTy.bits .f32 = 32 ∨ (Rect.block (s := S2x8x128) S1x8x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S400000x64.size a
  hwx1_0 : ∀ i : grid1.Coords, EltTy.bits .f32 = 32 ∨ (Rect.block (s := S400000x64) S8000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x256.size a ≤ S64x256.size a
  hwx1_1 : ∀ i : grid1.Coords, EltTy.bits .f32 = 32 ∨ (Rect.block (s := S64x256) S64x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S8000x128.size a ≤ S400000x128.size a
  hwx1_9 : ∀ i : grid1.Coords, EltTy.bits .f32 = 32 ∨ (Rect.block (s := S400000x128) S8000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S600000x128.size a
  hwx2_0 : ∀ i : grid2.Coords, EltTy.bits .f32 = 32 ∨ (Rect.block (s := S600000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x8x128.size a ≤ S2x8x128.size a
  hwx2_5 : ∀ i : grid2.Coords, EltTy.bits .f32 = 32 ∨ (Rect.block (s := S2x8x128) S1x8x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x8x128.size a ≤ S2x8x128.size a
  hwx2_6 : ∀ i : grid2.Coords, EltTy.bits .f32 = 32 ∨ (Rect.block (s := S2x8x128) S1x8x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S600000x128.size a
  hwx3_0 : ∀ i : grid3.Coords, EltTy.bits .f32 = 32 ∨ (Rect.block (s := S600000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x256.size a ≤ S128x256.size a
  hwx3_1 : ∀ i : grid3.Coords, EltTy.bits .f32 = 32 ∨ (Rect.block (s := S128x256) S128x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x128.size a ≤ S256x128.size a
  hwx3_3 : ∀ i : grid3.Coords, EltTy.bits .f32 = 32 ∨ (Rect.block (s := S256x128) S256x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S10000x128.size a ≤ S600000x128.size a
  hwx3_9 : ∀ i : grid3.Coords, EltTy.bits .f32 = 32 ∨ (Rect.block (s := S600000x128) S10000x128.size (cc3_transform_9 i) (hinb3_9 i)).WholeWords (EltTy.packing .f32)

variable [Facts₀]

def dot_S8000x64_S64x256_S8000x256_1_0_0_1_n_n : DotDims S8000x64 S64x256 S8000x256 where
  lhsContracting := [1]
  rhsContracting := [0]
  lhsNonContracting := [0]
  rhsNonContracting := [1]
  lhsBatch := []
  rhsBatch := []
  wf := dot_S8000x64_S64x256_S8000x256_1_0_0_1_n_n_wf
def dot_S8000x256_S256x128_S8000x128_1_0_0_1_n_n : DotDims S8000x256 S256x128 S8000x128 where
  lhsContracting := [1]
  rhsContracting := [0]
  lhsNonContracting := [0]
  rhsNonContracting := [1]
  lhsBatch := []
  rhsBatch := []
  wf := dot_S8000x256_S256x128_S8000x128_1_0_0_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

abbrev win0_0 : Pipeline.Window sig grid0 :=
  Pipeline.Window.ofSpec (Memref.whole main_arg0) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S1x8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S1x8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S64x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v20) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v21) S8000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_arg1) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v23) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v24_0) S1x8x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v24_1) S1x8x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_arg1) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v22) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S256x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v23) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v39) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v40) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v41) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v42) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v43) S10000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S400000x64 : Shape := ⟨2, ![400000, 64]⟩
abbrev S600000x128 : Shape := ⟨2, ![600000, 128]⟩
abbrev S64x256 : Shape := ⟨2, ![64, 256]⟩
abbrev S256 : Shape := ⟨1, ![256]⟩
abbrev S128x256 : Shape := ⟨2, ![128, 256]⟩
abbrev S256x128 : Shape := ⟨2, ![256, 128]⟩
abbrev S128 : Shape := ⟨1, ![128]⟩
abbrev S400000x256 : Shape := ⟨2, ![400000, 256]⟩
abbrev S1x256 : Shape := ⟨2, ![1, 256]⟩
abbrev S400000x128 : Shape := ⟨2, ![400000, 128]⟩
abbrev S1x128 : Shape := ⟨2, ![1, 128]⟩
abbrev S_ : Shape := ⟨0, ![]⟩
abbrev S600000x256 : Shape := ⟨2, ![600000, 256]⟩

abbrev nBuf : Space → Nat
  | .hbm => 104
  | .vmem => 0
  | .smem => 0
  | _ => 0

abbrev bufTy : (tb : Table) → Fin (tcTables nBuf tb) → BufTy
  | .hbm, ⟨0, _⟩ => ⟨S400000x64, .f32⟩
  | .hbm, ⟨1, _⟩ => ⟨S600000x128, .f32⟩
  | .hbm, ⟨2, _⟩ => ⟨S64x256, .f32⟩
  | .hbm, ⟨3, _⟩ => ⟨S256, .f32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S400000x256, .f32⟩
  | .hbm, ⟨15, _⟩ => ⟨S1x256, .f32⟩
  | .hbm, ⟨16, _⟩ => ⟨S400000x256, .f32⟩
  | .hbm, ⟨17, _⟩ => ⟨S400000x256, .f32⟩
  | .hbm, ⟨18, _⟩ => ⟨S400000x128, .f32⟩
  | .hbm, ⟨19, _⟩ => ⟨S1x128, .f32⟩
  | .hbm, ⟨20, _⟩ => ⟨S400000x128, .f32⟩
  | .hbm, ⟨21, _⟩ => ⟨S400000x128, .f32⟩
  | .hbm, ⟨22, _⟩ => ⟨S_, .f32⟩
  | .hbm, ⟨23, _⟩ => ⟨S128, .f32⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S1x128, .f32⟩
  | .hbm, ⟨28, _⟩ => ⟨S400000x128, .f32⟩
  | .hbm, ⟨29, _⟩ => ⟨S400000x128, .f32⟩
  | .hbm, ⟨30, _⟩ => ⟨S400000x128, .f32⟩
  | .hbm, ⟨31, _⟩ => ⟨S_, .f32⟩
  | .hbm, ⟨32, _⟩ => ⟨S128, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S1x128, .f32⟩
  | .hbm, ⟨37, _⟩ => ⟨S400000x128, .f32⟩
  | .hbm, ⟨38, _⟩ => ⟨S400000x128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S128, .f32⟩
  | .hbm, ⟨43, _⟩ => ⟨S1x128, .f32⟩
  | .hbm, ⟨44, _⟩ => ⟨S400000x128, .f32⟩
  | .hbm, ⟨45, _⟩ => ⟨S400000x128, .f32⟩
  | .hbm, ⟨46, _⟩ => ⟨S1x128, .f32⟩
  | .hbm, ⟨47, _⟩ => ⟨S400000x128, .f32⟩
  | .hbm, ⟨48, _⟩ => ⟨S400000x128, .f32⟩
  | .hbm, ⟨49, _⟩ => ⟨S1x128, .f32⟩
  | .hbm, ⟨50, _⟩ => ⟨S400000x128, .f32⟩
  | .hbm, ⟨51, _⟩ => ⟨S400000x128, .f32⟩
  | .hbm, ⟨52, _⟩ => ⟨S_, .f32⟩
  | .hbm, ⟨53, _⟩ => ⟨S400000x128, .f32⟩
  | .hbm, ⟨54, _⟩ => ⟨S400000x128, .i1⟩
  | .hbm, ⟨55, _⟩ => ⟨S_, .f32⟩
  | .hbm, ⟨56, _⟩ => ⟨S400000x128, .f32⟩
  | .hbm, ⟨57, _⟩ => ⟨S400000x128, .f32⟩
  | .hbm, ⟨58, _⟩ => ⟨S400000x128, .f32⟩
  | .hbm, ⟨59, _⟩ => ⟨S600000x256, .f32⟩
  | .hbm, ⟨60, _⟩ => ⟨S1x256, .f32⟩
  | .hbm, ⟨61, _⟩ => ⟨S600000x256, .f32⟩
  | .hbm, ⟨62, _⟩ => ⟨S600000x256, .f32⟩
  | .hbm, ⟨63, _⟩ => ⟨S600000x128, .f32⟩
  | .hbm, ⟨64, _⟩ => ⟨S1x128, .f32⟩
  | .hbm, ⟨65, _⟩ => ⟨S600000x128, .f32⟩
  | .hbm, ⟨66, _⟩ => ⟨S600000x128, .f32⟩
  | .hbm, ⟨67, _⟩ => ⟨S_, .f32⟩
  | .hbm, ⟨68, _⟩ => ⟨S128, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S1x128, .f32⟩
  | .hbm, ⟨73, _⟩ => ⟨S600000x128, .f32⟩
  | .hbm, ⟨74, _⟩ => ⟨S600000x128, .f32⟩
  | .hbm, ⟨75, _⟩ => ⟨S600000x128, .f32⟩
  | .hbm, ⟨76, _⟩ => ⟨S_, .f32⟩
  | .hbm, ⟨77, _⟩ => ⟨S128, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S1x128, .f32⟩
  | .hbm, ⟨82, _⟩ => ⟨S600000x128, .f32⟩
  | .hbm, ⟨83, _⟩ => ⟨S600000x128, .f32⟩
  | .hbm, ⟨84, _⟩ => ⟨S_, .f32⟩
  | .hbm, ⟨85, _⟩ => ⟨S128, .f32⟩
  | .hbm, ⟨86, _⟩ => ⟨S128, .f32⟩
  | .hbm, ⟨87, _⟩ => ⟨S128, .f32⟩
  | .hbm, ⟨88, _⟩ => ⟨S1x128, .f32⟩
  | .hbm, ⟨89, _⟩ => ⟨S600000x128, .f32⟩
  | .hbm, ⟨90, _⟩ => ⟨S600000x128, .f32⟩
  | .hbm, ⟨91, _⟩ => ⟨S1x128, .f32⟩
  | .hbm, ⟨92, _⟩ => ⟨S600000x128, .f32⟩
  | .hbm, ⟨93, _⟩ => ⟨S600000x128, .f32⟩
  | .hbm, ⟨94, _⟩ => ⟨S1x128, .f32⟩
  | .hbm, ⟨95, _⟩ => ⟨S600000x128, .f32⟩
  | .hbm, ⟨96, _⟩ => ⟨S600000x128, .f32⟩
  | .hbm, ⟨97, _⟩ => ⟨S_, .f32⟩
  | .hbm, ⟨98, _⟩ => ⟨S600000x128, .f32⟩
  | .hbm, ⟨99, _⟩ => ⟨S600000x128, .i1⟩
  | .hbm, ⟨100, _⟩ => ⟨S_, .f32⟩
  | .hbm, ⟨101, _⟩ => ⟨S600000x128, .f32⟩
  | .hbm, ⟨102, _⟩ => ⟨S600000x128, .f32⟩
  | .hbm, ⟨103, _⟩ => ⟨S600000x128, .f32⟩
  | _, _ => ⟨S400000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_8 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_11 : Ref sig .tc := ⟨.hbm, 97, rfl⟩
abbrev main_v71 : Ref sig .tc := ⟨.hbm, 98, rfl⟩
abbrev main_v72 : Ref sig .tc := ⟨.hbm, 99, rfl⟩
abbrev main_cst_12 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S400000x256_0_1 : S1x256.BroadcastsInDim S400000x256 (![0, 1] : Fin 2 → Fin S400000x256.rank)
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  reducesTo_S400000x128_S128_d0 : S400000x128.ReducesTo [0] S128
  h_S_ : 0 < S_.numel
  bcast_S_S128 : S_.BroadcastsInDim S128 (![] : Fin 0 → Fin S128.rank)
  bcast_S_S400000x128 : S_.BroadcastsInDim S400000x128 (![] : Fin 0 → Fin S400000x128.rank)
  bcast_S1x256_S600000x256_0_1 : S1x256.BroadcastsInDim S600000x256 (![0, 1] : Fin 2 → Fin S600000x256.rank)
  bcast_S1x128_S600000x128_0_1 : S1x128.BroadcastsInDim S600000x128 (![0, 1] : Fin 2 → Fin S600000x128.rank)
  reducesTo_S600000x128_S128_d0 : S600000x128.ReducesTo [0] S128
  bcast_S_S600000x128 : S_.BroadcastsInDim S600000x128 (![] : Fin 0 → Fin S600000x128.rank)
  dot_S400000x64_S64x256_S400000x256_1_0_0_1_n_n_wf : DotDims.WF S400000x64 S64x256 S400000x256 [1] [0] [0] [1] [] []
  dot_S400000x256_S256x128_S400000x128_1_0_0_1_n_n_wf : DotDims.WF S400000x256 S256x128 S400000x128 [1] [0] [0] [1] [] []
  dot_S600000x128_S128x256_S600000x256_1_0_0_1_n_n_wf : DotDims.WF S600000x128 S128x256 S600000x256 [1] [0] [0] [1] [] []
  dot_S600000x256_S256x128_S600000x128_1_0_0_1_n_n_wf : DotDims.WF S600000x256 S256x128 S600000x128 [1] [0] [0] [1] [] []

variable [Facts₀]

def dot_S400000x64_S64x256_S400000x256_1_0_0_1_n_n : DotDims S400000x64 S64x256 S400000x256 where
  lhsContracting := [1]
  rhsContracting := [0]
  lhsNonContracting := [0]
  rhsNonContracting := [1]
  lhsBatch := []
  rhsBatch := []
  wf := dot_S400000x64_S64x256_S400000x256_1_0_0_1_n_n_wf
def dot_S400000x256_S256x128_S400000x128_1_0_0_1_n_n : DotDims S400000x256 S256x128 S400000x128 where
  lhsContracting := [1]
  rhsContracting := [0]
  lhsNonContracting := [0]
  rhsNonContracting := [1]
  lhsBatch := []
  rhsBatch := []
  wf := dot_S400000x256_S256x128_S400000x128_1_0_0_1_n_n_wf
def dot_S600000x128_S128x256_S600000x256_1_0_0_1_n_n : DotDims S600000x128 S128x256 S600000x256 where
  lhsContracting := [1]
  rhsContracting := [0]
  lhsNonContracting := [0]
  rhsNonContracting := [1]
  lhsBatch := []
  rhsBatch := []
  wf := dot_S600000x128_S128x256_S600000x256_1_0_0_1_n_n_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf

class Facts : Prop extends Facts₀ where

variable [Facts]
-- ==== Proof.KernelRun.lean ====
/-
  The idealized kernel's run with its two result arrays named: every weakly fair execution of @main terminates,
  nothing faulting, with each result array at the contents the run's last segment boundary gives it and the
  arguments as launched. The contents at the boundaries are a fold through @main: a host stretch applies its
  operations, a region leaves each output array at what its grid's write-backs leave and every other buffer alone.
-/
import proofs.«115960_j19353122636427_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over @main's eight segments, its final state read at the two result arrays and the arguments. -/
theorem run_values : θ_run defs (onTc (τ := τ) (main (F := F))) ⟨m, fun _ => 0, ρ⟩ (fun r => ∀ c : Dev nD,
      r.2.mem ((c.tc : Thread nD τ).loc main_v21) = W8 m ρ c (Proc.devRef .tc main_v21)
      ∧ r.2.mem ((c.tc : Thread nD τ).loc main_v43) = W8 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v21 (by decide)), h c _ (mem_uc main_v43 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)

end Cert.KernelIdeal.RunValue

end
-- ==== Proof.Walk.lean ====
/-
  Reading a buffer back through the run's fold: a host stretch leaves every buffer it does not write as it was, and a
  region leaves its input windows' arrays, and every buffer that is none of its arrays, as it found them. So each
  argument, and each row a host stretch made before a region, is at every later segment boundary what it was.
-/
import proofs.«115960_j19353122636427_2_alg».proof.Proof.Gen.KernelIdeal.Frame

set_option maxRecDepth 16384

noncomputable section

namespace Cert.KernelIdeal.Walk

open Cert.KernelIdeal Cert.KernelIdeal.Gen
open Idealize.ShloMosaic Idealize.ShloMosaic.TcCoe Idealize.SL.Sem
open Idealize.ShloMosaic.Pipeline (Dat)

/-- A host stretch writes none of its operations' results into this buffer. -/
macro "host_keeps" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

variable {F : FTy → Type} [FloatOps F]
variable (m : (ℓ : Loc nD τ sig) → Buf (Elt F) ℓ) (ρ : Dev nD → PrngReg)

theorem W1_arg0 (c : Dev nD) : W1 m ρ c (Proc.devRef .tc main_arg0) = W0 m ρ c (Proc.devRef .tc main_arg0) :=
  calc W1 m ρ c (Proc.devRef .tc main_arg0)
    _ = W0 m ρ c (Proc.devRef .tc main_arg0) := by host_keeps hostOps0

theorem W1_arg2 (c : Dev nD) : W1 m ρ c (Proc.devRef .tc main_arg2) = W0 m ρ c (Proc.devRef .tc main_arg2) :=
  calc W1 m ρ c (Proc.devRef .tc main_arg2)
    _ = W0 m ρ c (Proc.devRef .tc main_arg2) := by host_keeps hostOps0

theorem W1_arg6 (c : Dev nD) : W1 m ρ c (Proc.devRef .tc main_arg6) = W0 m ρ c (Proc.devRef .tc main_arg6) :=
  calc W1 m ρ c (Proc.devRef .tc main_arg6)
    _ = W0 m ρ c (Proc.devRef .tc main_arg6) := by host_keeps hostOps0

theorem W2_arg10 (c : Dev nD) : W2 m ρ c (Proc.devRef .tc main_arg10) = W0 m ρ c (Proc.devRef .tc main_arg10) :=
  calc W2 m ρ c (Proc.devRef .tc main_arg10)
    _ = W1 m ρ c (Proc.devRef .tc main_arg10) := W2_of_ne m ρ c main_arg10 (by decide)
    _ = W0 m ρ c (Proc.devRef .tc main_arg10) := by host_keeps hostOps0

theorem W2_arg11 (c : Dev nD) : W2 m ρ c (Proc.devRef .tc main_arg11) = W0 m ρ c (Proc.devRef .tc main_arg11) :=
  calc W2 m ρ c (Proc.devRef .tc main_arg11)
    _ = W1 m ρ c (Proc.devRef .tc main_arg11) := W2_of_ne m ρ c main_arg11 (by decide)
    _ = W0 m ρ c (Proc.devRef .tc main_arg11) := by host_keeps hostOps0

theorem W3_arg0 (c : Dev nD) : W3 m ρ c (Proc.devRef .tc main_arg0) = W0 m ρ c (Proc.devRef .tc main_arg0) :=
  calc W3 m ρ c (Proc.devRef .tc main_arg0)
    _ = W2 m ρ c (Proc.devRef .tc main_arg0) := by host_keeps hostOps1
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := by host_keeps hostOps0

theorem W3_arg2 (c : Dev nD) : W3 m ρ c (Proc.devRef .tc main_arg2) = W0 m ρ c (Proc.devRef .tc main_arg2) :=
  calc W3 m ρ c (Proc.devRef .tc main_arg2)
    _ = W2 m ρ c (Proc.devRef .tc main_arg2) := by host_keeps hostOps1
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := by host_keeps hostOps0

theorem W3_arg6 (c : Dev nD) : W3 m ρ c (Proc.devRef .tc main_arg6) = W0 m ρ c (Proc.devRef .tc main_arg6) :=
  calc W3 m ρ c (Proc.devRef .tc main_arg6)
    _ = W2 m ρ c (Proc.devRef .tc main_arg6) := by host_keeps hostOps1
    _ = W1 m ρ c (Proc.devRef .tc main_arg6) := (W2_arr m ρ c 3).trans (((dat0 (V1 m ρ) c).arrAt_in 3 rfl _).trans (A_eq0 (V1 m ρ) c 3))
    _ = W0 m ρ c (Proc.devRef .tc main_arg6) := by host_keeps hostOps0

theorem W3_v0 (c : Dev nD) : W3 m ρ c (Proc.devRef .tc main_v0) = W1 m ρ c (Proc.devRef .tc main_v0) :=
  calc W3 m ρ c (Proc.devRef .tc main_v0)
    _ = W2 m ρ c (Proc.devRef .tc main_v0) := by host_keeps hostOps1
    _ = W1 m ρ c (Proc.devRef .tc main_v0) := (W2_arr m ρ c 2).trans (((dat0 (V1 m ρ) c).arrAt_in 2 rfl _).trans (A_eq0 (V1 m ρ) c 2))

theorem W3_v1 (c : Dev nD) : W3 m ρ c (Proc.devRef .tc main_v1) = W1 m ρ c (Proc.devRef .tc main_v1) :=
  calc W3 m ρ c (Proc.devRef .tc main_v1)
    _ = W2 m ρ c (Proc.devRef .tc main_v1) := by host_keeps hostOps1
    _ = W1 m ρ c (Proc.devRef .tc main_v1) := (W2_arr m ρ c 4).trans (((dat0 (V1 m ρ) c).arrAt_in 4 rfl _).trans (A_eq0 (V1 m ρ) c 4))

theorem W4_arg5 (c : Dev nD) : W4 m ρ c (Proc.devRef .tc main_arg5) = W0 m ρ c (Proc.devRef .tc main_arg5) :=
  calc W4 m ρ c (Proc.devRef .tc main_arg5)
    _ = W3 m ρ c (Proc.devRef .tc main_arg5) := W4_of_ne m ρ c main_arg5 (by decide)
    _ = W2 m ρ c (Proc.devRef .tc main_arg5) := by host_keeps hostOps1
    _ = W1 m ρ c (Proc.devRef .tc main_arg5) := W2_of_ne m ρ c main_arg5 (by decide)
    _ = W0 m ρ c (Proc.devRef .tc main_arg5) := by host_keeps hostOps0

theorem W4_arg9 (c : Dev nD) : W4 m ρ c (Proc.devRef .tc main_arg9) = W0 m ρ c (Proc.devRef .tc main_arg9) :=
  calc W4 m ρ c (Proc.devRef .tc main_arg9)
    _ = W3 m ρ c (Proc.devRef .tc main_arg9) := W4_of_ne m ρ c main_arg9 (by decide)
    _ = W2 m ρ c (Proc.devRef .tc main_arg9) := by host_keeps hostOps1
    _ = W1 m ρ c (Proc.devRef .tc main_arg9) := W2_of_ne m ρ c main_arg9 (by decide)
    _ = W0 m ρ c (Proc.devRef .tc main_arg9) := by host_keeps hostOps0

theorem W5_arg1 (c : Dev nD) : W5 m ρ c (Proc.devRef .tc main_arg1) = W0 m ρ c (Proc.devRef .tc main_arg1) :=
  calc W5 m ρ c (Proc.devRef .tc main_arg1)
    _ = W4 m ρ c (Proc.devRef .tc main_arg1) := by host_keeps hostOps2
    _ = W3 m ρ c (Proc.devRef .tc main_arg1) := W4_of_ne m ρ c main_arg1 (by decide)
    _ = W2 m ρ c (Proc.devRef .tc main_arg1) := by host_keeps hostOps1
    _ = W1 m ρ c (Proc.devRef .tc main_arg1) := W2_of_ne m ρ c main_arg1 (by decide)
    _ = W0 m ρ c (Proc.devRef .tc main_arg1) := by host_keeps hostOps0

theorem W5_arg4 (c : Dev nD) : W5 m ρ c (Proc.devRef .tc main_arg4) = W0 m ρ c (Proc.devRef .tc main_arg4) :=
  calc W5 m ρ c (Proc.devRef .tc main_arg4)
    _ = W4 m ρ c (Proc.devRef .tc main_arg4) := by host_keeps hostOps2
    _ = W3 m ρ c (Proc.devRef .tc main_arg4) := W4_of_ne m ρ c main_arg4 (by decide)
    _ = W2 m ρ c (Proc.devRef .tc main_arg4) := by host_keeps hostOps1
    _ = W1 m ρ c (Proc.devRef .tc main_arg4) := W2_of_ne m ρ c main_arg4 (by decide)
    _ = W0 m ρ c (Proc.devRef .tc main_arg4) := by host_keeps hostOps0

theorem W5_arg8 (c : Dev nD) : W5 m ρ c (Proc.devRef .tc main_arg8) = W0 m ρ c (Proc.devRef .tc main_arg8) :=
  calc W5 m ρ c (Proc.devRef .tc main_arg8)
    _ = W4 m ρ c (Proc.devRef .tc main_arg8) := by host_keeps hostOps2
    _ = W3 m ρ c (Proc.devRef .tc main_arg8) := W4_of_ne m ρ c main_arg8 (by decide)
    _ = W2 m ρ c (Proc.devRef .tc main_arg8) := by host_keeps hostOps1
    _ = W1 m ρ c (Proc.devRef .tc main_arg8) := W2_of_ne m ρ c main_arg8 (by decide)
    _ = W0 m ρ c (Proc.devRef .tc main_arg8) := by host_keeps hostOps0

theorem W6_arg12 (c : Dev nD) : W6 m ρ c (Proc.devRef .tc main_arg12) = W0 m ρ c (Proc.devRef .tc main_arg12) :=
  calc W6 m ρ c (Proc.devRef .tc main_arg12)
    _ = W5 m ρ c (Proc.devRef .tc main_arg12) := W6_of_ne m ρ c main_arg12 (by decide)
    _ = W4 m ρ c (Proc.devRef .tc main_arg12) := by host_keeps hostOps2
    _ = W3 m ρ c (Proc.devRef .tc main_arg12) := W4_of_ne m ρ c main_arg12 (by decide)
    _ = W2 m ρ c (Proc.devRef .tc main_arg12) := by host_keeps hostOps1
    _ = W1 m ρ c (Proc.devRef .tc main_arg12) := W2_of_ne m ρ c main_arg12 (by decide)
    _ = W0 m ρ c (Proc.devRef .tc main_arg12) := by host_keeps hostOps0

theorem W6_arg13 (c : Dev nD) : W6 m ρ c (Proc.devRef .tc main_arg13) = W0 m ρ c (Proc.devRef .tc main_arg13) :=
  calc W6 m ρ c (Proc.devRef .tc main_arg13)
    _ = W5 m ρ c (Proc.devRef .tc main_arg13) := W6_of_ne m ρ c main_arg13 (by decide)
    _ = W4 m ρ c (Proc.devRef .tc main_arg13) := by host_keeps hostOps2
    _ = W3 m ρ c (Proc.devRef .tc main_arg13) := W4_of_ne m ρ c main_arg13 (by decide)
    _ = W2 m ρ c (Proc.devRef .tc main_arg13) := by host_keeps hostOps1
    _ = W1 m ρ c (Proc.devRef .tc main_arg13) := W2_of_ne m ρ c main_arg13 (by decide)
    _ = W0 m ρ c (Proc.devRef .tc main_arg13) := by host_keeps hostOps0

theorem W7_arg1 (c : Dev nD) : W7 m ρ c (Proc.devRef .tc main_arg1) = W0 m ρ c (Proc.devRef .tc main_arg1) :=
  calc W7 m ρ c (Proc.devRef .tc main_arg1)
    _ = W6 m ρ c (Proc.devRef .tc main_arg1) := by host_keeps hostOps3
    _ = W5 m ρ c (Proc.devRef .tc main_arg1) := (W6_arr m ρ c 0).trans (((dat2 (V5 m ρ) c).arrAt_in 0 rfl _).trans (A_eq2 (V5 m ρ) c 0))
    _ = W4 m ρ c (Proc.devRef .tc main_arg1) := by host_keeps hostOps2
    _ = W3 m ρ c (Proc.devRef .tc main_arg1) := W4_of_ne m ρ c main_arg1 (by decide)
    _ = W2 m ρ c (Proc.devRef .tc main_arg1) := by host_keeps hostOps1
    _ = W1 m ρ c (Proc.devRef .tc main_arg1) := W2_of_ne m ρ c main_arg1 (by decide)
    _ = W0 m ρ c (Proc.devRef .tc main_arg1) := by host_keeps hostOps0

theorem W7_arg4 (c : Dev nD) : W7 m ρ c (Proc.devRef .tc main_arg4) = W0 m ρ c (Proc.devRef .tc main_arg4) :=
  calc W7 m ρ c (Proc.devRef .tc main_arg4)
    _ = W6 m ρ c (Proc.devRef .tc main_arg4) := by host_keeps hostOps3
    _ = W5 m ρ c (Proc.devRef .tc main_arg4) := (W6_arr m ρ c 1).trans (((dat2 (V5 m ρ) c).arrAt_in 1 rfl _).trans (A_eq2 (V5 m ρ) c 1))
    _ = W4 m ρ c (Proc.devRef .tc main_arg4) := by host_keeps hostOps2
    _ = W3 m ρ c (Proc.devRef .tc main_arg4) := W4_of_ne m ρ c main_arg4 (by decide)
    _ = W2 m ρ c (Proc.devRef .tc main_arg4) := by host_keeps hostOps1
    _ = W1 m ρ c (Proc.devRef .tc main_arg4) := W2_of_ne m ρ c main_arg4 (by decide)
    _ = W0 m ρ c (Proc.devRef .tc main_arg4) := by host_keeps hostOps0

theorem W7_arg8 (c : Dev nD) : W7 m ρ c (Proc.devRef .tc main_arg8) = W0 m ρ c (Proc.devRef .tc main_arg8) :=
  calc W7 m ρ c (Proc.devRef .tc main_arg8)
    _ = W6 m ρ c (Proc.devRef .tc main_arg8) := by host_keeps hostOps3
    _ = W5 m ρ c (Proc.devRef .tc main_arg8) := (W6_arr m ρ c 3).trans (((dat2 (V5 m ρ) c).arrAt_in 3 rfl _).trans (A_eq2 (V5 m ρ) c 3))
    _ = W4 m ρ c (Proc.devRef .tc main_arg8) := by host_keeps hostOps2
    _ = W3 m ρ c (Proc.devRef .tc main_arg8) := W4_of_ne m ρ c main_arg8 (by decide)
    _ = W2 m ρ c (Proc.devRef .tc main_arg8) := by host_keeps hostOps1
    _ = W1 m ρ c (Proc.devRef .tc main_arg8) := W2_of_ne m ρ c main_arg8 (by decide)
    _ = W0 m ρ c (Proc.devRef .tc main_arg8) := by host_keeps hostOps0

theorem W7_v22 (c : Dev nD) : W7 m ρ c (Proc.devRef .tc main_v22) = W5 m ρ c (Proc.devRef .tc main_v22) :=
  calc W7 m ρ c (Proc.devRef .tc main_v22)
    _ = W6 m ρ c (Proc.devRef .tc main_v22) := by host_keeps hostOps3
    _ = W5 m ρ c (Proc.devRef .tc main_v22) := (W6_arr m ρ c 2).trans (((dat2 (V5 m ρ) c).arrAt_in 2 rfl _).trans (A_eq2 (V5 m ρ) c 2))

theorem W7_v23 (c : Dev nD) : W7 m ρ c (Proc.devRef .tc main_v23) = W5 m ρ c (Proc.devRef .tc main_v23) :=
  calc W7 m ρ c (Proc.devRef .tc main_v23)
    _ = W6 m ρ c (Proc.devRef .tc main_v23) := by host_keeps hostOps3
    _ = W5 m ρ c (Proc.devRef .tc main_v23) := (W6_arr m ρ c 4).trans (((dat2 (V5 m ρ) c).arrAt_in 4 rfl _).trans (A_eq2 (V5 m ρ) c 4))

theorem W8_v21 (c : Dev nD) : W8 m ρ c (Proc.devRef .tc main_v21) = W4 m ρ c (Proc.devRef .tc main_v21) :=
  calc W8 m ρ c (Proc.devRef .tc main_v21)
    _ = W7 m ρ c (Proc.devRef .tc main_v21) := W8_of_ne m ρ c main_v21 (by decide)
    _ = W6 m ρ c (Proc.devRef .tc main_v21) := by host_keeps hostOps3
    _ = W5 m ρ c (Proc.devRef .tc main_v21) := W6_of_ne m ρ c main_v21 (by decide)
    _ = W4 m ρ c (Proc.devRef .tc main_v21) := by host_keeps hostOps2

end Cert.KernelIdeal.Walk

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibAffine.lean ====
/-
  Rows times weights plus a bias row, over the extended reals, in its two spellings. A row-tiled kernel computes, for a block
  `x` of rows, `matmul (bf16 x) w 0 + broadcast b`: the rounding of the left operand to bf16 is the identity on the extended
  reals, the matrix unit's product into a zero accumulator is the finite sum over the contracted coordinate, and the bias row
  `[1, M]` is repeated down the rows. The host computes `dot_general X W + broadcast (broadcast b)` with `b` of shape `[M]`
  lifted to `[1, M]` and then to `[A, M]`. Entry `(r, j)` of either is `Σ_k X(r,k)·W(k,j) + b(j)`.
-/
import Idealize.ShloMosaic.PureOps.Ideal.Laws
import Idealize.ShloMosaic.Lib.ValueIdx
import Idealize.ShloMosaic.Lib.ValueLayout
import Idealize.ShloMosaic.Lib.Pipeline.Value
import proofs.«115960_j19353122636427_2_alg».proof.Proof.LibPlainDot

namespace Idealize.ShloMosaic.Affine

open Idealize.ShloMosaic.ValueIdx

variable {A K M : Nat}

/-- Rows times weights plus the bias row: entry `(r, j)` is `Σ_k X(r,k)·W(k,j) + b(0,j)`. -/
noncomputable def affine {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix2 (0 : Fin 1) ⟨(i 1).val, idx2_lt1 i⟩)

theorem affine_ix2 {φw : FTy} (X : FVec Ideal ⟨2, ![A, K]⟩ .f32) (W : FVec Ideal ⟨2, ![K, M]⟩ φw) (b : FVec Ideal ⟨2, ![1, M]⟩ .f32)
    (p : Fin A) (q : Fin M) :
    affine X W b (ix2 p q) = (∑ k : Fin K, X (ix2 p k) * W (ix2 k q)) + b (ix2 (0 : Fin 1) q) := rfl

/-- The kernel body's value at row `p`, column `q` of its block. -/
theorem body_apply {φw : FTy} (prec : Option ContractPrecision) (x0 : FVec Ideal ⟨2, ![A, K]⟩ .f32) (x1 : FVec Ideal ⟨2, ![K, M]⟩ φw)
    (x2 : FVec Ideal ⟨2, ![1, M]⟩ .f32) (ht : FTy.bf16.bits < FTy.f32.bits)
    (hb : (⟨2, ![1, M]⟩ : Shape).Broadcasts ⟨2, ![A, M]⟩) (p : Fin A) (q : Fin M) :
    addf (FloatOps.matmul (DotDims.plain A K M) prec (truncf .bf16 x0 ht) x1 (constant ⟨2, ![A, M]⟩ .f32 0x00000000#32))
        (broadcastTo ⟨2, ![A, M]⟩ x2 hb) (ix2 p q)
      = affine x0 x1 x2 (ix2 p q) := by
  rw [affine_ix2]
  refine (addf_apply _ _ _).trans ?_
  refine congrArg₂ (· + ·) ?_ ?_
  · exact PlainDot.matmul_apply_ix2 prec (truncf .bf16 x0 ht) x1 p q
  · exact broadcastTo_1b_ab_apply x2 hb p q

/-- A bias `[M]` lifted to `[1, M]` and then to `[A, M]`, at `(p, q)`: its entry `q`. -/
theorem bias_rows_apply (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if M = 1 then 0 else q.val
      split
      · omega
      · rfl
  · match a with
    | ⟨0, _⟩ =>
      show q.val = if M = 1 then 0 else q.val
      split
      · omega
      · rfl

/-- The host's spelling at `(p, q)`. -/
theorem host_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = (∑ k : Fin K, X (ix2 p k) * W (ix2 k q)) + b (ix1 q) := by
  refine (addf_apply _ _ _).trans ?_
  refine congrArg₂ (· + ·) ?_ ?_
  · exact PlainDot.dotGeneral_apply_ix2 prec sched X W p q
  · exact bias_rows_apply b h1 h2 p q

/-- The two spellings agree: the kernel's weights are the host's rounded to bf16 (the identity here) and its bias row the
    host's bias recast to `[1, M]`. -/
theorem affine_eq_host (prec : Option ContractPrecision) (sched : HostSchedule) (X : FVec Ideal ⟨2, ![A, K]⟩ .f32)
    (W : FVec Ideal ⟨2, ![K, M]⟩ .f32) (b : FVec Ideal ⟨1, ![M]⟩ .f32) (ht : FTy.bf16.bits < FTy.f32.bits)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    affine X (truncf .bf16 W ht) (shapeCast ⟨2, ![1, M]⟩ b hc)
      = addf (FloatOps.dotGeneral (DotDims.plain A K M) prec sched X W)
          (broadcastInDim ⟨2, ![A, M]⟩ ![0, 1] h2 (broadcastInDim ⟨2, ![1, M]⟩ ![1] h1 b)) := by
  funext i
  obtain ⟨p, q, rfl⟩ : ∃ (p : Fin A) (q : Fin M), i = ix2 p q := ⟨i 0, i 1, eq_ix2 i⟩
  rw [host_apply, affine_ix2, shapeCast_a_1a_apply]
  rfl

end Idealize.ShloMosaic.Affine
-- ==== Proof.LibSoftplusLayers.lean ====
/-
  The shifted softplus `log(1 + eˣ) − c` in the numerically stable spelling `max(x, 0) + log1p(exp(−|x − 0|))`, guarded by a
  test `(x − 0) ≠ (x − 0)` that never fires on the extended reals, and dense layers `rows · weights + bias row` with that
  activation between them, each in two spellings that denote one function of the extended reals:

  * a kernel body's — the rows of one block, the weights rounded to bf16 (the identity here), a matrix-unit product into a zero
    accumulator, the bias a `[1, M]` row repeated down the rows, the negation spelled `0 − y`, the never-firing test the ordered
    "not equal";
  * the host's — `dot_general`, the bias `[M]` lifted to `[1, M]` and then to `[A, M]`, the constants rank-0 arrays broadcast
    to the shape, `negate`, the test the unordered "not equal".

  Entry `(p, q)` of a layer reads row `p` of its input only, so a block of rows of the result is the result of that block of rows.
-/
import Idealize.ShloMosaic.PureOps.Ideal.Laws
import Idealize.ShloMosaic.Lib.ValueIdx
import Idealize.ShloMosaic.Lib.ValueLayout
import Idealize.ShloMosaic.Lib.Pipeline.Value
import proofs.«115960_j19353122636427_2_alg».proof.Proof.LibPlainDot
import proofs.«115960_j19353122636427_2_alg».proof.Proof.LibAffine

noncomputable section

namespace Idealize.ShloMosaic.SoftplusLayers

open Idealize.ShloMosaic.ValueIdx Idealize.ShloMosaic.Affine

/-! ## The activation on one extended real -/

/-- The f32 word of `0.0`, kept as a word: both spellings carry it, and only the step `0 − y = −y` evaluates it. -/
def zeroW : EReal := Ideal.ofBits .f32 0x00000000#32

/-- The f32 word the activation is shifted by (the float nearest `log 2`), never evaluated: both spellings carry the same word. -/
def shiftW : EReal := Ideal.ofBits .f32 0x3F317218#32

/-- `max(x, 0) + log1p(exp(−|x − 0|)) − c` behind the guard `(x − 0) ≠ (x − 0)`, which selects `x + 0` where it holds (nowhere). -/
def ssp (x : EReal) : EReal :=
  Scalar.select (Ideal.cmp .une (x - zeroW) (x - zeroW)) (x + zeroW)
    (max x zeroW + Ideal.log1p (Ideal.exp (-(max (x - zeroW) (-(x - zeroW)))))) - shiftW

/-- The kernel body's spelling of the same number: the ordered "not equal" and `0 − |·|`. -/
theorem ssp_kernel (x : EReal) :
    Scalar.select (Ideal.cmp .one (x - zeroW) (x - zeroW)) (x + zeroW)
      (max x zeroW + Ideal.log1p (Ideal.exp (zeroW - max (x - zeroW) (-(x - zeroW))))) - shiftW = ssp x := by
  have hz : zeroW - max (x - zeroW) (-(x - zeroW)) = -(max (x - zeroW) (-(x - zeroW))) := by
    rw [show zeroW = (0 : EReal) from Ideal.ofBits_zero_f32, zero_sub]
  rw [hz]
  rfl

/-! ## The activation on an array, in the two spellings -/

variable {s : Shape}

/-- The activation applied to every entry. -/
def sspV (x : FVec Ideal s .f32) : FVec Ideal s .f32 := fun i => ssp (x i)

/-- A kernel body's spelling on a vector: scalar constants splat to the shape. -/
def sspK (x : FVec Ideal s .f32) : FVec Ideal s .f32 :=
  subf (select (cmpf .one (subf x (broadcast s (Scalar.ofBits (F := Ideal) .f32 0x00000000#32))) (subf x (broadcast s (Scalar.ofBits (F := Ideal) .f32 0x00000000#32))))
      (addf x (broadcast s (Scalar.ofBits (F := Ideal) .f32 0x00000000#32)))
      (addf (maximumf x (broadcast s (Scalar.ofBits (F := Ideal) .f32 0x00000000#32)))
        (log1p (exp (subf (broadcast s (Scalar.ofBits (F := Ideal) .f32 0x00000000#32)) (absf (subf x (broadcast s (Scalar.ofBits (F := Ideal) .f32 0x00000000#32)))))))))
    (broadcast s (Scalar.ofBits (F := Ideal) .f32 0x3F317218#32))

theorem sspK_eq (x : FVec Ideal s .f32) : sspK x = sspV x := funext fun i => ssp_kernel (x i)

/-- The host's spelling: rank-0 constants broadcast to the shape, `abs`, `negate`, `exponential`, `log_plus_one`. -/
def sspH (h0 : (⟨0, ![]⟩ : Shape).BroadcastsInDim s ![]) (x : FVec Ideal s .f32) : FVec Ideal s .f32 :=
  subf (select (cmpf .une (subf x (broadcastInDim s ![] h0 (constant (F := Ideal) ⟨0, ![]⟩ .f32 0x00000000#32))) (subf x (broadcastInDim s ![] h0 (constant (F := Ideal) ⟨0, ![]⟩ .f32 0x00000000#32))))
      (addf x (broadcastInDim s ![] h0 (constant (F := Ideal) ⟨0, ![]⟩ .f32 0x00000000#32)))
      (addf (maximumf x (broadcastInDim s ![] h0 (constant (F := Ideal) ⟨0, ![]⟩ .f32 0x00000000#32)))
        (Host.log1p (Host.exp (Host.negf (Host.absf (subf x (broadcastInDim s ![] h0 (constant (F := Ideal) ⟨0, ![]⟩ .f32 0x00000000#32)))))))))
    (broadcastInDim s ![] h0 (constant (F := Ideal) ⟨0, ![]⟩ .f32 0x3F317218#32))

theorem sspH_eq (h0 : (⟨0, ![]⟩ : Shape).BroadcastsInDim s ![]) (x : FVec Ideal s .f32) : sspH h0 x = sspV x := rfl

/-! ## A dense layer in the two spellings -/

variable {A A' K H M : Nat}

/-- A kernel body's dense layer on a block of rows: rows and weights rounded to bf16, the matrix unit's product into a zero
    accumulator, the bias row (recast to its own shape) repeated down the rows. -/
def denseK (d : DotDims ⟨2, ![A, K]⟩ ⟨2, ![K, M]⟩ ⟨2, ![A, M]⟩) (ht : FTy.bf16.bits < FTy.f32.bits)
    (hc : (⟨2, ![1, M]⟩ : Shape).ShapeCasts ⟨2, ![1, M]⟩) (hb : (⟨2, ![1, M]⟩ : Shape).Broadcasts ⟨2, ![A, M]⟩)
    (x : FVec Ideal ⟨2, ![A, K]⟩ .f32) (w : FVec Ideal ⟨2, ![K, M]⟩ .f32) (b : FVec Ideal ⟨2, ![1, M]⟩ .f32) :
    FVec Ideal ⟨2, ![A, M]⟩ .f32 :=
  addf (matmul d none (truncf .bf16 x ht) (truncf .bf16 w ht) (constant ⟨2, ![A, M]⟩ .f32 0x00000000#32))
    (broadcastTo ⟨2, ![A, M]⟩ (shapeCast ⟨2, ![1, M]⟩ b hc) hb)

/-- It is `rows · weights + bias row`, entry by entry. -/
theorem denseK_eq {d : DotDims ⟨2, ![A, K]⟩ ⟨2, ![K, M]⟩ ⟨2, ![A, M]⟩} (hd : d = DotDims.plain A K M)
    (ht : FTy.bf16.bits < FTy.f32.bits) (hc : (⟨2, ![1, M]⟩ : Shape).ShapeCasts ⟨2, ![1, M]⟩)
    (hb : (⟨2, ![1, M]⟩ : Shape).Broadcasts ⟨2, ![A, M]⟩)
    (x : FVec Ideal ⟨2, ![A, K]⟩ .f32) (w : FVec Ideal ⟨2, ![K, M]⟩ .f32) (b : FVec Ideal ⟨2, ![1, M]⟩ .f32) :
    denseK d ht hc hb x w b = affine x (truncf .bf16 w ht) b := by
  subst hd
  funext i
  obtain ⟨p, q, rfl⟩ : ∃ (p : Fin A) (q : Fin M), i = ix2 p q := ⟨i 0, i 1, eq_ix2 i⟩
  unfold denseK
  rw [shapeCast_self]
  exact body_apply none x (truncf .bf16 w ht) b ht hb p q

/-- The host's dense layer on all the rows: `dot_general` plus the bias lifted to a row and then to the rows. -/
def denseH (d : DotDims ⟨2, ![A, K]⟩ ⟨2, ![K, M]⟩ ⟨2, ![A, M]⟩)
    (h1 : (⟨1, ![M]⟩ : Shape).BroadcastsInDim ⟨2, ![1, M]⟩ ![1])
    (h2 : (⟨2, ![1, M]⟩ : Shape).BroadcastsInDim ⟨2, ![A, M]⟩ ![0, 1])
    (X : FVec Ideal ⟨2, ![A, K]⟩ .f32) (W : FVec Ideal ⟨2, ![K, M]⟩ .f32) (b : FVec Ideal ⟨1, ![M]⟩ .f32) :
    FVec Ideal ⟨2, ![A, M]⟩ .f32 :=
  addf (Host.dotGeneral d none X W) (broadcastInDim ⟨2, ![A, M]⟩ ![0, 1] h2 (broadcastInDim ⟨2, ![1, M]⟩ ![1] h1 b))

/-- It is the same function of the weights rounded to bf16 and the bias recast to a row. -/
theorem denseH_eq {d : DotDims ⟨2, ![A, K]⟩ ⟨2, ![K, M]⟩ ⟨2, ![A, M]⟩} (hd : d = DotDims.plain A K M)
    (h1 : (⟨1, ![M]⟩ : Shape).BroadcastsInDim ⟨2, ![1, M]⟩ ![1])
    (h2 : (⟨2, ![1, M]⟩ : Shape).BroadcastsInDim ⟨2, ![A, M]⟩ ![0, 1])
    (ht : FTy.bf16.bits < FTy.f32.bits) (hc : (⟨1, ![M]⟩ : Shape).ShapeCasts ⟨2, ![1, M]⟩)
    (X : FVec Ideal ⟨2, ![A, K]⟩ .f32) (W : FVec Ideal ⟨2, ![K, M]⟩ .f32) (b : FVec Ideal ⟨1, ![M]⟩ .f32) :
    denseH d h1 h2 X W b = affine X (truncf .bf16 W ht) (shapeCast ⟨2, ![1, M]⟩ b hc) := by
  subst hd
  exact (affine_eq_host none .single X W b ht hc h1 h2).symm

/-- Entry `(p, q)` of a dense layer reads row `p` of its input only: rows that agree give entries that agree. -/
theorem affine_rows {φw : FTy} (Xb : FVec Ideal ⟨2, ![A, K]⟩ .f32) (X : FVec Ideal ⟨2, ![A', K]⟩ .f32)
    (W : FVec Ideal ⟨2, ![K, M]⟩ φw) (b : FVec Ideal ⟨2, ![1, M]⟩ .f32) (p : Fin A) (r : Fin A')
    (h : ∀ k : Fin K, Xb (ix2 p k) = X (ix2 r k)) (q : Fin M) :
    affine Xb W b (ix2 p q) = affine X W b (ix2 r q) := by
  rw [affine_ix2, affine_ix2]
  congr 1
  exact Finset.sum_congr rfl fun k _ => by rw [h k]

/-! ## Two layers with the activation after each (an edge network), and two layers with the activation between (an output head) -/

/-- `ssp (ssp (X·W1 + b1)·W2 + b2)`. -/
def mlp2 {φ1 φ2 : FTy} (X : FVec Ideal ⟨2, ![A, K]⟩ .f32) (W1 : FVec Ideal ⟨2, ![K, H]⟩ φ1) (b1 : FVec Ideal ⟨2, ![1, H]⟩ .f32)
    (W2 : FVec Ideal ⟨2, ![H, M]⟩ φ2) (b2 : FVec Ideal ⟨2, ![1, M]⟩ .f32) : FVec Ideal ⟨2, ![A, M]⟩ .f32 :=
  sspV (affine (sspV (affine X W1 b1)) W2 b2)

theorem mlp2_rows {φ1 φ2 : FTy} (Xb : FVec Ideal ⟨2, ![A, K]⟩ .f32) (X : FVec Ideal ⟨2, ![A', K]⟩ .f32)
    (W1 : FVec Ideal ⟨2, ![K, H]⟩ φ1) (b1 : FVec Ideal ⟨2, ![1, H]⟩ .f32)
    (W2 : FVec Ideal ⟨2, ![H, M]⟩ φ2) (b2 : FVec Ideal ⟨2, ![1, M]⟩ .f32) (p : Fin A) (r : Fin A')
    (h : ∀ k : Fin K, Xb (ix2 p k) = X (ix2 r k)) (q : Fin M) :
    mlp2 Xb W1 b1 W2 b2 (ix2 p q) = mlp2 X W1 b1 W2 b2 (ix2 r q) := by
  show ssp (affine (sspV (affine Xb W1 b1)) W2 b2 (ix2 p q)) = ssp (affine (sspV (affine X W1 b1)) W2 b2 (ix2 r q))
  refine congrArg ssp ?_
  exact affine_rows _ _ W2 b2 p r (fun k => congrArg ssp (affine_rows Xb X W1 b1 p r h k)) q

/-- `ssp (X·Wo + bo)·Wp + bp`. -/
def proj2 {φ1 φ2 : FTy} (X : FVec Ideal ⟨2, ![A, K]⟩ .f32) (Wo : FVec Ideal ⟨2, ![K, H]⟩ φ1) (bo : FVec Ideal ⟨2, ![1, H]⟩ .f32)
    (Wp : FVec Ideal ⟨2, ![H, M]⟩ φ2) (bp : FVec Ideal ⟨2, ![1, M]⟩ .f32) : FVec Ideal ⟨2, ![A, M]⟩ .f32 :=
  affine (sspV (affine X Wo bo)) Wp bp

theorem proj2_rows {φ1 φ2 : FTy} (Xb : FVec Ideal ⟨2, ![A, K]⟩ .f32) (X : FVec Ideal ⟨2, ![A', K]⟩ .f32)
    (Wo : FVec Ideal ⟨2, ![K, H]⟩ φ1) (bo : FVec Ideal ⟨2, ![1, H]⟩ .f32)
    (Wp : FVec Ideal ⟨2, ![H, M]⟩ φ2) (bp : FVec Ideal ⟨2, ![1, M]⟩ .f32) (p : Fin A) (r : Fin A')
    (h : ∀ k : Fin K, Xb (ix2 p k) = X (ix2 r k)) (q : Fin M) :
    proj2 Xb Wo bo Wp bp (ix2 p q) = proj2 X Wo bo Wp bp (ix2 r q) :=
  affine_rows _ _ Wp bp p r (fun k => congrArg ssp (affine_rows Xb X Wo bo p r h k)) q

/-- The edge network as a kernel body spells it on a block of rows. -/
def mlp2K (d1 : DotDims ⟨2, ![A, K]⟩ ⟨2, ![K, H]⟩ ⟨2, ![A, H]⟩) (d2 : DotDims ⟨2, ![A, H]⟩ ⟨2, ![H, M]⟩ ⟨2, ![A, M]⟩)
    (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) : FVec Ideal ⟨2, ![A, M]⟩ .f32 :=
  sspK (denseK d2 ht hc2 hb2 (sspK (denseK d1 ht hc1 hb1 x0 x1 x2)) x3 x4)

theorem mlp2K_eq {d1 : DotDims ⟨2, ![A, K]⟩ ⟨2, ![K, H]⟩ ⟨2, ![A, H]⟩} {d2 : DotDims ⟨2, ![A, H]⟩ ⟨2, ![H, M]⟩ ⟨2, ![A, M]⟩}
    (hd1 : d1 = DotDims.plain A K H) (hd2 : d2 = DotDims.plain A H M) (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) :
    mlp2K d1 d2 ht hc1 hb1 hc2 hb2 x0 x1 x2 x3 x4 = mlp2 x0 (truncf .bf16 x1 ht) x2 (truncf .bf16 x3 ht) x4 := by
  unfold mlp2K mlp2
  rw [denseK_eq hd1, sspK_eq, denseK_eq hd2, sspK_eq]

/-- The output head as a kernel body spells it on a block of rows. -/
def proj2K (d1 : DotDims ⟨2, ![A, K]⟩ ⟨2, ![K, H]⟩ ⟨2, ![A, H]⟩) (d2 : DotDims ⟨2, ![A, H]⟩ ⟨2, ![H, M]⟩ ⟨2, ![A, M]⟩)
    (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) : FVec Ideal ⟨2, ![A, M]⟩ .f32 :=
  denseK d2 ht hc2 hb2 (sspK (denseK d1 ht hc1 hb1 x0 x1 x2)) x3 x4

theorem proj2K_eq {d1 : DotDims ⟨2, ![A, K]⟩ ⟨2, ![K, H]⟩ ⟨2, ![A, H]⟩} {d2 : DotDims ⟨2, ![A, H]⟩ ⟨2, ![H, M]⟩ ⟨2, ![A, M]⟩}
    (hd1 : d1 = DotDims.plain A K H) (hd2 : d2 = DotDims.plain A H M) (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) :
    proj2K d1 d2 ht hc1 hb1 hc2 hb2 x0 x1 x2 x3 x4 = proj2 x0 (truncf .bf16 x1 ht) x2 (truncf .bf16 x3 ht) x4 := by
  unfold proj2K proj2
  rw [denseK_eq hd1, sspK_eq, denseK_eq hd2]

end Idealize.ShloMosaic.SoftplusLayers

end
-- ==== Proof.LibVariance.lean ====
/-
  The variance of finitely many real numbers, in one pass and in two.

  For real numbers h_p over a finite index set of N ≠ 0 elements with mean μ = (Σ_p h_p)/N,
      Σ_p (h_p − μ)² = Σ_p h_p² − 2μ·Σ_p h_p + N·μ² = Σ_p h_p² − N·μ²,
  so the mean of the squared deviations is the mean of the squares less the squared mean. On the extended reals, with
  the exact quotient by a word that denotes the real N and every entry the image of a real, both spellings are the image
  of that one real number. The hypothesis is needed: at an infinite entry the one-pass form subtracts ⊤ from ⊤ while the
  two-pass form squares ⊤ − ⊤, and the two junk values differ.
-/
import Idealize.ShloMosaic.PureOps.Ideal
import Mathlib.Tactic

open scoped BigOperators

namespace Idealize.ShloMosaic.Variance

/-- On real numbers: the mean of the squared deviations from the mean is the mean of the squares less the squared
    mean, the quotients written as products with 1/N. -/
theorem var_real {ι : Type*} [Fintype ι] (h : ι → ℝ) (N : ℝ) (hcard : (Fintype.card ι : ℝ) = N) (hN : N ≠ 0) :
    (∑ p, (h p - (∑ p, h p) * (1 / N)) * (h p - (∑ p, h p) * (1 / N))) * (1 / N)
      = (∑ p, h p * h p) * (1 / N) - ((∑ p, h p) * (1 / N)) * ((∑ p, h p) * (1 / N)) := by
  set S : ℝ := ∑ p, h p with hS
  have hsq : ∀ p, (h p - S * (1 / N)) * (h p - S * (1 / N))
      = h p * h p - 2 * (S * (1 / N)) * h p + (S * (1 / N)) * (S * (1 / N)) := fun p => by ring
  simp only [hsq, Finset.sum_add_distrib, Finset.sum_sub_distrib, ← Finset.mul_sum, Finset.sum_const, Finset.card_univ,
    nsmul_eq_mul, ← hS, hcard]
  field_simp
  ring

/-- The coercion of the reals into the extended reals commutes with a sum over a finite type. -/
theorem coe_sum {ι : Type*} [Fintype ι] (f : ι → ℝ) : ((∑ p, f p : ℝ) : EReal) = ∑ p, ((f p : ℝ) : EReal) := by
  classical
  refine Finset.induction_on (Finset.univ : Finset ι) (by simp) ?_
  intro a s ha ih
  rw [Finset.sum_insert ha, Finset.sum_insert ha, EReal.coe_add, ih]

/-- On the extended reals, at the ideal instance's exact quotient by a value that is the real N = the number of entries:
    for real entries the two-pass variance is the one-pass variance. -/
theorem var_two_pass_eq_one_pass {ι : Type*} [Fintype ι] (h : ι → ℝ) (cnt : EReal) (N : ℝ) (hcnt : cnt = (N : EReal))
    (hcard : (Fintype.card ι : ℝ) = N) (hN : N ≠ 0) :
    Ideal.div (∑ p, (((h p : ℝ) : EReal) - Ideal.div (∑ p, ((h p : ℝ) : EReal)) cnt)
        * (((h p : ℝ) : EReal) - Ideal.div (∑ p, ((h p : ℝ) : EReal)) cnt)) cnt
      = Ideal.div (∑ p, ((h p : ℝ) : EReal) * ((h p : ℝ) : EReal)) cnt
        - Ideal.div (∑ p, ((h p : ℝ) : EReal)) cnt * Ideal.div (∑ p, ((h p : ℝ) : EReal)) cnt := by
  subst hcnt
  have hm : Ideal.div (∑ p, ((h p : ℝ) : EReal)) (N : EReal) = (((∑ p, h p) * (1 / N) : ℝ) : EReal) := by
    rw [← coe_sum, Ideal.div_coe hN, ← EReal.coe_mul]
  rw [hm]
  simp only [← EReal.coe_sub, ← EReal.coe_mul, ← coe_sum]
  rw [Ideal.div_coe hN, Ideal.div_coe hN, ← EReal.coe_mul, ← EReal.coe_mul, ← EReal.coe_sub, var_real h N hcard hN]

end Idealize.ShloMosaic.Variance
-- ==== Proof.LibBatchNorm.lean ====
/-
  Two dense layers followed by batch normalisation over the rows (statistics of the batch, biased variance) and a leaky
  rectifier, on the extended reals.

  For a matrix `h` of `A` rows and `M` columns, column `j` has the mean `μ_j = (Σ_r h(r,j)) / A` and two
  spellings of the variance: the mean of the squared deviations `(Σ_r (h(r,j) − μ_j)²) / A`, and the mean of the
  squares less the squared mean, clamped below at zero, `max ((Σ_r h(r,j)²) / A − μ_j², 0)`. On real entries the two
  agree: the first is a mean of squares, hence nonnegative, and expanding the square gives the second before the clamp.
  The result at `(r, j)` is `y = (h(r,j) − μ_j) · (σ²_j + ε)^(-1/2) · γ_j + β_j` where `y ≥ 0` and `0.01 · y` elsewhere.
-/
import Idealize.ShloMosaic.PureOps.Ideal.Laws
import Idealize.ShloMosaic.Lib.ValueIdx
import proofs.«115960_j19353122636427_2_alg».proof.Proof.LibSoftplusLayers
import proofs.«115960_j19353122636427_2_alg».proof.Proof.LibVariance

noncomputable section

namespace Idealize.ShloMosaic.BatchNorm

open Idealize.ShloMosaic Idealize.ShloMosaic.ValueIdx Idealize.ShloMosaic.Affine

/-- The f32 words of `0.0`, of the variance's `ε` and of the rectifier's slope, kept as words: both programs carry the same. -/
def zeroW : EReal := Ideal.ofBits .f32 0x00000000#32
def epsW : EReal := Ideal.ofBits .f32 0x3727C5AC#32
def slopeW : EReal := Ideal.ofBits .f32 0x3C23D70A#32

theorem zeroW_eq : zeroW = 0 := Ideal.ofBits_zero_f32

variable {A A' K H M : Nat}

/-- Two dense layers, no activation between: `(X·W1 + b1)·W2 + b2`, the biases as rows. -/
def lin2 {φ1 φ2 : FTy} (X : FVec Ideal ⟨2, ![A, K]⟩ .f32) (W1 : FVec Ideal ⟨2, ![K, H]⟩ φ1) (b1 : FVec Ideal ⟨2, ![1, H]⟩ .f32)
    (W2 : FVec Ideal ⟨2, ![H, M]⟩ φ2) (b2 : FVec Ideal ⟨2, ![1, M]⟩ .f32) : FVec Ideal ⟨2, ![A, M]⟩ .f32 :=
  affine (affine X W1 b1) W2 b2

/-- Entry `(p, q)` of the two layers reads row `p` of the input only. -/
theorem lin2_rows {φ1 φ2 : FTy} (Xb : FVec Ideal ⟨2, ![A, K]⟩ .f32) (X : FVec Ideal ⟨2, ![A', K]⟩ .f32)
    (W1 : FVec Ideal ⟨2, ![K, H]⟩ φ1) (b1 : FVec Ideal ⟨2, ![1, H]⟩ .f32)
    (W2 : FVec Ideal ⟨2, ![H, M]⟩ φ2) (b2 : FVec Ideal ⟨2, ![1, M]⟩ .f32) (p : Fin A) (r : Fin A')
    (h : ∀ k : Fin K, Xb (ix2 p k) = X (ix2 r k)) (q : Fin M) :
    lin2 Xb W1 b1 W2 b2 (ix2 p q) = lin2 X W1 b1 W2 b2 (ix2 r q) :=
  SoftplusLayers.affine_rows _ _ W2 b2 p r (fun k => SoftplusLayers.affine_rows Xb X W1 b1 p r h k) q

/-- Normalise by a mean and a variance, scale, shift, and rectify with the slope below zero: one entry. -/
def act (x mean var g b : EReal) : EReal :=
  Scalar.select (Ideal.cmp .oge ((x - mean) * Ideal.rsqrt (var + epsW) * g + b) zeroW)
    ((x - mean) * Ideal.rsqrt (var + epsW) * g + b) (slopeW * ((x - mean) * Ideal.rsqrt (var + epsW) * g + b))

/-- The sum down column `j`, and the sum of the squares. -/
def colSum (h : FVec Ideal ⟨2, ![A, M]⟩ .f32) (j : Fin M) : EReal := ∑ r : Fin A, h (ix2 r j)
def colSumSq (h : FVec Ideal ⟨2, ![A, M]⟩ .f32) (j : Fin M) : EReal := ∑ r : Fin A, h (ix2 r j) * h (ix2 r j)

/-- The mean of column `j` (the sum started from the zero word, divided by the count `cnt`). -/
def meanOf (h : FVec Ideal ⟨2, ![A, M]⟩ .f32) (cnt : EReal) (j : Fin M) : EReal := Ideal.div (zeroW + colSum h j) cnt

/-- The variance of column `j` as the mean of the squared deviations from the mean. -/
def varTwoPass (h : FVec Ideal ⟨2, ![A, M]⟩ .f32) (cnt : EReal) (j : Fin M) : EReal :=
  Ideal.div (zeroW + ∑ r : Fin A, (h (ix2 r j) - meanOf h cnt j) * (h (ix2 r j) - meanOf h cnt j)) cnt

/-- The variance of column `j` as the mean of the squares less the squared mean, clamped below at the zero word. -/
def varOnePass (h : FVec Ideal ⟨2, ![A, M]⟩ .f32) (cnt : EReal) (j : Fin M) : EReal :=
  max (Ideal.div (zeroW + colSumSq h j) cnt - meanOf h cnt j * meanOf h cnt j) zeroW

/-- The whole result from the matrix `h`, a mean row, a variance row, and the scale and shift as rows `[1, M]`. -/
def normRows (h : FVec Ideal ⟨2, ![A, M]⟩ .f32) (mean var g b : FVec Ideal ⟨2, ![1, M]⟩ .f32) : FVec Ideal ⟨2, ![A, M]⟩ .f32 :=
  fun i => act (h i) (mean (ix2 (0 : Fin 1) ⟨(i 1).val, idx2_lt1 i⟩)) (var (ix2 (0 : Fin 1) ⟨(i 1).val, idx2_lt1 i⟩))
    (g (ix2 (0 : Fin 1) ⟨(i 1).val, idx2_lt1 i⟩)) (b (ix2 (0 : Fin 1) ⟨(i 1).val, idx2_lt1 i⟩))

theorem normRows_ix2 (h : FVec Ideal ⟨2, ![A, M]⟩ .f32) (mean var g b : FVec Ideal ⟨2, ![1, M]⟩ .f32) (p : Fin A) (q : Fin M) :
    normRows h mean var g b (ix2 p q)
      = act (h (ix2 p q)) (mean (ix2 (0 : Fin 1) q)) (var (ix2 (0 : Fin 1) q)) (g (ix2 (0 : Fin 1) q)) (b (ix2 (0 : Fin 1) q)) := rfl

/-- The whole result with the batch's own statistics (two-pass variance) and the scale and shift as vectors `[M]`. -/
def bnOut (h : FVec Ideal ⟨2, ![A, M]⟩ .f32) (cnt : EReal) (g b : FVec Ideal ⟨1, ![M]⟩ .f32) : FVec Ideal ⟨2, ![A, M]⟩ .f32 :=
  fun i => act (h i) (meanOf h cnt ⟨(i 1).val, idx2_lt1 i⟩) (varTwoPass h cnt ⟨(i 1).val, idx2_lt1 i⟩)
    (g (ix1 ⟨(i 1).val, idx2_lt1 i⟩)) (b (ix1 ⟨(i 1).val, idx2_lt1 i⟩))

theorem bnOut_ix2 (h : FVec Ideal ⟨2, ![A, M]⟩ .f32) (cnt : EReal) (g b : FVec Ideal ⟨1, ![M]⟩ .f32) (p : Fin A) (q : Fin M) :
    bnOut h cnt g b (ix2 p q)
      = act (h (ix2 p q)) (meanOf h cnt q) (varTwoPass h cnt q) (g (ix1 q)) (b (ix1 q)) := rfl

end Idealize.ShloMosaic.BatchNorm

end
-- ==== Proof.LibRowColumn.lean ====
/-
  Small layout and reduction readings for a `[a, b]` matrix whose columns are reduced, at indices given by coordinates.
  • A one-row matrix `[1, a]` cast to the column `[a, 1]` reads, at `(i, u)`, the row's entry `i`.
  • A `vector.multi_reduction <maximumf>` / `<add>` of a `[a, b]` matrix over its ROWS (axis 0), at column `c`: the fold of
    `max` from the accumulator, resp. the sum, over `k : Fin a` of the entries `(k, c)`.
  • The host's `stablehlo.reduce` of a `[a, b]` matrix over its COLUMNS (axis 1) with a maximum body, at row `r`: the fold of
    `max` from the initial value over `k : Fin b` of the entries `(r, k)`.
  • The f32 patterns `0xFF800000` and `0x3F800000` denote −∞ and 1; a maximum with −∞ and a quotient by 1 change nothing.
-/
import Idealize.ShloMosaic.PureOps.Ideal.Laws
import Idealize.ShloMosaic.Lib.Pipeline.Value
import Idealize.ShloMosaic.Lib.ValueIdx

namespace Idealize.ShloMosaic.RowColumn

open Idealize.ShloMosaic Idealize.ShloMosaic.ValueIdx

/-- A `[1, a]` array cast to the column `[a, 1]` reads, at `(i, u)`, the one row's entry `i`. -/
theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- Column `c` of a `[a, b]` matrix with row `k` put back is `(k, c)`. -/
theorem lift_rows {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- Row `r` of a `[a, b]` matrix with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext d; apply Fin.ext
  fin_cases d <;> rfl

variable {φ : FTy}

/-- The maximum down column `c` of a `[a, b]` matrix, as a kernel's `multi_reduction <maximumf>` over the rows computes it. -/
theorem multiReduction_maximumf_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (c : Fin b) :
    multiReduction .maximumf [0] ⟨1, ![b]⟩ src acc h hφ hacc (ix1 c)
      = (Finset.univ : Finset (Fin a)).fold max (Ideal.ofBits φ acc) (fun k => src (ix2 k c)) := by
  rw [Ideal.multiReduction_maximumf_single]
  exact congrArg (fun f => Finset.fold max (Ideal.ofBits φ acc) f (Finset.univ : Finset (Fin a)))
    (funext fun k => congrArg src (lift_rows h c k))

/-- The sum down column `c` of a `[a, b]` matrix, as a kernel's `multi_reduction <add>` over the rows computes it. -/
theorem multiReduction_add_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ k : Fin a, src (ix2 k c) := by
  rw [Ideal.multiReduction_add_single]
  exact Finset.sum_congr rfl fun k _ => congrArg src (lift_rows h c k)

/-- The maximum along row `r` of a `[a, b]` matrix, as the host's `stablehlo.reduce` with a maximum body over the columns
    computes it from the initial value `init`. -/
theorem hostReduce_maximumf_cols {a b : ℕ} {u : Shape} (x : FVec Ideal ⟨2, ![a, b]⟩ φ) (init : FVec Ideal u φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_cols h r k))

/-- The f32 pattern `0xFF800000` denotes −∞. -/
theorem ofBits_negInf : Ideal.ofBits .f32 0xFF800000#32 = (⊥ : EReal) := by simp [Ideal.ofBits, Ideal.ieee]

/-- The maximum of −∞ and `y` is `y`. -/
theorem max_negInf (y : EReal) : max (Ideal.ofBits .f32 0xFF800000#32) y = y := by
  rw [ofBits_negInf]; exact max_bot_left y

/-- The f32 pattern `0x3F800000` denotes 1. -/
theorem ofBits_one : Ideal.ofBits .f32 0x3F800000#32 = (1 : EReal) := IdealRules.sign_bit.ideal_onePat .f32

/-- A quotient by 1 is the dividend, at the infinities too. -/
theorem div_one (y : EReal) : Ideal.div y (Ideal.ofBits .f32 0x3F800000#32) = y := by
  rw [ofBits_one, ← EReal.coe_one, Ideal.div_coe (by norm_num : (1 : ℝ) ≠ 0)]
  norm_num

end Idealize.ShloMosaic.RowColumn
-- ==== Proof.StatsUser.lean ====
/-
  The statistics pass over the 400000 rows of one node type, read off the run of its grid.

  The grid has 50 points: two halves of 25 consecutive blocks of 8000 rows. At each point the body computes the two dense
  layers `h` of its block of rows and adds, to every one of the 8 rows of the half's accumulator block, the column sums
  `Σ_p h(p, j)` (first accumulator) and `Σ_p h(p, j)²` (second accumulator); the first point of a half stores zeros
  first. An accumulator block is written back once, after the last point of its half. So entry `(s, u, j)` of either
  result array is `0 + Σ_{k<25} Σ_{p<8000}` of column `j` of `h` (or of its square) at row `8000·(25·s + k) + p`.
-/
import proofs.«115960_j19353122636427_2_alg».proof.Proof.Gen.KernelIdeal.Frame
import Idealize.ShloMosaic.Lib.Pipeline.Value
import Idealize.ShloMosaic.Lib.ValueLayout
import Idealize.ShloMosaic.Lib.Tactic
import proofs.«115960_j19353122636427_2_alg».proof.Proof.LibBatchNorm
import proofs.«115960_j19353122636427_2_alg».proof.Proof.LibRowColumn

set_option maxRecDepth 16384

noncomputable section

open Idealize.ShloMosaic Idealize.ShloMosaic.TcCoe Idealize.SL.Sem
open Idealize.ShloMosaic.Pipeline (Dat)

namespace Cert.KernelIdeal.StatsUser

open Cert.KernelIdeal Cert.KernelIdeal.Gen
open Idealize.ShloMosaic.ValueIdx Idealize.ShloMosaic.Affine Idealize.ShloMosaic.BatchNorm

theorem hz2 : (![0, 0] : Fin 2 → Nat) = fun _ => 0 := funext fun a => by fin_cases a <;> rfl
theorem hz3 : (![0, 0, 0] : Fin 3 → Nat) = fun _ => 0 := funext fun a => by fin_cases a <;> rfl

section Pieces
variable {F : FTy → Type} [FloatOps F]

/-! ## What each case of the body leaves in the two accumulators, as the body's own pure terms -/

/-- Not the first step of a half: the running column sums, plus this block's. -/
theorem out_B_5 (c : Dev nD) (i : grid0.Coords) (a2 : Memref sig .tc .vmem S8000x64 .f32) (h2 : a2.IsWhole) (a3 : Memref sig .tc .vmem S64x256 .f32) (h3 : a3.IsWhole) (a4 : Memref sig .tc .vmem S1x256 .f32) (h4 : a4.IsWhole) (a5 : Memref sig .tc .vmem S256x128 .f32) (h5 : a5.IsWhole) (a6 : Memref sig .tc .vmem S1x128 .f32) (h6 : a6.IsWhole) (a7 : Memref sig .tc .vmem S1x8x128 .f32) (h7 : a7.IsWhole) (a8 : Memref sig .tc .vmem S1x8x128 .f32) (h8 : a8.IsWhole) (hc : ¬cond0_0 i) (x0 : Vec F S8000x64 .f32) (x1 : Vec F S64x256 .f32) (x2 : Vec F S1x256 .f32) (x3 : Vec F S256x128 .f32) (x4 : Vec F S1x128 .f32) (xo5 xo6 : Vec F S1x8x128 .f32) :
    out0_B_5 c i a2 h2 a3 h3 a4 h4 a5 h5 a6 h6 a7 h7 a8 h8 hc x0 x1 x2 x3 x4 xo5 xo6 = k0_pay6 x0 x1 x2 x3 x4 xo5 := by
  unfold out0_B_5
  rw [View.read_writes_eq_canon _ _ _ (cover0_B_5 c i a2 h2 a3 h3 a4 h4 a5 h5 a6 h6 a7 h7 a8 h8 hc x0 x1 x2 x3 x4 xo5 xo6)]
  unfold kernelRun0_B
  dsimp only
  rw [View.canon_unit_zero hz3]
  simp only [View.readAt_eq_ld, h2.read_unread, h3.read_unread, h4.read_unread, h5.read_unread, h6.read_unread, h7.read_unread, h8.read_unread,
    View.ld_unit_zero (S := S8000x64) hz2, View.ld_unit_zero (S := S64x256) hz2, View.ld_unit_zero (S := S1x256) hz2,
    View.ld_unit_zero (S := S256x128) hz2, View.ld_unit_zero (S := S1x128) hz2, View.ld_unit_zero (S := S1x8x128) hz3]

/-- Not the first step of a half: the running column sums of squares, plus this block's. -/
theorem out_B_6 (c : Dev nD) (i : grid0.Coords) (a2 : Memref sig .tc .vmem S8000x64 .f32) (h2 : a2.IsWhole) (a3 : Memref sig .tc .vmem S64x256 .f32) (h3 : a3.IsWhole) (a4 : Memref sig .tc .vmem S1x256 .f32) (h4 : a4.IsWhole) (a5 : Memref sig .tc .vmem S256x128 .f32) (h5 : a5.IsWhole) (a6 : Memref sig .tc .vmem S1x128 .f32) (h6 : a6.IsWhole) (a7 : Memref sig .tc .vmem S1x8x128 .f32) (h7 : a7.IsWhole) (a8 : Memref sig .tc .vmem S1x8x128 .f32) (h8 : a8.IsWhole) (hc : ¬cond0_0 i) (x0 : Vec F S8000x64 .f32) (x1 : Vec F S64x256 .f32) (x2 : Vec F S1x256 .f32) (x3 : Vec F S256x128 .f32) (x4 : Vec F S1x128 .f32) (xo5 xo6 : Vec F S1x8x128 .f32) :
    out0_B_6 c i a2 h2 a3 h3 a4 h4 a5 h5 a6 h6 a7 h7 a8 h8 hc x0 x1 x2 x3 x4 xo5 xo6 = k0_pay1 (k0_pay5 x0 x1 x2 x3 x4) xo6 := by
  unfold out0_B_6
  rw [View.read_writes_eq_canon _ _ _ (cover0_B_6 c i a2 h2 a3 h3 a4 h4 a5 h5 a6 h6 a7 h7 a8 h8 hc x0 x1 x2 x3 x4 xo5 xo6)]
  unfold kernelRun0_B
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S8000x64) hz2, View.ld_unit_zero (S := S64x256) hz2, View.ld_unit_zero (S := S1x256) hz2,
    View.ld_unit_zero (S := S256x128) hz2, View.ld_unit_zero (S := S1x128) hz2, View.ld_unit_zero (S := S1x8x128) hz3]

/-- The first step of a half: the zero block just stored, plus this block's column sums. -/
theorem out_A_5 (c : Dev nD) (i : grid0.Coords) (a2 : Memref sig .tc .vmem S8000x64 .f32) (h2 : a2.IsWhole) (a3 : Memref sig .tc .vmem S64x256 .f32) (h3 : a3.IsWhole) (a4 : Memref sig .tc .vmem S1x256 .f32) (h4 : a4.IsWhole) (a5 : Memref sig .tc .vmem S256x128 .f32) (h5 : a5.IsWhole) (a6 : Memref sig .tc .vmem S1x128 .f32) (h6 : a6.IsWhole) (a7 : Memref sig .tc .vmem S1x8x128 .f32) (h7 : a7.IsWhole) (a8 : Memref sig .tc .vmem S1x8x128 .f32) (h8 : a8.IsWhole) (hc : cond0_0 i) (x0 : Vec F S8000x64 .f32) (x1 : Vec F S64x256 .f32) (x2 : Vec F S1x256 .f32) (x3 : Vec F S256x128 .f32) (x4 : Vec F S1x128 .f32) :
    out0_A_5 c i a2 h2 a3 h3 a4 h4 a5 h5 a6 h6 a7 h7 a8 h8 hc x0 x1 x2 x3 x4 = k0_pay6 x0 x1 x2 x3 x4 (k0_pay3 (F := F)) := by
  unfold out0_A_5
  rw [View.read_writes_eq_canon _ _ _ (cover0_A_5 c i a2 h2 a3 h3 a4 h4 a5 h5 a6 h6 a7 h7 a8 h8 hc x0 x1 x2 x3 x4)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread, h5.read_unread, h6.read_unread, h7.read_unread, h8.read_unread,
    View.ld_unit_zero (S := S8000x64) hz2, View.ld_unit_zero (S := S64x256) hz2, View.ld_unit_zero (S := S1x256) hz2,
    View.ld_unit_zero (S := S256x128) hz2, View.ld_unit_zero (S := S1x128) hz2, View.ld_unit_zero (S := S1x8x128) hz3]

/-- The first step of a half, the sums of squares. -/
theorem out_A_6 (c : Dev nD) (i : grid0.Coords) (a2 : Memref sig .tc .vmem S8000x64 .f32) (h2 : a2.IsWhole) (a3 : Memref sig .tc .vmem S64x256 .f32) (h3 : a3.IsWhole) (a4 : Memref sig .tc .vmem S1x256 .f32) (h4 : a4.IsWhole) (a5 : Memref sig .tc .vmem S256x128 .f32) (h5 : a5.IsWhole) (a6 : Memref sig .tc .vmem S1x128 .f32) (h6 : a6.IsWhole) (a7 : Memref sig .tc .vmem S1x8x128 .f32) (h7 : a7.IsWhole) (a8 : Memref sig .tc .vmem S1x8x128 .f32) (h8 : a8.IsWhole) (hc : cond0_0 i) (x0 : Vec F S8000x64 .f32) (x1 : Vec F S64x256 .f32) (x2 : Vec F S1x256 .f32) (x3 : Vec F S256x128 .f32) (x4 : Vec F S1x128 .f32) :
    out0_A_6 c i a2 h2 a3 h3 a4 h4 a5 h5 a6 h6 a7 h7 a8 h8 hc x0 x1 x2 x3 x4 = k0_pay1 (k0_pay5 x0 x1 x2 x3 x4) (k0_pay4 (F := F)) := by
  unfold out0_A_6
  rw [View.read_writes_eq_canon _ _ _ (cover0_A_6 c i a2 h2 a3 h3 a4 h4 a5 h5 a6 h6 a7 h7 a8 h8 hc x0 x1 x2 x3 x4)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread, h5.read_unread, h6.read_unread, h7.read_unread, h8.read_unread,
    View.ld_unit_zero (S := S8000x64) hz2, View.ld_unit_zero (S := S64x256) hz2, View.ld_unit_zero (S := S1x256) hz2,
    View.ld_unit_zero (S := S256x128) hz2, View.ld_unit_zero (S := S1x128) hz2, View.ld_unit_zero (S := S1x8x128) hz3]

end Pieces

/-! ## The body's pure terms at an index, on the extended reals -/

theorem hd1 : dot_S8000x64_S64x256_S8000x256_1_0_0_1_n_n = DotDims.plain 8000 64 256 := rfl
theorem hd2 : dot_S8000x256_S256x128_S8000x128_1_0_0_1_n_n = DotDims.plain 8000 256 128 := rfl

/-- The block's two dense layers. -/
theorem pay2_eq (x0 : Vec Ideal S8000x64 .f32) (x1 : Vec Ideal S64x256 .f32) (x2 : Vec Ideal S1x256 .f32) (x3 : Vec Ideal S256x128 .f32) (x4 : Vec Ideal S1x128 .f32) :
    k0_pay2 (F := Ideal) x0 x1 x2 x3 x4 = lin2 (φ1 := .f32) (φ2 := .f32) (A := 8000) (K := 64) (H := 256) (M := 128) x0 x1 x2 x3 x4 := by
  show SoftplusLayers.denseK _ bitsLt_bf16_f32 shapeCasts_S1x128_S1x128 broadcasts_S1x128_S8000x128
      (SoftplusLayers.denseK _ bitsLt_bf16_f32 shapeCasts_S1x256_S1x256 broadcasts_S1x256_S8000x256 x0 x1 x2) x3 x4 = _
  rw [SoftplusLayers.denseK_eq hd2, SoftplusLayers.denseK_eq hd1]
  rfl

/-- The zero blocks the first point of a half stores. -/
theorem pay3_apply (u : Fin 1) (s : Fin 8) (j : Fin 128) : k0_pay3 (F := Ideal) (ix3 u s j) = zeroW := by
  unfold k0_pay3
  exact shapeCast_ab_1ab_apply _ _ u s j
theorem pay4_apply (u : Fin 1) (s : Fin 8) (j : Fin 128) : k0_pay4 (F := Ideal) (ix3 u s j) = zeroW := by
  unfold k0_pay4
  exact shapeCast_ab_1ab_apply _ _ u s j

/-- The first accumulator after a point: what it held plus the block's column sums. -/
theorem pay6_apply (x0 : Vec Ideal S8000x64 .f32) (x1 : Vec Ideal S64x256 .f32) (x2 : Vec Ideal S1x256 .f32) (x3 : Vec Ideal S256x128 .f32) (x4 : Vec Ideal S1x128 .f32) (v25 : Vec Ideal S1x8x128 .f32) (u : Fin 1) (s : Fin 8) (j : Fin 128) :
    k0_pay6 (F := Ideal) x0 x1 x2 x3 x4 v25 (ix3 u s j)
      = v25 (ix3 (0 : Fin 1) s j) + ∑ p : Fin 8000, k0_pay2 (F := Ideal) x0 x1 x2 x3 x4 (ix2 p j) := by
  unfold k0_pay6
  refine (shapeCast_ab_1ab_apply _ _ u s j).trans ?_
  refine (addf_apply _ _ _).trans ?_
  refine congrArg₂ (· + ·) (shapeCast_1ab_ab_apply v25 _ s j) ?_
  refine (broadcastTo_1b_ab_apply _ _ s j).trans ?_
  rw [shapeCast_self]
  refine (shapeCast_a_1a_apply _ _ _ j).trans ?_
  exact RowColumn.multiReduction_add_rows _ _ _ _ _ j

/-- The block's column sums of squares, as the row the body hands on. -/
theorem pay5_apply (x0 : Vec Ideal S8000x64 .f32) (x1 : Vec Ideal S64x256 .f32) (x2 : Vec Ideal S1x256 .f32) (x3 : Vec Ideal S256x128 .f32) (x4 : Vec Ideal S1x128 .f32) (j : Fin 128) :
    k0_pay5 (F := Ideal) x0 x1 x2 x3 x4 (ix2 (0 : Fin 1) j)
      = ∑ p : Fin 8000, k0_pay2 (F := Ideal) x0 x1 x2 x3 x4 (ix2 p j) * k0_pay2 (F := Ideal) x0 x1 x2 x3 x4 (ix2 p j) := by
  unfold k0_pay5
  refine (shapeCast_a_1a_apply _ _ _ j).trans ?_
  refine (RowColumn.multiReduction_add_rows _ _ _ _ _ j).trans ?_
  exact Finset.sum_congr rfl fun p _ => mulf_apply _ _ _

/-- The second accumulator after a point: what it held plus the row handed on. -/
theorem pay1_apply (v24 : FVec Ideal S1x128 .f32) (v33 : Vec Ideal S1x8x128 .f32) (u : Fin 1) (s : Fin 8) (j : Fin 128) :
    k0_pay1 (F := Ideal) v24 v33 (ix3 u s j) = v33 (ix3 (0 : Fin 1) s j) + v24 (ix2 (0 : Fin 1) j) := by
  unfold k0_pay1
  refine (shapeCast_ab_1ab_apply _ _ u s j).trans ?_
  refine (addf_apply _ _ _).trans ?_
  refine congrArg₂ (· + ·) (shapeCast_1ab_ab_apply v33 _ s j) ?_
  refine (broadcastTo_1b_ab_apply _ _ s j).trans ?_
  rw [shapeCast_self]

/-! ## The blocks, read off the arrays as the region finds them -/

section Run
variable (V : (c : Dev nD) → (b : Ref sig .tc) → Buf (Elt Ideal) ((c : Thread nD τ).loc b))

/-- The printed index maps, decided over the grid: the rows' block is the point's own, the weights and bias rows are
    whole, the accumulators' block is the half. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val / 25 ∧ win0_5.index t (1 : Fin 3) = 0 ∧ win0_5.index t (2 : Fin 3) = 0
    ∧ win0_6.index t (0 : Fin 3) = t.val / 25 ∧ win0_6.index t (1 : Fin 3) = 0 ∧ win0_6.index t (2 : Fin 3) = 0 :=
  (by decide +kernel : ∀ t : Fin grid0.N, _)

theorem iblk1_eq (c : Dev nD) (t : Fin cfg0.N) : (iblk0 V c 1 t : Vec Ideal S64x256 .f32) = V c main_arg2 := by
  have e := idx_facts t
  funext y
  unfold iblk0
  rw [View.read_apply]
  show V c main_arg2 _ = V c main_arg2 y
  congr 1
  funext a; apply Fin.ext
  match a with
  | ⟨0, _⟩ => show win0_1.index t (0 : Fin 2) * 64 + 1 * (y 0).val = (y 0).val; rw [e.2.2.1]; omega
  | ⟨1, _⟩ => show win0_1.index t (1 : Fin 2) * 256 + 1 * (y 1).val = (y 1).val; rw [e.2.2.2.1]; omega

theorem iblk2_eq (c : Dev nD) (t : Fin cfg0.N) : (iblk0 V c 2 t : Vec Ideal S1x256 .f32) = V c main_v0 := by
  have e := idx_facts t
  funext y
  unfold iblk0
  rw [View.read_apply]
  show V c main_v0 _ = V c main_v0 y
  congr 1
  funext a; apply Fin.ext
  match a with
  | ⟨0, _⟩ => show win0_2.index t (0 : Fin 2) * 1 + 1 * (y 0).val = (y 0).val; rw [e.2.2.2.2.1]; omega
  | ⟨1, _⟩ => show win0_2.index t (1 : Fin 2) * 256 + 1 * (y 1).val = (y 1).val; rw [e.2.2.2.2.2.1]; omega

theorem iblk3_eq (c : Dev nD) (t : Fin cfg0.N) : (iblk0 V c 3 t : Vec Ideal S256x128 .f32) = V c main_arg6 := by
  have e := idx_facts t
  funext y
  unfold iblk0
  rw [View.read_apply]
  show V c main_arg6 _ = V c main_arg6 y
  congr 1
  funext a; apply Fin.ext
  match a with
  | ⟨0, _⟩ => show win0_3.index t (0 : Fin 2) * 256 + 1 * (y 0).val = (y 0).val; rw [e.2.2.2.2.2.2.1]; omega
  | ⟨1, _⟩ => show win0_3.index t (1 : Fin 2) * 128 + 1 * (y 1).val = (y 1).val; rw [e.2.2.2.2.2.2.2.1]; omega

theorem iblk4_eq (c : Dev nD) (t : Fin cfg0.N) : (iblk0 V c 4 t : Vec Ideal S1x128 .f32) = V c main_v1 := by
  have e := idx_facts t
  funext y
  unfold iblk0
  rw [View.read_apply]
  show V c main_v1 _ = V c main_v1 y
  congr 1
  funext a; apply Fin.ext
  match a with
  | ⟨0, _⟩ => show win0_4.index t (0 : Fin 2) * 1 + 1 * (y 0).val = (y 0).val; rw [e.2.2.2.2.2.2.2.2.1]; omega
  | ⟨1, _⟩ => show win0_4.index t (1 : Fin 2) * 128 + 1 * (y 1).val = (y 1).val; rw [e.2.2.2.2.2.2.2.2.2.1]; omega

/-- Row `p` of the rows' block at point `t` is row `8000·t + p` of the array. -/
theorem iblk0_read (c : Dev nD) (t : Fin cfg0.N) (p : Fin 8000) (k : Fin 64) (hr : 8000 * t.val + p.val < 400000) :
    (iblk0 V c 0 t : Vec Ideal S8000x64 .f32) (ix2 p k) = V c main_arg0 (ix2 (⟨8000 * t.val + p.val, hr⟩ : Fin 400000) k) := by
  have e := idx_facts t
  unfold iblk0
  rw [View.read_apply]
  show V c main_arg0 _ = V c main_arg0 _
  congr 1
  funext a; apply Fin.ext
  match a with
  | ⟨0, _⟩ => show win0_0.index t (0 : Fin 2) * 8000 + 1 * p.val = 8000 * t.val + p.val; rw [e.1]; omega
  | ⟨1, _⟩ => show win0_0.index t (1 : Fin 2) * 64 + 1 * k.val = k.val; rw [e.2.1]; omega

/-- The two dense layers of ALL the rows, from the arrays as the region finds them. -/
def hmat (c : Dev nD) : FVec Ideal ⟨2, ![400000, 128]⟩ .f32 :=
  lin2 (φ1 := .f32) (φ2 := .f32) (A := 400000) (K := 64) (H := 256) (M := 128) (V c main_arg0) (V c main_arg2) (V c main_v0) (V c main_arg6) (V c main_v1)

/-- Column `j` of it at row `r`, zero past the last row, and its square: the summands, as functions of a row number. -/
def colAt (c : Dev nD) (j : Fin 128) (r : ℕ) : EReal := if h : r < 400000 then hmat V c (ix2 ⟨r, h⟩ j) else 0
def sqAt (c : Dev nD) (j : Fin 128) (r : ℕ) : EReal := if h : r < 400000 then hmat V c (ix2 ⟨r, h⟩ j) * hmat V c (ix2 ⟨r, h⟩ j) else 0

/-- The block's layers at `(p, j)` are the whole matrix's at row `8000·t + p`. -/
theorem blk_pay2 (c : Dev nD) (t : Fin cfg0.N) (p : Fin 8000) (j : Fin 128) :
    k0_pay2 (F := Ideal) (iblk0 V c 0 t) (iblk0 V c 1 t) (iblk0 V c 2 t) (iblk0 V c 3 t) (iblk0 V c 4 t) (ix2 p j) = colAt V c j (8000 * t.val + p.val) := by
  have hN : cfg0.N = 50 := N_0
  have hr : 8000 * t.val + p.val < 400000 := by have := t.isLt; have := p.isLt; omega
  rw [pay2_eq, iblk1_eq, iblk2_eq, iblk3_eq, iblk4_eq]
  unfold colAt hmat
  rw [dif_pos hr]
  exact lin2_rows _ _ _ _ _ _ p ⟨8000 * t.val + p.val, hr⟩ (fun k => iblk0_read V c t p k hr) j

theorem colAt_mul (c : Dev nD) (j : Fin 128) (r : ℕ) : colAt V c j r * colAt V c j r = sqAt V c j r := by
  unfold colAt sqAt
  split
  · rfl
  · exact mul_zero 0

/-! ## The accumulators after each point -/

/-- After point `n` (the `n % 25`-th of half `n / 25`) every row of the half's first accumulator block holds the zero word
    plus the column sums of the half's blocks so far, and the second the same of the squares: by induction on the point. -/
theorem outsAt_apply (c : Dev nD) (n : ℕ) : ∀ (hn : n < cfg0.N) (u : Fin 1) (s : Fin 8) (j : Fin 128),
    (outsAt0 V c n hn).1 (ix3 u s j)
        = zeroW + ∑ k ∈ Finset.range (n % 25 + 1), ∑ p : Fin 8000, colAt V c j (8000 * (25 * (n / 25) + k) + p.val)
    ∧ (outsAt0 V c n hn).2 (ix3 u s j)
        = zeroW + ∑ k ∈ Finset.range (n % 25 + 1), ∑ p : Fin 8000, sqAt V c j (8000 * (25 * (n / 25) + k) + p.val) := by
  have first : ∀ (n : ℕ) (hn : n < cfg0.N) (h0 : n % 25 = 0) (u : Fin 1) (s : Fin 8) (j : Fin 128),
      (outsAt0 V c n hn).1 (ix3 u s j)
          = zeroW + ∑ k ∈ Finset.range (n % 25 + 1), ∑ p : Fin 8000, colAt V c j (8000 * (25 * (n / 25) + k) + p.val)
      ∧ (outsAt0 V c n hn).2 (ix3 u s j)
          = zeroW + ∑ k ∈ Finset.range (n % 25 + 1), ∑ p : Fin 8000, sqAt V c j (8000 * (25 * (n / 25) + k) + p.val) := by
    intro n hn h0 u s j
    have hA := outsAt0_A V c ⟨n, hn⟩ h0
    have hA' : outsAt0 V c n hn = _ := hA
    rw [hA']
    dsimp only
    rw [out_A_5, out_A_6, h0, Finset.sum_range_one, Finset.sum_range_one]
    constructor
    · rw [pay6_apply, pay3_apply]
      refine congrArg (zeroW + ·) (Finset.sum_congr rfl fun p _ => ?_)
      rw [blk_pay2]
      exact congrArg (colAt V c j) (by show 8000 * n + p.val = _; omega)
    · rw [pay1_apply, pay4_apply, pay5_apply]
      refine congrArg (zeroW + ·) (Finset.sum_congr rfl fun p _ => ?_)
      rw [blk_pay2, colAt_mul]
      exact congrArg (sqAt V c j) (by show 8000 * n + p.val = _; omega)
  induction n with
  | zero => intro hn u s j; exact first 0 hn rfl u s j
  | succ n ih =>
    intro hn u s j
    by_cases h0 : (n + 1) % 25 = 0
    · exact first (n + 1) hn h0 u s j
    · have hB := outsAt0_B V c ⟨n + 1, hn⟩ h0
      have hB' : outsAt0 V c (n + 1) hn = _ := hB
      obtain ⟨ih1, ih2⟩ := ih (Nat.lt_of_succ_lt hn) 0 s j
      have e1 : (n + 1) % 25 = n % 25 + 1 := by omega
      have e2 : (n + 1) / 25 = n / 25 := by omega
      rw [hB']
      dsimp only
      rw [out_B_5, out_B_6, e1, e2]
      constructor
      · rw [pay6_apply]
        show (outsAt0 V c n _).1 (ix3 0 s j) + _ = _
        rw [ih1, Finset.sum_range_succ _ (n % 25 + 1), add_assoc]
        refine congrArg (zeroW + ·) (congrArg (_ + ·) (Finset.sum_congr rfl fun p _ => ?_))
        rw [blk_pay2]
        exact congrArg (colAt V c j) (by show 8000 * (n + 1) + p.val = _; omega)
      · rw [pay1_apply, pay5_apply]
        show (outsAt0 V c n _).2 (ix3 0 s j) + _ = _
        rw [ih2, Finset.sum_range_succ _ (n % 25 + 1), add_assoc]
        refine congrArg (zeroW + ·) (congrArg (_ + ·) (Finset.sum_congr rfl fun p _ => ?_))
        rw [blk_pay2, colAt_mul]
        exact congrArg (sqAt V c j) (by show 8000 * (n + 1) + p.val = _; omega)

/-! ## The two result arrays -/

/-- The column sums per half, repeated down the 8 rows of the half's block, and the same of the squares. -/
def sums (c : Dev nD) : FVec Ideal ⟨3, ![2, 8, 128]⟩ .f32 := fun i =>
  zeroW + ∑ k ∈ Finset.range 25, ∑ p : Fin 8000, colAt V c (i 2 : Fin 128) (8000 * (25 * (i 0).val + k) + p.val)
def sumsSq (c : Dev nD) : FVec Ideal ⟨3, ![2, 8, 128]⟩ .f32 := fun i =>
  zeroW + ∑ k ∈ Finset.range 25, ∑ p : Fin 8000, sqAt V c (i 2 : Fin 128) (8000 * (25 * (i 0).val + k) + p.val)

/-- What a flushing point (the last of its half) writes back is its block of `sums`. -/
theorem flushed5_eq (c : Dev nD) (t : Fin cfg0.N) (hf : (cfg0.win 5).flush t = true) :
    (dat0 V c).flushed 5 t = ((cfg0.win 5).blk t).view.read (Elt Ideal) (sums V c) := by
  have hN : cfg0.N = 50 := N_0
  have hl : t.val % 25 = 24 := (flush0_5 t).mp hf
  have e := idx_facts t
  show (cfg0.win 5).cut (grid0.coords t) ((dat0 V c).after 5 t) = _
  rw [after0_5]
  funext y
  rw [View.read_apply]
  obtain ⟨u, s, j, rfl⟩ : ∃ (u : Fin 1) (s : Fin 8) (j : Fin 128), y = ix3 u s j := ⟨y 0, y 1, y 2, eq_ix3 y⟩
  have h0 : ((((cfg0.win 5).blk t).view.emb (ix3 u s j)) (0 : Fin 3)).val = t.val / 25 := by
    show win0_5.index t (0 : Fin 3) * 1 + 1 * u.val = _
    rw [e.2.2.2.2.2.2.2.2.2.2.1]; omega
  have h2 : (((((cfg0.win 5).blk t).view.emb (ix3 u s j)) (2 : Fin 3) : Fin 128)) = j := Fin.ext (by
    show win0_5.index t (2 : Fin 3) * 128 + 1 * j.val = _
    rw [e.2.2.2.2.2.2.2.2.2.2.2.2.1]; omega)
  show (outsAt0 V c t.val t.isLt).1 (ix3 u s j) = sums V c (((cfg0.win 5).blk t).view.emb (ix3 u s j))
  rw [(outsAt_apply V c t.val t.isLt u s j).1]
  unfold sums
  rw [h0, h2, hl]

/-- So the array ends at `sums`: the last point of half `s` covers block `s`. -/
theorem final5 (c : Dev nD) : (dat0 V c).arrAt 5 cfg0.N = sums V c :=
  (dat0 V c).arrAt_eq_of_cover 5 (sums V c) (flushed5_eq V c) fun (i : S2x8x128.Idx) => by
    have hN : cfg0.N = 50 := N_0
    have hi0 : (i 0).val < 2 := (i 0).isLt
    have hi1 : (i 1).val < 8 := (i 1).isLt
    have hi2 : (i 2).val < 128 := (i 2).isLt
    have hlt : 25 * (i 0).val + 24 < cfg0.N := by omega
    have e := idx_facts ⟨25 * (i 0).val + 24, hlt⟩
    refine ⟨⟨25 * (i 0).val + 24, hlt⟩, (flush0_5 _).mpr (by show (25 * (i 0).val + 24) % 25 = 24; omega), ?_⟩
    show i ∈ ((View.whole main_v2_0).slice (win0_5.rect ⟨25 * (i 0).val + 24, hlt⟩)).set
    rw [View.set_slice_whole, Rect.mem_set_unit]
    intro a
    match a with
    | ⟨0, _⟩ =>
      show win0_5.index ⟨25 * (i 0).val + 24, hlt⟩ (0 : Fin 3) * 1 ≤ (i 0).val ∧ (i 0).val < win0_5.index ⟨25 * (i 0).val + 24, hlt⟩ (0 : Fin 3) * 1 + 1
      rw [e.2.2.2.2.2.2.2.2.2.2.1]; dsimp only; omega
    | ⟨1, _⟩ =>
      show win0_5.index ⟨25 * (i 0).val + 24, hlt⟩ (1 : Fin 3) * 8 ≤ (i 1).val ∧ (i 1).val < win0_5.index ⟨25 * (i 0).val + 24, hlt⟩ (1 : Fin 3) * 8 + 8
      rw [e.2.2.2.2.2.2.2.2.2.2.2.1]; omega
    | ⟨2, _⟩ =>
      show win0_5.index ⟨25 * (i 0).val + 24, hlt⟩ (2 : Fin 3) * 128 ≤ (i 2).val ∧ (i 2).val < win0_5.index ⟨25 * (i 0).val + 24, hlt⟩ (2 : Fin 3) * 128 + 128
      rw [e.2.2.2.2.2.2.2.2.2.2.2.2.1]; omega

/-- What a flushing point (the last of its half) writes back is its block of `sumsSq`. -/
theorem flushed6_eq (c : Dev nD) (t : Fin cfg0.N) (hf : (cfg0.win 6).flush t = true) :
    (dat0 V c).flushed 6 t = ((cfg0.win 6).blk t).view.read (Elt Ideal) (sumsSq V c) := by
  have hN : cfg0.N = 50 := N_0
  have hl : t.val % 25 = 24 := (flush0_6 t).mp hf
  have e := idx_facts t
  show (cfg0.win 6).cut (grid0.coords t) ((dat0 V c).after 6 t) = _
  rw [after0_6]
  funext y
  rw [View.read_apply]
  obtain ⟨u, s, j, rfl⟩ : ∃ (u : Fin 1) (s : Fin 8) (j : Fin 128), y = ix3 u s j := ⟨y 0, y 1, y 2, eq_ix3 y⟩
  have h0 : ((((cfg0.win 6).blk t).view.emb (ix3 u s j)) (0 : Fin 3)).val = t.val / 25 := by
    show win0_6.index t (0 : Fin 3) * 1 + 1 * u.val = _
    rw [e.2.2.2.2.2.2.2.2.2.2.2.2.2.1]; omega
  have h2 : (((((cfg0.win 6).blk t).view.emb (ix3 u s j)) (2 : Fin 3) : Fin 128)) = j := Fin.ext (by
    show win0_6.index t (2 : Fin 3) * 128 + 1 * j.val = _
    rw [e.2.2.2.2.2.2.2.2.2.2.2.2.2.2.2]; omega)
  show (outsAt0 V c t.val t.isLt).2 (ix3 u s j) = sumsSq V c (((cfg0.win 6).blk t).view.emb (ix3 u s j))
  rw [(outsAt_apply V c t.val t.isLt u s j).2]
  unfold sumsSq
  rw [h0, h2, hl]

/-- So the array ends at `sumsSq`: the last point of half `s` covers block `s`. -/
theorem final6 (c : Dev nD) : (dat0 V c).arrAt 6 cfg0.N = sumsSq V c :=
  (dat0 V c).arrAt_eq_of_cover 6 (sumsSq V c) (flushed6_eq V c) fun (i : S2x8x128.Idx) => by
    have hN : cfg0.N = 50 := N_0
    have hi0 : (i 0).val < 2 := (i 0).isLt
    have hi1 : (i 1).val < 8 := (i 1).isLt
    have hi2 : (i 2).val < 128 := (i 2).isLt
    have hlt : 25 * (i 0).val + 24 < cfg0.N := by omega
    have e := idx_facts ⟨25 * (i 0).val + 24, hlt⟩
    refine ⟨⟨25 * (i 0).val + 24, hlt⟩, (flush0_6 _).mpr (by show (25 * (i 0).val + 24) % 25 = 24; omega), ?_⟩
    show i ∈ ((View.whole main_v2_1).slice (win0_6.rect ⟨25 * (i 0).val + 24, hlt⟩)).set
    rw [View.set_slice_whole, Rect.mem_set_unit]
    intro a
    match a with
    | ⟨0, _⟩ =>
      show win0_6.index ⟨25 * (i 0).val + 24, hlt⟩ (0 : Fin 3) * 1 ≤ (i 0).val ∧ (i 0).val < win0_6.index ⟨25 * (i 0).val + 24, hlt⟩ (0 : Fin 3) * 1 + 1
      rw [e.2.2.2.2.2.2.2.2.2.2.2.2.2.1]; dsimp only; omega
    | ⟨1, _⟩ =>
      show win0_6.index ⟨25 * (i 0).val + 24, hlt⟩ (1 : Fin 3) * 8 ≤ (i 1).val ∧ (i 1).val < win0_6.index ⟨25 * (i 0).val + 24, hlt⟩ (1 : Fin 3) * 8 + 8
      rw [e.2.2.2.2.2.2.2.2.2.2.2.2.2.2.1]; omega
    | ⟨2, _⟩ =>
      show win0_6.index ⟨25 * (i 0).val + 24, hlt⟩ (2 : Fin 3) * 128 ≤ (i 2).val ∧ (i 2).val < win0_6.index ⟨25 * (i 0).val + 24, hlt⟩ (2 : Fin 3) * 128 + 128
      rw [e.2.2.2.2.2.2.2.2.2.2.2.2.2.2.2]; omega

end Run

end Cert.KernelIdeal.StatsUser

end
-- ==== Proof.StatsItem.lean ====
/-
  The statistics pass over the 600000 rows of one node type, read off the run of its grid.

  The grid has 60 points: two halves of 30 consecutive blocks of 10000 rows. At each point the body computes the two dense
  layers `h` of its block of rows and adds, to every one of the 8 rows of the half's accumulator block, the column sums
  `Σ_p h(p, j)` (first accumulator) and `Σ_p h(p, j)²` (second accumulator); the first point of a half stores zeros
  first. An accumulator block is written back once, after the last point of its half. So entry `(s, u, j)` of either
  result array is `0 + Σ_{k<30} Σ_{p<10000}` of column `j` of `h` (or of its square) at row `10000·(30·s + k) + p`.
-/
import proofs.«115960_j19353122636427_2_alg».proof.Proof.Gen.KernelIdeal.Frame
import Idealize.ShloMosaic.Lib.Pipeline.Value
import Idealize.ShloMosaic.Lib.ValueLayout
import Idealize.ShloMosaic.Lib.Tactic
import proofs.«115960_j19353122636427_2_alg».proof.Proof.LibBatchNorm
import proofs.«115960_j19353122636427_2_alg».proof.Proof.LibRowColumn

set_option maxRecDepth 16384

noncomputable section

open Idealize.ShloMosaic Idealize.ShloMosaic.TcCoe Idealize.SL.Sem
open Idealize.ShloMosaic.Pipeline (Dat)

namespace Cert.KernelIdeal.StatsItem

open Cert.KernelIdeal Cert.KernelIdeal.Gen
open Idealize.ShloMosaic.ValueIdx Idealize.ShloMosaic.Affine Idealize.ShloMosaic.BatchNorm

theorem hz2 : (![0, 0] : Fin 2 → Nat) = fun _ => 0 := funext fun a => by fin_cases a <;> rfl
theorem hz3 : (![0, 0, 0] : Fin 3 → Nat) = fun _ => 0 := funext fun a => by fin_cases a <;> rfl

section Pieces
variable {F : FTy → Type} [FloatOps F]

/-! ## What each case of the body leaves in the two accumulators, as the body's own pure terms -/

/-- Not the first step of a half: the running column sums, plus this block's. -/
theorem out_B_5 (c : Dev nD) (i : grid2.Coords) (a2 : Memref sig .tc .vmem S10000x128 .f32) (h2 : a2.IsWhole) (a3 : Memref sig .tc .vmem S128x256 .f32) (h3 : a3.IsWhole) (a4 : Memref sig .tc .vmem S1x256 .f32) (h4 : a4.IsWhole) (a5 : Memref sig .tc .vmem S256x128 .f32) (h5 : a5.IsWhole) (a6 : Memref sig .tc .vmem S1x128 .f32) (h6 : a6.IsWhole) (a7 : Memref sig .tc .vmem S1x8x128 .f32) (h7 : a7.IsWhole) (a8 : Memref sig .tc .vmem S1x8x128 .f32) (h8 : a8.IsWhole) (hc : ¬cond2_0 i) (x0 : Vec F S10000x128 .f32) (x1 : Vec F S128x256 .f32) (x2 : Vec F S1x256 .f32) (x3 : Vec F S256x128 .f32) (x4 : Vec F S1x128 .f32) (xo5 xo6 : Vec F S1x8x128 .f32) :
    out2_B_5 c i a2 h2 a3 h3 a4 h4 a5 h5 a6 h6 a7 h7 a8 h8 hc x0 x1 x2 x3 x4 xo5 xo6 = k2_pay6 x0 x1 x2 x3 x4 xo5 := by
  unfold out2_B_5
  rw [View.read_writes_eq_canon _ _ _ (cover2_B_5 c i a2 h2 a3 h3 a4 h4 a5 h5 a6 h6 a7 h7 a8 h8 hc x0 x1 x2 x3 x4 xo5 xo6)]
  unfold kernelRun2_B
  dsimp only
  rw [View.canon_unit_zero hz3]
  simp only [View.readAt_eq_ld, h2.read_unread, h3.read_unread, h4.read_unread, h5.read_unread, h6.read_unread, h7.read_unread, h8.read_unread,
    View.ld_unit_zero (S := S10000x128) hz2, View.ld_unit_zero (S := S128x256) hz2, View.ld_unit_zero (S := S1x256) hz2,
    View.ld_unit_zero (S := S256x128) hz2, View.ld_unit_zero (S := S1x128) hz2, View.ld_unit_zero (S := S1x8x128) hz3]

/-- Not the first step of a half: the running column sums of squares, plus this block's. -/
theorem out_B_6 (c : Dev nD) (i : grid2.Coords) (a2 : Memref sig .tc .vmem S10000x128 .f32) (h2 : a2.IsWhole) (a3 : Memref sig .tc .vmem S128x256 .f32) (h3 : a3.IsWhole) (a4 : Memref sig .tc .vmem S1x256 .f32) (h4 : a4.IsWhole) (a5 : Memref sig .tc .vmem S256x128 .f32) (h5 : a5.IsWhole) (a6 : Memref sig .tc .vmem S1x128 .f32) (h6 : a6.IsWhole) (a7 : Memref sig .tc .vmem S1x8x128 .f32) (h7 : a7.IsWhole) (a8 : Memref sig .tc .vmem S1x8x128 .f32) (h8 : a8.IsWhole) (hc : ¬cond2_0 i) (x0 : Vec F S10000x128 .f32) (x1 : Vec F S128x256 .f32) (x2 : Vec F S1x256 .f32) (x3 : Vec F S256x128 .f32) (x4 : Vec F S1x128 .f32) (xo5 xo6 : Vec F S1x8x128 .f32) :
    out2_B_6 c i a2 h2 a3 h3 a4 h4 a5 h5 a6 h6 a7 h7 a8 h8 hc x0 x1 x2 x3 x4 xo5 xo6 = k2_pay1 (k2_pay5 x0 x1 x2 x3 x4) xo6 := by
  unfold out2_B_6
  rw [View.read_writes_eq_canon _ _ _ (cover2_B_6 c i a2 h2 a3 h3 a4 h4 a5 h5 a6 h6 a7 h7 a8 h8 hc x0 x1 x2 x3 x4 xo5 xo6)]
  unfold kernelRun2_B
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S10000x128) hz2, View.ld_unit_zero (S := S128x256) hz2, View.ld_unit_zero (S := S1x256) hz2,
    View.ld_unit_zero (S := S256x128) hz2, View.ld_unit_zero (S := S1x128) hz2, View.ld_unit_zero (S := S1x8x128) hz3]

/-- The first step of a half: the zero block just stored, plus this block's column sums. -/
theorem out_A_5 (c : Dev nD) (i : grid2.Coords) (a2 : Memref sig .tc .vmem S10000x128 .f32) (h2 : a2.IsWhole) (a3 : Memref sig .tc .vmem S128x256 .f32) (h3 : a3.IsWhole) (a4 : Memref sig .tc .vmem S1x256 .f32) (h4 : a4.IsWhole) (a5 : Memref sig .tc .vmem S256x128 .f32) (h5 : a5.IsWhole) (a6 : Memref sig .tc .vmem S1x128 .f32) (h6 : a6.IsWhole) (a7 : Memref sig .tc .vmem S1x8x128 .f32) (h7 : a7.IsWhole) (a8 : Memref sig .tc .vmem S1x8x128 .f32) (h8 : a8.IsWhole) (hc : cond2_0 i) (x0 : Vec F S10000x128 .f32) (x1 : Vec F S128x256 .f32) (x2 : Vec F S1x256 .f32) (x3 : Vec F S256x128 .f32) (x4 : Vec F S1x128 .f32) :
    out2_A_5 c i a2 h2 a3 h3 a4 h4 a5 h5 a6 h6 a7 h7 a8 h8 hc x0 x1 x2 x3 x4 = k2_pay6 x0 x1 x2 x3 x4 (k2_pay3 (F := F)) := by
  unfold out2_A_5
  rw [View.read_writes_eq_canon _ _ _ (cover2_A_5 c i a2 h2 a3 h3 a4 h4 a5 h5 a6 h6 a7 h7 a8 h8 hc x0 x1 x2 x3 x4)]
  unfold kernelRun2_A
  dsimp only
  sl_unfold_words
  rw [View.canon_cons_unit_zero (S := S1x8x128) hz3, View.readCov_unit_zero (S := S1x8x128) _ hz3]
  simp only [View.readAt_eq_ld, h2.read_unread, h3.read_unread, h4.read_unread, h5.read_unread, h6.read_unread, h7.read_unread, h8.read_unread,
    View.ld_unit_zero (S := S10000x128) hz2, View.ld_unit_zero (S := S128x256) hz2, View.ld_unit_zero (S := S1x256) hz2,
    View.ld_unit_zero (S := S256x128) hz2, View.ld_unit_zero (S := S1x128) hz2, View.ld_unit_zero (S := S1x8x128) hz3]

/-- The first step of a half, the sums of squares. -/
theorem out_A_6 (c : Dev nD) (i : grid2.Coords) (a2 : Memref sig .tc .vmem S10000x128 .f32) (h2 : a2.IsWhole) (a3 : Memref sig .tc .vmem S128x256 .f32) (h3 : a3.IsWhole) (a4 : Memref sig .tc .vmem S1x256 .f32) (h4 : a4.IsWhole) (a5 : Memref sig .tc .vmem S256x128 .f32) (h5 : a5.IsWhole) (a6 : Memref sig .tc .vmem S1x128 .f32) (h6 : a6.IsWhole) (a7 : Memref sig .tc .vmem S1x8x128 .f32) (h7 : a7.IsWhole) (a8 : Memref sig .tc .vmem S1x8x128 .f32) (h8 : a8.IsWhole) (hc : cond2_0 i) (x0 : Vec F S10000x128 .f32) (x1 : Vec F S128x256 .f32) (x2 : Vec F S1x256 .f32) (x3 : Vec F S256x128 .f32) (x4 : Vec F S1x128 .f32) :
    out2_A_6 c i a2 h2 a3 h3 a4 h4 a5 h5 a6 h6 a7 h7 a8 h8 hc x0 x1 x2 x3 x4 = k2_pay1 (k2_pay5 x0 x1 x2 x3 x4) (k2_pay4 (F := F)) := by
  unfold out2_A_6
  rw [View.read_writes_eq_canon _ _ _ (cover2_A_6 c i a2 h2 a3 h3 a4 h4 a5 h5 a6 h6 a7 h7 a8 h8 hc x0 x1 x2 x3 x4)]
  unfold kernelRun2_A
  dsimp only
  sl_unfold_words
  rw [View.canon_cons_unit_zero (S := S1x8x128) hz3, View.readCov_unit_zero (S := S1x8x128) _ hz3]
  simp only [View.readAt_eq_ld, h2.read_unread, h3.read_unread, h4.read_unread, h5.read_unread, h6.read_unread, h7.read_unread, h8.read_unread,
    View.ld_unit_zero (S := S10000x128) hz2, View.ld_unit_zero (S := S128x256) hz2, View.ld_unit_zero (S := S1x256) hz2,
    View.ld_unit_zero (S := S256x128) hz2, View.ld_unit_zero (S := S1x128) hz2, View.ld_unit_zero (S := S1x8x128) hz3]

end Pieces

/-! ## The body's pure terms at an index, on the extended reals -/

theorem hd1 : dot_S10000x128_S128x256_S10000x256_1_0_0_1_n_n = DotDims.plain 10000 128 256 := rfl
theorem hd2 : dot_S10000x256_S256x128_S10000x128_1_0_0_1_n_n = DotDims.plain 10000 256 128 := rfl

/-- The block's two dense layers. -/
theorem pay2_eq (x0 : Vec Ideal S10000x128 .f32) (x1 : Vec Ideal S128x256 .f32) (x2 : Vec Ideal S1x256 .f32) (x3 : Vec Ideal S256x128 .f32) (x4 : Vec Ideal S1x128 .f32) :
    k2_pay2 (F := Ideal) x0 x1 x2 x3 x4 = lin2 (φ1 := .f32) (φ2 := .f32) (A := 10000) (K := 128) (H := 256) (M := 128) x0 x1 x2 x3 x4 := by
  show SoftplusLayers.denseK _ bitsLt_bf16_f32 shapeCasts_S1x128_S1x128 broadcasts_S1x128_S10000x128
      (SoftplusLayers.denseK _ bitsLt_bf16_f32 shapeCasts_S1x256_S1x256 broadcasts_S1x256_S10000x256 x0 x1 x2) x3 x4 = _
  rw [SoftplusLayers.denseK_eq hd2, SoftplusLayers.denseK_eq hd1]
  rfl

/-- The zero blocks the first point of a half stores. -/
theorem pay3_apply (u : Fin 1) (s : Fin 8) (j : Fin 128) : k2_pay3 (F := Ideal) (ix3 u s j) = zeroW := by
  unfold k2_pay3
  exact shapeCast_ab_1ab_apply _ _ u s j
theorem pay4_apply (u : Fin 1) (s : Fin 8) (j : Fin 128) : k2_pay4 (F := Ideal) (ix3 u s j) = zeroW := by
  unfold k2_pay4
  exact shapeCast_ab_1ab_apply _ _ u s j

/-- The first accumulator after a point: what it held plus the block's column sums. -/
theorem pay6_apply (x0 : Vec Ideal S10000x128 .f32) (x1 : Vec Ideal S128x256 .f32) (x2 : Vec Ideal S1x256 .f32) (x3 : Vec Ideal S256x128 .f32) (x4 : Vec Ideal S1x128 .f32) (v25 : Vec Ideal S1x8x128 .f32) (u : Fin 1) (s : Fin 8) (j : Fin 128) :
    k2_pay6 (F := Ideal) x0 x1 x2 x3 x4 v25 (ix3 u s j)
      = v25 (ix3 (0 : Fin 1) s j) + ∑ p : Fin 10000, k2_pay2 (F := Ideal) x0 x1 x2 x3 x4 (ix2 p j) := by
  unfold k2_pay6
  refine (shapeCast_ab_1ab_apply _ _ u s j).trans ?_
  refine (addf_apply _ _ _).trans ?_
  refine congrArg₂ (· + ·) (shapeCast_1ab_ab_apply v25 _ s j) ?_
  refine (broadcastTo_1b_ab_apply _ _ s j).trans ?_
  rw [shapeCast_self]
  refine (shapeCast_a_1a_apply _ _ _ j).trans ?_
  exact RowColumn.multiReduction_add_rows _ _ _ _ _ j

/-- The block's column sums of squares, as the row the body hands on. -/
theorem pay5_apply (x0 : Vec Ideal S10000x128 .f32) (x1 : Vec Ideal S128x256 .f32) (x2 : Vec Ideal S1x256 .f32) (x3 : Vec Ideal S256x128 .f32) (x4 : Vec Ideal S1x128 .f32) (j : Fin 128) :
    k2_pay5 (F := Ideal) x0 x1 x2 x3 x4 (ix2 (0 : Fin 1) j)
      = ∑ p : Fin 10000, k2_pay2 (F := Ideal) x0 x1 x2 x3 x4 (ix2 p j) * k2_pay2 (F := Ideal) x0 x1 x2 x3 x4 (ix2 p j) := by
  unfold k2_pay5
  refine (shapeCast_a_1a_apply _ _ _ j).trans ?_
  refine (RowColumn.multiReduction_add_rows _ _ _ _ _ j).trans ?_
  exact Finset.sum_congr rfl fun p _ => mulf_apply _ _ _

/-- The second accumulator after a point: what it held plus the row handed on. -/
theorem pay1_apply (v24 : FVec Ideal S1x128 .f32) (v33 : Vec Ideal S1x8x128 .f32) (u : Fin 1) (s : Fin 8) (j : Fin 128) :
    k2_pay1 (F := Ideal) v24 v33 (ix3 u s j) = v33 (ix3 (0 : Fin 1) s j) + v24 (ix2 (0 : Fin 1) j) := by
  unfold k2_pay1
  refine (shapeCast_ab_1ab_apply _ _ u s j).trans ?_
  refine (addf_apply _ _ _).trans ?_
  refine congrArg₂ (· + ·) (shapeCast_1ab_ab_apply v33 _ s j) ?_
  refine (broadcastTo_1b_ab_apply _ _ s j).trans ?_
  rw [shapeCast_self]

/-! ## The blocks, read off the arrays as the region finds them -/

section Run
variable (V : (c : Dev nD) → (b : Ref sig .tc) → Buf (Elt Ideal) ((c : Thread nD τ).loc b))

/-- The printed index maps, decided over the grid: the rows' block is the point's own, the weights and bias rows are
    whole, the accumulators' block is the half. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 3) = t.val / 30 ∧ win2_5.index t (1 : Fin 3) = 0 ∧ win2_5.index t (2 : Fin 3) = 0
    ∧ win2_6.index t (0 : Fin 3) = t.val / 30 ∧ win2_6.index t (1 : Fin 3) = 0 ∧ win2_6.index t (2 : Fin 3) = 0 :=
  (by decide +kernel : ∀ t : Fin grid2.N, _)

theorem iblk1_eq (c : Dev nD) (t : Fin cfg2.N) : (iblk2 V c 1 t : Vec Ideal S128x256 .f32) = V c main_arg4 := by
  have e := idx_facts t
  funext y
  unfold iblk2
  rw [View.read_apply]
  show V c main_arg4 _ = V c main_arg4 y
  congr 1
  funext a; apply Fin.ext
  match a with
  | ⟨0, _⟩ => show win2_1.index t (0 : Fin 2) * 128 + 1 * (y 0).val = (y 0).val; rw [e.2.2.1]; omega
  | ⟨1, _⟩ => show win2_1.index t (1 : Fin 2) * 256 + 1 * (y 1).val = (y 1).val; rw [e.2.2.2.1]; omega

theorem iblk2_eq (c : Dev nD) (t : Fin cfg2.N) : (iblk2 V c 2 t : Vec Ideal S1x256 .f32) = V c main_v22 := by
  have e := idx_facts t
  funext y
  unfold iblk2
  rw [View.read_apply]
  show V c main_v22 _ = V c main_v22 y
  congr 1
  funext a; apply Fin.ext
  match a with
  | ⟨0, _⟩ => show win2_2.index t (0 : Fin 2) * 1 + 1 * (y 0).val = (y 0).val; rw [e.2.2.2.2.1]; omega
  | ⟨1, _⟩ => show win2_2.index t (1 : Fin 2) * 256 + 1 * (y 1).val = (y 1).val; rw [e.2.2.2.2.2.1]; omega

theorem iblk3_eq (c : Dev nD) (t : Fin cfg2.N) : (iblk2 V c 3 t : Vec Ideal S256x128 .f32) = V c main_arg8 := by
  have e := idx_facts t
  funext y
  unfold iblk2
  rw [View.read_apply]
  show V c main_arg8 _ = V c main_arg8 y
  congr 1
  funext a; apply Fin.ext
  match a with
  | ⟨0, _⟩ => show win2_3.index t (0 : Fin 2) * 256 + 1 * (y 0).val = (y 0).val; rw [e.2.2.2.2.2.2.1]; omega
  | ⟨1, _⟩ => show win2_3.index t (1 : Fin 2) * 128 + 1 * (y 1).val = (y 1).val; rw [e.2.2.2.2.2.2.2.1]; omega

theorem iblk4_eq (c : Dev nD) (t : Fin cfg2.N) : (iblk2 V c 4 t : Vec Ideal S1x128 .f32) = V c main_v23 := by
  have e := idx_facts t
  funext y
  unfold iblk2
  rw [View.read_apply]
  show V c main_v23 _ = V c main_v23 y
  congr 1
  funext a; apply Fin.ext
  match a with
  | ⟨0, _⟩ => show win2_4.index t (0 : Fin 2) * 1 + 1 * (y 0).val = (y 0).val; rw [e.2.2.2.2.2.2.2.2.1]; omega
  | ⟨1, _⟩ => show win2_4.index t (1 : Fin 2) * 128 + 1 * (y 1).val = (y 1).val; rw [e.2.2.2.2.2.2.2.2.2.1]; omega

/-- Row `p` of the rows' block at point `t` is row `10000·t + p` of the array. -/
theorem iblk0_read (c : Dev nD) (t : Fin cfg2.N) (p : Fin 10000) (k : Fin 128) (hr : 10000 * t.val + p.val < 600000) :
    (iblk2 V c 0 t : Vec Ideal S10000x128 .f32) (ix2 p k) = V c main_arg1 (ix2 (⟨10000 * t.val + p.val, hr⟩ : Fin 600000) k) := by
  have e := idx_facts t
  unfold iblk2
  rw [View.read_apply]
  show V c main_arg1 _ = V c main_arg1 _
  congr 1
  funext a; apply Fin.ext
  match a with
  | ⟨0, _⟩ => show win2_0.index t (0 : Fin 2) * 10000 + 1 * p.val = 10000 * t.val + p.val; rw [e.1]; omega
  | ⟨1, _⟩ => show win2_0.index t (1 : Fin 2) * 128 + 1 * k.val = k.val; rw [e.2.1]; omega

/-- The two dense layers of ALL the rows, from the arrays as the region finds them. -/
def hmat (c : Dev nD) : FVec Ideal ⟨2, ![600000, 128]⟩ .f32 :=
  lin2 (φ1 := .f32) (φ2 := .f32) (A := 600000) (K := 128) (H := 256) (M := 128) (V c main_arg1) (V c main_arg4) (V c main_v22) (V c main_arg8) (V c main_v23)

/-- Column `j` of it at row `r`, zero past the last row, and its square: the summands, as functions of a row number. -/
def colAt (c : Dev nD) (j : Fin 128) (r : ℕ) : EReal := if h : r < 600000 then hmat V c (ix2 ⟨r, h⟩ j) else 0
def sqAt (c : Dev nD) (j : Fin 128) (r : ℕ) : EReal := if h : r < 600000 then hmat V c (ix2 ⟨r, h⟩ j) * hmat V c (ix2 ⟨r, h⟩ j) else 0

/-- The block's layers at `(p, j)` are the whole matrix's at row `10000·t + p`. -/
theorem blk_pay2 (c : Dev nD) (t : Fin cfg2.N) (p : Fin 10000) (j : Fin 128) :
    k2_pay2 (F := Ideal) (iblk2 V c 0 t) (iblk2 V c 1 t) (iblk2 V c 2 t) (iblk2 V c 3 t) (iblk2 V c 4 t) (ix2 p j) = colAt V c j (10000 * t.val + p.val) := by
  have hN : cfg2.N = 60 := N_2
  have hr : 10000 * t.val + p.val < 600000 := by have := t.isLt; have := p.isLt; omega
  rw [pay2_eq, iblk1_eq, iblk2_eq, iblk3_eq, iblk4_eq]
  unfold colAt hmat
  rw [dif_pos hr]
  exact lin2_rows _ _ _ _ _ _ p ⟨10000 * t.val + p.val, hr⟩ (fun k => iblk0_read V c t p k hr) j

theorem colAt_mul (c : Dev nD) (j : Fin 128) (r : ℕ) : colAt V c j r * colAt V c j r = sqAt V c j r := by
  unfold colAt sqAt
  split
  · rfl
  · exact mul_zero 0

/-! ## The accumulators after each point -/

/-- After point `n` (the `n % 30`-th of half `n / 30`) every row of the half's first accumulator block holds the zero word
    plus the column sums of the half's blocks so far, and the second the same of the squares: by induction on the point. -/
theorem outsAt_apply (c : Dev nD) (n : ℕ) : ∀ (hn : n < cfg2.N) (u : Fin 1) (s : Fin 8) (j : Fin 128),
    (outsAt2 V c n hn).1 (ix3 u s j)
        = zeroW + ∑ k ∈ Finset.range (n % 30 + 1), ∑ p : Fin 10000, colAt V c j (10000 * (30 * (n / 30) + k) + p.val)
    ∧ (outsAt2 V c n hn).2 (ix3 u s j)
        = zeroW + ∑ k ∈ Finset.range (n % 30 + 1), ∑ p : Fin 10000, sqAt V c j (10000 * (30 * (n / 30) + k) + p.val) := by
  have first : ∀ (n : ℕ) (hn : n < cfg2.N) (h0 : n % 30 = 0) (u : Fin 1) (s : Fin 8) (j : Fin 128),
      (outsAt2 V c n hn).1 (ix3 u s j)
          = zeroW + ∑ k ∈ Finset.range (n % 30 + 1), ∑ p : Fin 10000, colAt V c j (10000 * (30 * (n / 30) + k) + p.val)
      ∧ (outsAt2 V c n hn).2 (ix3 u s j)
          = zeroW + ∑ k ∈ Finset.range (n % 30 + 1), ∑ p : Fin 10000, sqAt V c j (10000 * (30 * (n / 30) + k) + p.val) := by
    intro n hn h0 u s j
    have hA := outsAt2_A V c ⟨n, hn⟩ h0
    have hA' : outsAt2 V c n hn = _ := hA
    rw [hA']
    dsimp only
    rw [out_A_5, out_A_6, h0, Finset.sum_range_one, Finset.sum_range_one]
    constructor
    · rw [pay6_apply, pay3_apply]
      refine congrArg (zeroW + ·) (Finset.sum_congr rfl fun p _ => ?_)
      rw [blk_pay2]
      exact congrArg (colAt V c j) (by show 10000 * n + p.val = _; omega)
    · rw [pay1_apply, pay4_apply, pay5_apply]
      refine congrArg (zeroW + ·) (Finset.sum_congr rfl fun p _ => ?_)
      rw [blk_pay2, colAt_mul]
      exact congrArg (sqAt V c j) (by show 10000 * n + p.val = _; omega)
  induction n with
  | zero => intro hn u s j; exact first 0 hn rfl u s j
  | succ n ih =>
    intro hn u s j
    by_cases h0 : (n + 1) % 30 = 0
    · exact first (n + 1) hn h0 u s j
    · have hB := outsAt2_B V c ⟨n + 1, hn⟩ h0
      have hB' : outsAt2 V c (n + 1) hn = _ := hB
      obtain ⟨ih1, ih2⟩ := ih (Nat.lt_of_succ_lt hn) 0 s j
      have e1 : (n + 1) % 30 = n % 30 + 1 := by omega
      have e2 : (n + 1) / 30 = n / 30 := by omega
      rw [hB']
      dsimp only
      rw [out_B_5, out_B_6, e1, e2]
      constructor
      · rw [pay6_apply]
        show (outsAt2 V c n _).1 (ix3 0 s j) + _ = _
        rw [ih1, Finset.sum_range_succ _ (n % 30 + 1), add_assoc]
        refine congrArg (zeroW + ·) (congrArg (_ + ·) (Finset.sum_congr rfl fun p _ => ?_))
        rw [blk_pay2]
        exact congrArg (colAt V c j) (by show 10000 * (n + 1) + p.val = _; omega)
      · rw [pay1_apply, pay5_apply]
        show (outsAt2 V c n _).2 (ix3 0 s j) + _ = _
        rw [ih2, Finset.sum_range_succ _ (n % 30 + 1), add_assoc]
        refine congrArg (zeroW + ·) (congrArg (_ + ·) (Finset.sum_congr rfl fun p _ => ?_))
        rw [blk_pay2, colAt_mul]
        exact congrArg (sqAt V c j) (by show 10000 * (n + 1) + p.val = _; omega)

/-! ## The two result arrays -/

/-- The column sums per half, repeated down the 8 rows of the half's block, and the same of the squares. -/
def sums (c : Dev nD) : FVec Ideal ⟨3, ![2, 8, 128]⟩ .f32 := fun i =>
  zeroW + ∑ k ∈ Finset.range 30, ∑ p : Fin 10000, colAt V c (i 2 : Fin 128) (10000 * (30 * (i 0).val + k) + p.val)
def sumsSq (c : Dev nD) : FVec Ideal ⟨3, ![2, 8, 128]⟩ .f32 := fun i =>
  zeroW + ∑ k ∈ Finset.range 30, ∑ p : Fin 10000, sqAt V c (i 2 : Fin 128) (10000 * (30 * (i 0).val + k) + p.val)

/-- What a flushing point (the last of its half) writes back is its block of `sums`. -/
theorem flushed5_eq (c : Dev nD) (t : Fin cfg2.N) (hf : (cfg2.win 5).flush t = true) :
    (dat2 V c).flushed 5 t = ((cfg2.win 5).blk t).view.read (Elt Ideal) (sums V c) := by
  have hN : cfg2.N = 60 := N_2
  have hl : t.val % 30 = 29 := (flush2_5 t).mp hf
  have e := idx_facts t
  show (cfg2.win 5).cut (grid2.coords t) ((dat2 V c).after 5 t) = _
  rw [after2_5]
  funext y
  rw [View.read_apply]
  obtain ⟨u, s, j, rfl⟩ : ∃ (u : Fin 1) (s : Fin 8) (j : Fin 128), y = ix3 u s j := ⟨y 0, y 1, y 2, eq_ix3 y⟩
  have h0 : ((((cfg2.win 5).blk t).view.emb (ix3 u s j)) (0 : Fin 3)).val = t.val / 30 := by
    show win2_5.index t (0 : Fin 3) * 1 + 1 * u.val = _
    rw [e.2.2.2.2.2.2.2.2.2.2.1]; omega
  have h2 : (((((cfg2.win 5).blk t).view.emb (ix3 u s j)) (2 : Fin 3) : Fin 128)) = j := Fin.ext (by
    show win2_5.index t (2 : Fin 3) * 128 + 1 * j.val = _
    rw [e.2.2.2.2.2.2.2.2.2.2.2.2.1]; omega)
  show (outsAt2 V c t.val t.isLt).1 (ix3 u s j) = sums V c (((cfg2.win 5).blk t).view.emb (ix3 u s j))
  rw [(outsAt_apply V c t.val t.isLt u s j).1]
  unfold sums
  rw [h0, h2, hl]

/-- So the array ends at `sums`: the last point of half `s` covers block `s`. -/
theorem final5 (c : Dev nD) : (dat2 V c).arrAt 5 cfg2.N = sums V c :=
  (dat2 V c).arrAt_eq_of_cover 5 (sums V c) (flushed5_eq V c) fun (i : S2x8x128.Idx) => by
    have hN : cfg2.N = 60 := N_2
    have hi0 : (i 0).val < 2 := (i 0).isLt
    have hi1 : (i 1).val < 8 := (i 1).isLt
    have hi2 : (i 2).val < 128 := (i 2).isLt
    have hlt : 30 * (i 0).val + 29 < cfg2.N := by omega
    have e := idx_facts ⟨30 * (i 0).val + 29, hlt⟩
    refine ⟨⟨30 * (i 0).val + 29, hlt⟩, (flush2_5 _).mpr (by show (30 * (i 0).val + 29) % 30 = 29; omega), ?_⟩
    show i ∈ ((View.whole main_v24_0).slice (win2_5.rect ⟨30 * (i 0).val + 29, hlt⟩)).set
    rw [View.set_slice_whole, Rect.mem_set_unit]
    intro a
    match a with
    | ⟨0, _⟩ =>
      show win2_5.index ⟨30 * (i 0).val + 29, hlt⟩ (0 : Fin 3) * 1 ≤ (i 0).val ∧ (i 0).val < win2_5.index ⟨30 * (i 0).val + 29, hlt⟩ (0 : Fin 3) * 1 + 1
      rw [e.2.2.2.2.2.2.2.2.2.2.1]; dsimp only; omega
    | ⟨1, _⟩ =>
      show win2_5.index ⟨30 * (i 0).val + 29, hlt⟩ (1 : Fin 3) * 8 ≤ (i 1).val ∧ (i 1).val < win2_5.index ⟨30 * (i 0).val + 29, hlt⟩ (1 : Fin 3) * 8 + 8
      rw [e.2.2.2.2.2.2.2.2.2.2.2.1]; omega
    | ⟨2, _⟩ =>
      show win2_5.index ⟨30 * (i 0).val + 29, hlt⟩ (2 : Fin 3) * 128 ≤ (i 2).val ∧ (i 2).val < win2_5.index ⟨30 * (i 0).val + 29, hlt⟩ (2 : Fin 3) * 128 + 128
      rw [e.2.2.2.2.2.2.2.2.2.2.2.2.1]; omega

/-- What a flushing point (the last of its half) writes back is its block of `sumsSq`. -/
theorem flushed6_eq (c : Dev nD) (t : Fin cfg2.N) (hf : (cfg2.win 6).flush t = true) :
    (dat2 V c).flushed 6 t = ((cfg2.win 6).blk t).view.read (Elt Ideal) (sumsSq V c) := by
  have hN : cfg2.N = 60 := N_2
  have hl : t.val % 30 = 29 := (flush2_6 t).mp hf
  have e := idx_facts t
  show (cfg2.win 6).cut (grid2.coords t) ((dat2 V c).after 6 t) = _
  rw [after2_6]
  funext y
  rw [View.read_apply]
  obtain ⟨u, s, j, rfl⟩ : ∃ (u : Fin 1) (s : Fin 8) (j : Fin 128), y = ix3 u s j := ⟨y 0, y 1, y 2, eq_ix3 y⟩
  have h0 : ((((cfg2.win 6).blk t).view.emb (ix3 u s j)) (0 : Fin 3)).val = t.val / 30 := by
    show win2_6.index t (0 : Fin 3) * 1 + 1 * u.val = _
    rw [e.2.2.2.2.2.2.2.2.2.2.2.2.2.1]; omega
  have h2 : (((((cfg2.win 6).blk t).view.emb (ix3 u s j)) (2 : Fin 3) : Fin 128)) = j := Fin.ext (by
    show win2_6.index t (2 : Fin 3) * 128 + 1 * j.val = _
    rw [e.2.2.2.2.2.2.2.2.2.2.2.2.2.2.2]; omega)
  show (outsAt2 V c t.val t.isLt).2 (ix3 u s j) = sumsSq V c (((cfg2.win 6).blk t).view.emb (ix3 u s j))
  rw [(outsAt_apply V c t.val t.isLt u s j).2]
  unfold sumsSq
  rw [h0, h2, hl]

/-- So the array ends at `sumsSq`: the last point of half `s` covers block `s`. -/
theorem final6 (c : Dev nD) : (dat2 V c).arrAt 6 cfg2.N = sumsSq V c :=
  (dat2 V c).arrAt_eq_of_cover 6 (sumsSq V c) (flushed6_eq V c) fun (i : S2x8x128.Idx) => by
    have hN : cfg2.N = 60 := N_2
    have hi0 : (i 0).val < 2 := (i 0).isLt
    have hi1 : (i 1).val < 8 := (i 1).isLt
    have hi2 : (i 2).val < 128 := (i 2).isLt
    have hlt : 30 * (i 0).val + 29 < cfg2.N := by omega
    have e := idx_facts ⟨30 * (i 0).val + 29, hlt⟩
    refine ⟨⟨30 * (i 0).val + 29, hlt⟩, (flush2_6 _).mpr (by show (30 * (i 0).val + 29) % 30 = 29; omega), ?_⟩
    show i ∈ ((View.whole main_v24_1).slice (win2_6.rect ⟨30 * (i 0).val + 29, hlt⟩)).set
    rw [View.set_slice_whole, Rect.mem_set_unit]
    intro a
    match a with
    | ⟨0, _⟩ =>
      show win2_6.index ⟨30 * (i 0).val + 29, hlt⟩ (0 : Fin 3) * 1 ≤ (i 0).val ∧ (i 0).val < win2_6.index ⟨30 * (i 0).val + 29, hlt⟩ (0 : Fin 3) * 1 + 1
      rw [e.2.2.2.2.2.2.2.2.2.2.2.2.2.1]; dsimp only; omega
    | ⟨1, _⟩ =>
      show win2_6.index ⟨30 * (i 0).val + 29, hlt⟩ (1 : Fin 3) * 8 ≤ (i 1).val ∧ (i 1).val < win2_6.index ⟨30 * (i 0).val + 29, hlt⟩ (1 : Fin 3) * 8 + 8
      rw [e.2.2.2.2.2.2.2.2.2.2.2.2.2.2.1]; omega
    | ⟨2, _⟩ =>
      show win2_6.index ⟨30 * (i 0).val + 29, hlt⟩ (2 : Fin 3) * 128 ≤ (i 2).val ∧ (i 2).val < win2_6.index ⟨30 * (i 0).val + 29, hlt⟩ (2 : Fin 3) * 128 + 128
      rw [e.2.2.2.2.2.2.2.2.2.2.2.2.2.2.2]; omega

end Run

end Cert.KernelIdeal.StatsItem

end
-- ==== Proof.NormUser.lean ====
/-
  The value of the user normalise pass: what the output array of 400000 rows by 128 columns holds after the region has run, as one
  function of the arrays the region finds.

  The pass walks the 400000 input rows in fifty blocks of 8000. On a block `x` of rows it computes the two dense layers
  `h = (x·W1 + b1)·W2 + b2` (the weights rounded to bf16, which is the identity on the extended reals; each matrix product into a
  zero accumulator, which is the finite sum over the contracted coordinate; each bias a row repeated down the block), then
  `y = (h − μ)·(σ² + ε)^(-1/2)·γ + β` with the mean, variance, scale and shift rows `[1, 128]` repeated down the block, then
  `y` where `y ≥ 0` and the slope word times `y` elsewhere, and stores the result as the block of the output with the same rows.

  Entry `(p, q)` of a block's result reads row `p` of the block and entry `q` of the rows only; row `p` of block `t` is row
  `8000·t + p` of the input, and the other eight operands are staged whole at every point. So block `t` of the output is
  block `t` of the whole-array result, and since row `r` lies in block `r / 8000` the fifty blocks cover the output: it ends
  holding the whole-array result.

  The first section is stated for any block height and any layer widths, for both node types.
-/
import proofs.«115960_j19353122636427_2_alg».proof.Proof.Gen.KernelIdeal.Frame
import proofs.«115960_j19353122636427_2_alg».proof.Proof.LibBatchNorm
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
open Idealize.ShloMosaic.ValueIdx Idealize.ShloMosaic.Affine
open Idealize.ShloMosaic.SoftplusLayers (denseK denseK_eq)

namespace Cert.KernelIdeal.NormValue

open Cert.KernelIdeal Cert.KernelIdeal.Gen Idealize.ShloMosaic.BatchNorm

/-! ## A block of rows through the normalise pass, as a kernel body spells it -/

section Block

variable {A K H M : Nat}

/-- Subtract the mean row, multiply by the reciprocal square root of the variance row plus `ε`, by the scale row, add the
    shift row: the four rows `[1, M]` are repeated down the `A` rows of the block. -/
def scaleK (hc : (⟨2, ![1, M]⟩ : Shape).ShapeCasts ⟨2, ![1, M]⟩) (hb : (⟨2, ![1, M]⟩ : Shape).Broadcasts ⟨2, ![A, M]⟩)
    (h : FVec Ideal ⟨2, ![A, M]⟩ .f32) (mean var g b : FVec Ideal ⟨2, ![1, M]⟩ .f32) : FVec Ideal ⟨2, ![A, M]⟩ .f32 :=
  addf (mulf (mulf (subf h (broadcastTo ⟨2, ![A, M]⟩ (shapeCast ⟨2, ![1, M]⟩ mean hc) hb))
      (broadcastTo ⟨2, ![A, M]⟩ (rsqrt (addf (shapeCast ⟨2, ![1, M]⟩ var hc)
        (broadcast ⟨2, ![1, M]⟩ (Scalar.ofBits (F := Ideal) .f32 0x3727C5AC#32)))) hb))
      (broadcastTo ⟨2, ![A, M]⟩ (shapeCast ⟨2, ![1, M]⟩ g hc) hb))
    (broadcastTo ⟨2, ![A, M]⟩ (shapeCast ⟨2, ![1, M]⟩ b hc) hb)

/-- Entry `(p, q)` reads entry `q` of each of the four rows. -/
theorem scaleK_apply (hc : (⟨2, ![1, M]⟩ : Shape).ShapeCasts ⟨2, ![1, M]⟩) (hb : (⟨2, ![1, M]⟩ : Shape).Broadcasts ⟨2, ![A, M]⟩)
    (h : FVec Ideal ⟨2, ![A, M]⟩ .f32) (mean var g b : FVec Ideal ⟨2, ![1, M]⟩ .f32) (p : Fin A) (q : Fin M) :
    scaleK hc hb h mean var g b (ix2 p q)
      = (h (ix2 p q) - mean (ix2 (0 : Fin 1) q)) * Ideal.rsqrt (var (ix2 (0 : Fin 1) q) + epsW) * g (ix2 (0 : Fin 1) q)
          + b (ix2 (0 : Fin 1) q) := by
  unfold scaleK
  rw [shapeCast_self, shapeCast_self, shapeCast_self, shapeCast_self]
  show (h (ix2 p q) - broadcastTo ⟨2, ![A, M]⟩ mean hb (ix2 p q))
      * broadcastTo ⟨2, ![A, M]⟩ (rsqrt (addf var (broadcast ⟨2, ![1, M]⟩ (Scalar.ofBits (F := Ideal) .f32 0x3727C5AC#32)))) hb (ix2 p q)
      * broadcastTo ⟨2, ![A, M]⟩ g hb (ix2 p q) + broadcastTo ⟨2, ![A, M]⟩ b hb (ix2 p q) = _
  rw [broadcastTo_1b_ab_apply mean hb p q, broadcastTo_1b_ab_apply g hb p q, broadcastTo_1b_ab_apply b hb p q,
    broadcastTo_1b_ab_apply _ hb p q]
  rfl

/-- The leaky rectifier as a kernel body spells it: where `y ≥ 0` keep `y`, elsewhere the slope word times `y`. -/
def leakyK (y : FVec Ideal ⟨2, ![A, M]⟩ .f32) : FVec Ideal ⟨2, ![A, M]⟩ .f32 :=
  select (cmpf .oge y (broadcast ⟨2, ![A, M]⟩ (Scalar.ofBits (F := Ideal) .f32 0x00000000#32))) y
    (mulf (broadcast ⟨2, ![A, M]⟩ (Scalar.ofBits (F := Ideal) .f32 0x3C23D70A#32)) y)

theorem leakyK_apply (y : FVec Ideal ⟨2, ![A, M]⟩ .f32) (i : (⟨2, ![A, M]⟩ : Shape).Idx) :
    leakyK y i = Scalar.select (Ideal.cmp .oge (y i) zeroW) (y i) (slopeW * y i) := rfl

/-- The whole pass on a block of rows: two dense layers, the normalisation by the given rows, the rectifier. -/
def normK (d1 : DotDims ⟨2, ![A, K]⟩ ⟨2, ![K, H]⟩ ⟨2, ![A, H]⟩) (d2 : DotDims ⟨2, ![A, H]⟩ ⟨2, ![H, M]⟩ ⟨2, ![A, M]⟩)
    (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32)
    (mean var g b : FVec Ideal ⟨2, ![1, M]⟩ .f32) : FVec Ideal ⟨2, ![A, M]⟩ .f32 :=
  leakyK (scaleK hc2 hb2 (denseK d2 ht hc2 hb2 (denseK d1 ht hc1 hb1 x0 x1 x2) x3 x4) mean var g b)

/-- Entry `(p, q)` of the pass on a block is the specification's entry of the block's two layers and the four rows. -/
theorem normK_apply {d1 : DotDims ⟨2, ![A, K]⟩ ⟨2, ![K, H]⟩ ⟨2, ![A, H]⟩} {d2 : DotDims ⟨2, ![A, H]⟩ ⟨2, ![H, M]⟩ ⟨2, ![A, M]⟩}
    (hd1 : d1 = DotDims.plain A K H) (hd2 : d2 = DotDims.plain A H M) (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32)
    (mean var g b : FVec Ideal ⟨2, ![1, M]⟩ .f32) (p : Fin A) (q : Fin M) :
    normK d1 d2 ht hc1 hb1 hc2 hb2 x0 x1 x2 x3 x4 mean var g b (ix2 p q)
      = act (lin2 x0 (truncf .bf16 x1 ht) x2 (truncf .bf16 x3 ht) x4 (ix2 p q))
          (mean (ix2 (0 : Fin 1) q)) (var (ix2 (0 : Fin 1) q)) (g (ix2 (0 : Fin 1) q)) (b (ix2 (0 : Fin 1) q)) := by
  unfold normK
  rw [leakyK_apply, scaleK_apply, denseK_eq hd1, denseK_eq hd2]
  rfl

end Block

/-! ## The user pass: blocks of 8000 rows of the 400000 -/

theorem hz : (![0, 0] : Fin 2 → Nat) = fun _ => 0 := funext fun a => by fin_cases a <;> rfl

/-- The two printed matrix products contract the left operand's columns with the right operand's rows. -/
theorem dotU1_plain : dot_S8000x64_S64x256_S8000x256_1_0_0_1_n_n = DotDims.plain 8000 64 256 := rfl
theorem dotU2_plain : dot_S8000x256_S256x128_S8000x128_1_0_0_1_n_n = DotDims.plain 8000 256 128 := rfl

/-- What the body leaves in the output's buffer, entry `(p, q)`: the specification's entry of the body's nine loaded blocks. -/
theorem outU_apply (x0 : Vec Ideal S8000x64 .f32) (x1 : Vec Ideal S64x256 .f32) (x2 : Vec Ideal S1x256 .f32)
    (x3 : Vec Ideal S256x128 .f32) (x4 x5 x6 x7 x8 : Vec Ideal S1x128 .f32) (p : Fin 8000) (q : Fin 128) :
    out1_9 x0 x1 x2 x3 x4 x5 x6 x7 x8 (ix2 p q)
      = act (lin2 (A := 8000) (K := 64) (H := 256) (M := 128) x0 (truncf .bf16 x1 bitsLt_bf16_f32) x2 (truncf .bf16 x3 bitsLt_bf16_f32) x4 (ix2 p q))
          (x5 (ix2 (0 : Fin 1) q)) (x6 (ix2 (0 : Fin 1) q)) (x7 (ix2 (0 : Fin 1) q)) (x8 (ix2 (0 : Fin 1) q)) := by
  unfold out1_9
  rw [View.canon_unit_zero hz]
  simp only [View.ld_unit_zero (S := S8000x64) hz, View.ld_unit_zero (S := S64x256) hz, View.ld_unit_zero (S := S1x256) hz,
    View.ld_unit_zero (S := S256x128) hz, View.ld_unit_zero (S := S1x128) hz]
  exact normK_apply dotU1_plain dotU2_plain bitsLt_bf16_f32 shapeCasts_S1x256_S1x256 broadcasts_S1x256_S8000x256
    shapeCasts_S1x128_S1x128 broadcasts_S1x128_S8000x128 x0 x1 x2 x3 x4 x5 x6 x7 x8 p q

/-- The specification's entry at row `r` of the whole array, from a block whose row `p` is row `r` of the input and whose
    other eight loads are the eight small arrays whole: the two layers read row `p` of the block only. -/
theorem blockU_apply (a0 : FVec Ideal S400000x64 .f32) (a1 : FVec Ideal S64x256 .f32) (a2 : FVec Ideal S1x256 .f32)
    (a3 : FVec Ideal S256x128 .f32) (a4 a5 a6 a7 a8 : FVec Ideal S1x128 .f32)
    (x0 : Vec Ideal S8000x64 .f32) (x1 : Vec Ideal S64x256 .f32) (x2 : Vec Ideal S1x256 .f32)
    (x3 : Vec Ideal S256x128 .f32) (x4 x5 x6 x7 x8 : Vec Ideal S1x128 .f32) (n : Nat)
    (h0 : ∀ (p : Fin 8000) (k : Fin 64) (r : Fin 400000), r.val = n * 8000 + p.val → x0 (ix2 p k) = a0 (ix2 r k))
    (h1 : x1 = a1) (h2 : x2 = a2) (h3 : x3 = a3) (h4 : x4 = a4) (h5 : x5 = a5) (h6 : x6 = a6) (h7 : x7 = a7) (h8 : x8 = a8)
    (j : S8000x128.Idx) (i : S400000x128.Idx) (hi0 : (i 0).val = n * 8000 + (j 0).val) (hi1 : (i 1).val = (j 1).val) :
    out1_9 x0 x1 x2 x3 x4 x5 x6 x7 x8 j
      = normRows (lin2 (A := 400000) (K := 64) (H := 256) (M := 128) (φ1 := .f32) (φ2 := .f32) a0 a1 a2 a3 a4) a5 a6 a7 a8 i := by
  subst h1 h2 h3 h4 h5 h6 h7 h8
  obtain ⟨p, q, rfl⟩ : ∃ (p : Fin 8000) (q : Fin 128), j = ix2 p q := ⟨j 0, j 1, eq_ix2 j⟩
  obtain ⟨r, s, rfl⟩ : ∃ (r : Fin 400000) (s : Fin 128), i = ix2 r s := ⟨i 0, i 1, eq_ix2 i⟩
  obtain rfl : s = q := Fin.ext hi1
  rw [outU_apply, normRows_ix2]
  refine congrArg (fun z => act z (x5 (ix2 (0 : Fin 1) s)) (x6 (ix2 (0 : Fin 1) s)) (x7 (ix2 (0 : Fin 1) s)) (x8 (ix2 (0 : Fin 1) s))) ?_
  exact lin2_rows (φ1 := .f32) (φ2 := .f32) x0 a0 x1 x2 x3 x4 p r (fun k => h0 p k r hi0) s

/-- The printed index maps over the grid: the input's and the output's block index is the point's number on the rows and zero on
    the columns; every other window's block index is zero. -/
theorem idxU : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

section Run

variable (V : (c : Dev nD) → (b : Ref sig .tc) → Buf (Elt Ideal) ((c : Thread nD τ).loc b))

/-- The whole result of the user pass from the arrays as the region finds them: the two layers of the input rows, normalised by
    the mean and variance rows, scaled and shifted by the two parameter rows, rectified. -/
abbrev resultU (c : Dev nD) : FVec Ideal S400000x128 .f32 :=
  normRows (lin2 (A := 400000) (K := 64) (H := 256) (M := 128) (φ1 := .f32) (φ2 := .f32)
      (V c main_arg0) (V c main_arg2) (V c main_v0) (V c main_arg6) (V c main_v1))
    (V c main_v17) (V c main_v18) (V c main_v19) (V c main_v20)

/-- What point `t` writes back is block `t` of the whole result: its rows are rows `8000 t … 8000 t + 7999`. -/
theorem flushedU (c : Dev nD) (t : Fin cfg1.N) :
    (dat1 (F := Ideal) V c).flushed 9 t = ((cfg1.win 9).blk t).view.read (Elt Ideal) (resultU V c) := by
  show (cfg1.win 9).cut (grid1.coords t) ((dat1 (F := Ideal) V c).after 9 t) = _
  rw [after1_9]
  obtain ⟨e00, e01, e10, e11, e20, e21, e30, e31, e40, e41, e50, e51, e60, e61, e70, e71, e80, e81, e90, e91⟩ := idxU t
  funext j
  show out1_9 (iblk1 V c 0 t) (iblk1 V c 1 t) (iblk1 V c 2 t) (iblk1 V c 3 t) (iblk1 V c 4 t) (iblk1 V c 5 t) (iblk1 V c 6 t)
      (iblk1 V c 7 t) (iblk1 V c 8 t) ((cfg1.win 9).xinj (grid1.coords t) j)
    = resultU V c (((cfg1.win 9).blk t).view.emb j)
  refine blockU_apply (V c main_arg0) (V c main_arg2) (V c main_v0) (V c main_arg6) (V c main_v1) (V c main_v17) (V c main_v18)
    (V c main_v19) (V c main_v20) (iblk1 V c 0 t) (iblk1 V c 1 t) (iblk1 V c 2 t) (iblk1 V c 3 t) (iblk1 V c 4 t) (iblk1 V c 5 t)
    (iblk1 V c 6 t) (iblk1 V c 7 t) (iblk1 V c 8 t) t.val ?_ ?_ ?_ ?_ ?_ ?_ ?_ ?_ ?_
    ((cfg1.win 9).xinj (grid1.coords t) j) (((cfg1.win 9).blk t).view.emb j) ?_ ?_
  · intro p k r hr
    show V c main_arg0 (((cfg1.win 0).blk t).view.emb (ix2 p k)) = V c main_arg0 (ix2 r k)
    refine congrArg (V c main_arg0) ?_
    funext a; apply Fin.ext
    match a with
    | ⟨0, _⟩ => show win1_0.index t (0 : Fin 2) * 8000 + 1 * p.val = r.val; rw [e00, hr]; omega
    | ⟨1, _⟩ => show win1_0.index t (1 : Fin 2) * 64 + 1 * k.val = k.val; rw [e01]; omega
  · funext y
    show V c main_arg2 (((cfg1.win 1).blk t).view.emb y) = V c main_arg2 y
    refine congrArg (V c main_arg2) ?_
    funext a; apply Fin.ext
    match a with
    | ⟨0, _⟩ => show win1_1.index t (0 : Fin 2) * 64 + 1 * (y 0).val = (y 0).val; rw [e10]; omega
    | ⟨1, _⟩ => show win1_1.index t (1 : Fin 2) * 256 + 1 * (y 1).val = (y 1).val; rw [e11]; omega
  · funext y
    show V c main_v0 (((cfg1.win 2).blk t).view.emb y) = V c main_v0 y
    refine congrArg (V c main_v0) ?_
    funext a; apply Fin.ext
    match a with
    | ⟨0, _⟩ => show win1_2.index t (0 : Fin 2) * 1 + 1 * (y 0).val = (y 0).val; rw [e20]; omega
    | ⟨1, _⟩ => show win1_2.index t (1 : Fin 2) * 256 + 1 * (y 1).val = (y 1).val; rw [e21]; omega
  · funext y
    show V c main_arg6 (((cfg1.win 3).blk t).view.emb y) = V c main_arg6 y
    refine congrArg (V c main_arg6) ?_
    funext a; apply Fin.ext
    match a with
    | ⟨0, _⟩ => show win1_3.index t (0 : Fin 2) * 256 + 1 * (y 0).val = (y 0).val; rw [e30]; omega
    | ⟨1, _⟩ => show win1_3.index t (1 : Fin 2) * 128 + 1 * (y 1).val = (y 1).val; rw [e31]; omega
  · funext y
    show V c main_v1 (((cfg1.win 4).blk t).view.emb y) = V c main_v1 y
    refine congrArg (V c main_v1) ?_
    funext a; apply Fin.ext
    match a with
    | ⟨0, _⟩ => show win1_4.index t (0 : Fin 2) * 1 + 1 * (y 0).val = (y 0).val; rw [e40]; omega
    | ⟨1, _⟩ => show win1_4.index t (1 : Fin 2) * 128 + 1 * (y 1).val = (y 1).val; rw [e41]; omega
  · funext y
    show V c main_v17 (((cfg1.win 5).blk t).view.emb y) = V c main_v17 y
    refine congrArg (V c main_v17) ?_
    funext a; apply Fin.ext
    match a with
    | ⟨0, _⟩ => show win1_5.index t (0 : Fin 2) * 1 + 1 * (y 0).val = (y 0).val; rw [e50]; omega
    | ⟨1, _⟩ => show win1_5.index t (1 : Fin 2) * 128 + 1 * (y 1).val = (y 1).val; rw [e51]; omega
  · funext y
    show V c main_v18 (((cfg1.win 6).blk t).view.emb y) = V c main_v18 y
    refine congrArg (V c main_v18) ?_
    funext a; apply Fin.ext
    match a with
    | ⟨0, _⟩ => show win1_6.index t (0 : Fin 2) * 1 + 1 * (y 0).val = (y 0).val; rw [e60]; omega
    | ⟨1, _⟩ => show win1_6.index t (1 : Fin 2) * 128 + 1 * (y 1).val = (y 1).val; rw [e61]; omega
  · funext y
    show V c main_v19 (((cfg1.win 7).blk t).view.emb y) = V c main_v19 y
    refine congrArg (V c main_v19) ?_
    funext a; apply Fin.ext
    match a with
    | ⟨0, _⟩ => show win1_7.index t (0 : Fin 2) * 1 + 1 * (y 0).val = (y 0).val; rw [e70]; omega
    | ⟨1, _⟩ => show win1_7.index t (1 : Fin 2) * 128 + 1 * (y 1).val = (y 1).val; rw [e71]; omega
  · funext y
    show V c main_v20 (((cfg1.win 8).blk t).view.emb y) = V c main_v20 y
    refine congrArg (V c main_v20) ?_
    funext a; apply Fin.ext
    match a with
    | ⟨0, _⟩ => show win1_8.index t (0 : Fin 2) * 1 + 1 * (y 0).val = (y 0).val; rw [e80]; omega
    | ⟨1, _⟩ => show win1_8.index t (1 : Fin 2) * 128 + 1 * (y 1).val = (y 1).val; rw [e81]; omega
  · show win1_9.index t (0 : Fin 2) * 8000 + 1 * (j 0).val = t.val * 8000 + (j 0).val
    rw [e90]; omega
  · show win1_9.index t (1 : Fin 2) * 128 + 1 * (j 1).val = (j 1).val
    rw [e91]; omega

/-- An index of the output array is in point `t`'s block iff each coordinate is in the block's range on its axis. -/
theorem mem_blkU (t : Fin cfg1.N) (i : S400000x128.Idx) :
    i ∈ ((cfg1.win 9).blk t).view.set ↔ ∀ a : Fin 2, win1_9.index t a * S8000x128.size a ≤ (i a).val
      ∧ (i a).val < win1_9.index t a * S8000x128.size a + S8000x128.size a := by
  show i ∈ ((View.whole main_v21).slice (win1_9.rect t)).set ↔ _
  rw [View.set_slice_whole, Rect.mem_set_unit]
  exact Iff.rfl

/-- Row `r` of the output is in the block of point `r / 8000`: the fifty blocks cover the array. -/
theorem coverU (i : S400000x128.Idx) :
    ∃ t : Fin cfg1.N, (cfg1.win 9).flush t = true ∧ i ∈ ((cfg1.win 9).blk t).view.set := by
  have hN : cfg1.N = 50 := N_1
  have hi0 : (i 0).val < 400000 := (i 0).isLt
  have hi1 : (i 1).val < 128 := (i 1).isLt
  have hlt : (i 0).val / 8000 < cfg1.N := by rw [hN]; omega
  obtain ⟨-, -, -, -, -, -, -, -, -, -, -, -, -, -, -, -, -, -, e90, e91⟩ := idxU ⟨(i 0).val / 8000, hlt⟩
  refine ⟨⟨(i 0).val / 8000, hlt⟩, flush1_9 _, ?_⟩
  rw [mem_blkU]
  intro a
  match a with
  | ⟨0, _⟩ =>
    show win1_9.index ⟨(i 0).val / 8000, hlt⟩ (0 : Fin 2) * 8000 ≤ (i 0).val
      ∧ (i 0).val < win1_9.index ⟨(i 0).val / 8000, hlt⟩ (0 : Fin 2) * 8000 + 8000
    rw [e90]
    show (i 0).val / 8000 * 8000 ≤ (i 0).val ∧ (i 0).val < (i 0).val / 8000 * 8000 + 8000
    omega
  | ⟨1, _⟩ =>
    show win1_9.index ⟨(i 0).val / 8000, hlt⟩ (1 : Fin 2) * 128 ≤ (i 1).val
      ∧ (i 1).val < win1_9.index ⟨(i 0).val / 8000, hlt⟩ (1 : Fin 2) * 128 + 128
    rw [e91]
    omega

/-- The output array of the user pass after the region's run. -/
theorem norm_user (c : Dev nD) : (dat1 (F := Ideal) V c).arrAt 9 cfg1.N = resultU V c :=
  (dat1 (F := Ideal) V c).arrAt_eq_of_cover 9 (resultU V c) (fun t _ => flushedU V c t) (coverU)

end Run

end Cert.KernelIdeal.NormValue

end
-- ==== Proof.NormItem.lean ====
/-
  The value of the item normalise pass: what the output array of 600000 rows by 128 columns holds after the region has run, as one
  function of the arrays the region finds.

  The pass is the user pass on the other node type: the 600000 input rows of width 128 in sixty blocks of 10000, the same two dense
  layers `h = (x·W1 + b1)·W2 + b2` with the first weight matrix `128 × 256`, the same normalisation
  `y = (h − μ)·(σ² + ε)^(-1/2)·γ + β` by the four rows `[1, 128]`, the same rectifier. Row `p` of block `t` is row `10000·t + p` of
  the input and the other eight operands are staged whole, so block `t` of the output is block `t` of the whole-array result;
  row `r` lies in block `r / 10000`, the sixty blocks cover the output, and it ends holding the whole-array result.

  The block's arithmetic at an entry, stated for any block height and layer widths, is the user module's first section.
-/
import proofs.«115960_j19353122636427_2_alg».proof.Proof.Gen.KernelIdeal.Frame
import proofs.«115960_j19353122636427_2_alg».proof.Proof.LibBatchNorm
import proofs.«115960_j19353122636427_2_alg».proof.Proof.NormUser
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
open Idealize.ShloMosaic.ValueIdx Idealize.ShloMosaic.Affine

namespace Cert.KernelIdeal.NormValue

open Cert.KernelIdeal Cert.KernelIdeal.Gen Idealize.ShloMosaic.BatchNorm

/-! ## The item pass: blocks of 10000 rows of the 600000 -/

/-- The two printed matrix products contract the left operand's columns with the right operand's rows. -/
theorem dotI1_plain : dot_S10000x128_S128x256_S10000x256_1_0_0_1_n_n = DotDims.plain 10000 128 256 := rfl
theorem dotI2_plain : dot_S10000x256_S256x128_S10000x128_1_0_0_1_n_n = DotDims.plain 10000 256 128 := rfl

/-- What the body leaves in the output's buffer, entry `(p, q)`: the specification's entry of the body's nine loaded blocks. -/
theorem outI_apply (x0 : Vec Ideal S10000x128 .f32) (x1 : Vec Ideal S128x256 .f32) (x2 : Vec Ideal S1x256 .f32)
    (x3 : Vec Ideal S256x128 .f32) (x4 x5 x6 x7 x8 : Vec Ideal S1x128 .f32) (p : Fin 10000) (q : Fin 128) :
    out3_9 x0 x1 x2 x3 x4 x5 x6 x7 x8 (ix2 p q)
      = act (lin2 (A := 10000) (K := 128) (H := 256) (M := 128) x0 (truncf .bf16 x1 bitsLt_bf16_f32) x2 (truncf .bf16 x3 bitsLt_bf16_f32) x4 (ix2 p q))
          (x5 (ix2 (0 : Fin 1) q)) (x6 (ix2 (0 : Fin 1) q)) (x7 (ix2 (0 : Fin 1) q)) (x8 (ix2 (0 : Fin 1) q)) := by
  unfold out3_9
  rw [View.canon_unit_zero hz]
  simp only [View.ld_unit_zero (S := S10000x128) hz, View.ld_unit_zero (S := S128x256) hz, View.ld_unit_zero (S := S1x256) hz,
    View.ld_unit_zero (S := S256x128) hz, View.ld_unit_zero (S := S1x128) hz]
  exact normK_apply dotI1_plain dotI2_plain bitsLt_bf16_f32 shapeCasts_S1x256_S1x256 broadcasts_S1x256_S10000x256
    shapeCasts_S1x128_S1x128 broadcasts_S1x128_S10000x128 x0 x1 x2 x3 x4 x5 x6 x7 x8 p q

/-- The specification's entry at row `r` of the whole array, from a block whose row `p` is row `r` of the input and whose
    other eight loads are the eight small arrays whole: the two layers read row `p` of the block only. -/
theorem blockI_apply (a0 : FVec Ideal S600000x128 .f32) (a1 : FVec Ideal S128x256 .f32) (a2 : FVec Ideal S1x256 .f32)
    (a3 : FVec Ideal S256x128 .f32) (a4 a5 a6 a7 a8 : FVec Ideal S1x128 .f32)
    (x0 : Vec Ideal S10000x128 .f32) (x1 : Vec Ideal S128x256 .f32) (x2 : Vec Ideal S1x256 .f32)
    (x3 : Vec Ideal S256x128 .f32) (x4 x5 x6 x7 x8 : Vec Ideal S1x128 .f32) (n : Nat)
    (h0 : ∀ (p : Fin 10000) (k : Fin 128) (r : Fin 600000), r.val = n * 10000 + p.val → x0 (ix2 p k) = a0 (ix2 r k))
    (h1 : x1 = a1) (h2 : x2 = a2) (h3 : x3 = a3) (h4 : x4 = a4) (h5 : x5 = a5) (h6 : x6 = a6) (h7 : x7 = a7) (h8 : x8 = a8)
    (j : S10000x128.Idx) (i : S600000x128.Idx) (hi0 : (i 0).val = n * 10000 + (j 0).val) (hi1 : (i 1).val = (j 1).val) :
    out3_9 x0 x1 x2 x3 x4 x5 x6 x7 x8 j
      = normRows (lin2 (A := 600000) (K := 128) (H := 256) (M := 128) (φ1 := .f32) (φ2 := .f32) a0 a1 a2 a3 a4) a5 a6 a7 a8 i := by
  subst h1 h2 h3 h4 h5 h6 h7 h8
  obtain ⟨p, q, rfl⟩ : ∃ (p : Fin 10000) (q : Fin 128), j = ix2 p q := ⟨j 0, j 1, eq_ix2 j⟩
  obtain ⟨r, s, rfl⟩ : ∃ (r : Fin 600000) (s : Fin 128), i = ix2 r s := ⟨i 0, i 1, eq_ix2 i⟩
  obtain rfl : s = q := Fin.ext hi1
  rw [outI_apply, normRows_ix2]
  refine congrArg (fun z => act z (x5 (ix2 (0 : Fin 1) s)) (x6 (ix2 (0 : Fin 1) s)) (x7 (ix2 (0 : Fin 1) s)) (x8 (ix2 (0 : Fin 1) s))) ?_
  exact lin2_rows (φ1 := .f32) (φ2 := .f32) x0 a0 x1 x2 x3 x4 p r (fun k => h0 p k r hi0) s

/-- The printed index maps over the grid: the input's and the output's block index is the point's number on the rows and zero on
    the columns; every other window's block index is zero. -/
theorem idxI : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = t.val ∧ win3_9.index t (1 : Fin 2) = 0 :=
  (by decide +kernel : ∀ t : Fin grid3.N, _)

section Run

variable (V : (c : Dev nD) → (b : Ref sig .tc) → Buf (Elt Ideal) ((c : Thread nD τ).loc b))

/-- The whole result of the item pass from the arrays as the region finds them: the two layers of the input rows, normalised by
    the mean and variance rows, scaled and shifted by the two parameter rows, rectified. -/
abbrev resultI (c : Dev nD) : FVec Ideal S600000x128 .f32 :=
  normRows (lin2 (A := 600000) (K := 128) (H := 256) (M := 128) (φ1 := .f32) (φ2 := .f32)
      (V c main_arg1) (V c main_arg4) (V c main_v22) (V c main_arg8) (V c main_v23))
    (V c main_v39) (V c main_v40) (V c main_v41) (V c main_v42)

/-- What point `t` writes back is block `t` of the whole result: its rows are rows `10000 t … 10000 t + 9999`. -/
theorem flushedI (c : Dev nD) (t : Fin cfg3.N) :
    (dat3 (F := Ideal) V c).flushed 9 t = ((cfg3.win 9).blk t).view.read (Elt Ideal) (resultI V c) := by
  show (cfg3.win 9).cut (grid3.coords t) ((dat3 (F := Ideal) V c).after 9 t) = _
  rw [after3_9]
  obtain ⟨e00, e01, e10, e11, e20, e21, e30, e31, e40, e41, e50, e51, e60, e61, e70, e71, e80, e81, e90, e91⟩ := idxI t
  funext j
  show out3_9 (iblk3 V c 0 t) (iblk3 V c 1 t) (iblk3 V c 2 t) (iblk3 V c 3 t) (iblk3 V c 4 t) (iblk3 V c 5 t) (iblk3 V c 6 t)
      (iblk3 V c 7 t) (iblk3 V c 8 t) ((cfg3.win 9).xinj (grid3.coords t) j)
    = resultI V c (((cfg3.win 9).blk t).view.emb j)
  refine blockI_apply (V c main_arg1) (V c main_arg4) (V c main_v22) (V c main_arg8) (V c main_v23) (V c main_v39) (V c main_v40)
    (V c main_v41) (V c main_v42) (iblk3 V c 0 t) (iblk3 V c 1 t) (iblk3 V c 2 t) (iblk3 V c 3 t) (iblk3 V c 4 t) (iblk3 V c 5 t)
    (iblk3 V c 6 t) (iblk3 V c 7 t) (iblk3 V c 8 t) t.val ?_ ?_ ?_ ?_ ?_ ?_ ?_ ?_ ?_
    ((cfg3.win 9).xinj (grid3.coords t) j) (((cfg3.win 9).blk t).view.emb j) ?_ ?_
  · intro p k r hr
    show V c main_arg1 (((cfg3.win 0).blk t).view.emb (ix2 p k)) = V c main_arg1 (ix2 r k)
    refine congrArg (V c main_arg1) ?_
    funext a; apply Fin.ext
    match a with
    | ⟨0, _⟩ => show win3_0.index t (0 : Fin 2) * 10000 + 1 * p.val = r.val; rw [e00, hr]; omega
    | ⟨1, _⟩ => show win3_0.index t (1 : Fin 2) * 128 + 1 * k.val = k.val; rw [e01]; omega
  · funext y
    show V c main_arg4 (((cfg3.win 1).blk t).view.emb y) = V c main_arg4 y
    refine congrArg (V c main_arg4) ?_
    funext a; apply Fin.ext
    match a with
    | ⟨0, _⟩ => show win3_1.index t (0 : Fin 2) * 128 + 1 * (y 0).val = (y 0).val; rw [e10]; omega
    | ⟨1, _⟩ => show win3_1.index t (1 : Fin 2) * 256 + 1 * (y 1).val = (y 1).val; rw [e11]; omega
  · funext y
    show V c main_v22 (((cfg3.win 2).blk t).view.emb y) = V c main_v22 y
    refine congrArg (V c main_v22) ?_
    funext a; apply Fin.ext
    match a with
    | ⟨0, _⟩ => show win3_2.index t (0 : Fin 2) * 1 + 1 * (y 0).val = (y 0).val; rw [e20]; omega
    | ⟨1, _⟩ => show win3_2.index t (1 : Fin 2) * 256 + 1 * (y 1).val = (y 1).val; rw [e21]; omega
  · funext y
    show V c main_arg8 (((cfg3.win 3).blk t).view.emb y) = V c main_arg8 y
    refine congrArg (V c main_arg8) ?_
    funext a; apply Fin.ext
    match a with
    | ⟨0, _⟩ => show win3_3.index t (0 : Fin 2) * 256 + 1 * (y 0).val = (y 0).val; rw [e30]; omega
    | ⟨1, _⟩ => show win3_3.index t (1 : Fin 2) * 128 + 1 * (y 1).val = (y 1).val; rw [e31]; omega
  · funext y
    show V c main_v23 (((cfg3.win 4).blk t).view.emb y) = V c main_v23 y
    refine congrArg (V c main_v23) ?_
    funext a; apply Fin.ext
    match a with
    | ⟨0, _⟩ => show win3_4.index t (0 : Fin 2) * 1 + 1 * (y 0).val = (y 0).val; rw [e40]; omega
    | ⟨1, _⟩ => show win3_4.index t (1 : Fin 2) * 128 + 1 * (y 1).val = (y 1).val; rw [e41]; omega
  · funext y
    show V c main_v39 (((cfg3.win 5).blk t).view.emb y) = V c main_v39 y
    refine congrArg (V c main_v39) ?_
    funext a; apply Fin.ext
    match a with
    | ⟨0, _⟩ => show win3_5.index t (0 : Fin 2) * 1 + 1 * (y 0).val = (y 0).val; rw [e50]; omega
    | ⟨1, _⟩ => show win3_5.index t (1 : Fin 2) * 128 + 1 * (y 1).val = (y 1).val; rw [e51]; omega
  · funext y
    show V c main_v40 (((cfg3.win 6).blk t).view.emb y) = V c main_v40 y
    refine congrArg (V c main_v40) ?_
    funext a; apply Fin.ext
    match a with
    | ⟨0, _⟩ => show win3_6.index t (0 : Fin 2) * 1 + 1 * (y 0).val = (y 0).val; rw [e60]; omega
    | ⟨1, _⟩ => show win3_6.index t (1 : Fin 2) * 128 + 1 * (y 1).val = (y 1).val; rw [e61]; omega
  · funext y
    show V c main_v41 (((cfg3.win 7).blk t).view.emb y) = V c main_v41 y
    refine congrArg (V c main_v41) ?_
    funext a; apply Fin.ext
    match a with
    | ⟨0, _⟩ => show win3_7.index t (0 : Fin 2) * 1 + 1 * (y 0).val = (y 0).val; rw [e70]; omega
    | ⟨1, _⟩ => show win3_7.index t (1 : Fin 2) * 128 + 1 * (y 1).val = (y 1).val; rw [e71]; omega
  · funext y
    show V c main_v42 (((cfg3.win 8).blk t).view.emb y) = V c main_v42 y
    refine congrArg (V c main_v42) ?_
    funext a; apply Fin.ext
    match a with
    | ⟨0, _⟩ => show win3_8.index t (0 : Fin 2) * 1 + 1 * (y 0).val = (y 0).val; rw [e80]; omega
    | ⟨1, _⟩ => show win3_8.index t (1 : Fin 2) * 128 + 1 * (y 1).val = (y 1).val; rw [e81]; omega
  · show win3_9.index t (0 : Fin 2) * 10000 + 1 * (j 0).val = t.val * 10000 + (j 0).val
    rw [e90]; omega
  · show win3_9.index t (1 : Fin 2) * 128 + 1 * (j 1).val = (j 1).val
    rw [e91]; omega

/-- An index of the output array is in point `t`'s block iff each coordinate is in the block's range on its axis. -/
theorem mem_blkI (t : Fin cfg3.N) (i : S600000x128.Idx) :
    i ∈ ((cfg3.win 9).blk t).view.set ↔ ∀ a : Fin 2, win3_9.index t a * S10000x128.size a ≤ (i a).val
      ∧ (i a).val < win3_9.index t a * S10000x128.size a + S10000x128.size a := by
  show i ∈ ((View.whole main_v43).slice (win3_9.rect t)).set ↔ _
  rw [View.set_slice_whole, Rect.mem_set_unit]
  exact Iff.rfl

/-- Row `r` of the output is in the block of point `r / 10000`: the sixty blocks cover the array. -/
theorem coverI (i : S600000x128.Idx) :
    ∃ t : Fin cfg3.N, (cfg3.win 9).flush t = true ∧ i ∈ ((cfg3.win 9).blk t).view.set := by
  have hN : cfg3.N = 60 := N_3
  have hi0 : (i 0).val < 600000 := (i 0).isLt
  have hi1 : (i 1).val < 128 := (i 1).isLt
  have hlt : (i 0).val / 10000 < cfg3.N := by rw [hN]; omega
  obtain ⟨-, -, -, -, -, -, -, -, -, -, -, -, -, -, -, -, -, -, e90, e91⟩ := idxI ⟨(i 0).val / 10000, hlt⟩
  refine ⟨⟨(i 0).val / 10000, hlt⟩, flush3_9 _, ?_⟩
  rw [mem_blkI]
  intro a
  match a with
  | ⟨0, _⟩ =>
    show win3_9.index ⟨(i 0).val / 10000, hlt⟩ (0 : Fin 2) * 10000 ≤ (i 0).val
      ∧ (i 0).val < win3_9.index ⟨(i 0).val / 10000, hlt⟩ (0 : Fin 2) * 10000 + 10000
    rw [e90]
    show (i 0).val / 10000 * 10000 ≤ (i 0).val ∧ (i 0).val < (i 0).val / 10000 * 10000 + 10000
    omega
  | ⟨1, _⟩ =>
    show win3_9.index ⟨(i 0).val / 10000, hlt⟩ (1 : Fin 2) * 128 ≤ (i 1).val
      ∧ (i 1).val < win3_9.index ⟨(i 0).val / 10000, hlt⟩ (1 : Fin 2) * 128 + 128
    rw [e91]
    omega

/-- The output array of the item pass after the region's run. -/
theorem norm_item (c : Dev nD) : (dat3 (F := Ideal) V c).arrAt 9 cfg3.N = resultI V c :=
  (dat3 (F := Ideal) V c).arrAt_eq_of_cover 9 (resultI V c) (fun t _ => flushedI V c t) (coverI)

end Run

end Cert.KernelIdeal.NormValue

end
-- ==== Proof.HostStats.lean ====
/-
  The host's arithmetic between the kernel's passes, read at one entry, from whatever the arrays hold when a stretch begins.

  A statistics pass leaves, per column `j`, two partial sums in an array `[2, 8, 128]`: entry `(s, 0, j)` is the sum of the
  column (or of its squares) over one half of the rows. The host takes row `0` of each `[8, 128]` tile, adds the two halves
  from the zero word, divides by the number of rows, and forms the variance as the mean of the squares less the squared mean,
  clamped below at the zero word; it then recasts the mean, the variance, the scale and the shift as rows `[1, 128]`. Two
  shorter stretches only recast the bias vectors as rows.
-/
import proofs.«115960_j19353122636427_2_alg».proof.Proof.Gen.KernelIdeal.Launch
import proofs.«115960_j19353122636427_2_alg».proof.Proof.LibBatchNorm
import Idealize.ShloMosaic.Lib.StableHlo.Run
import Idealize.ShloMosaic.Lib.Pipeline.Value
import Idealize.ShloMosaic.Lib.ValueLayout

noncomputable section

namespace Cert.KernelIdeal.HostStats

open Cert.KernelIdeal Cert.KernelIdeal.Gen Idealize.ShloMosaic.BatchNorm Idealize.ShloMosaic Idealize.ShloMosaic.ValueIdx

/-! ## The arithmetic on arrays, and at one column -/

/-- The two partial sums of every column, added from the zero word: row `0` of each tile, the unit axis dropped, summed over
    the leading axis. -/
def halvesSum (P : FVec Ideal S2x8x128 .f32) : FVec Ideal S128 .f32 :=
  Host.reduceAdd (F := Ideal)
    (shapeCast S2x128 (extractStridedSlice S2x1x128 ![0, 0, 0] P slices_S2x8x128_S2x1x128_0_0_0) shapeCasts_S2x1x128_S2x128)
    (constant (F := Ideal) S_ .f32 0x00000000#32) reducesTo_S2x128_S128_d0 h_S_

theorem halvesSum_apply (P : FVec Ideal S2x8x128 .f32) (j : Fin 128) :
    halvesSum P (ix1 j) = zeroW + ∑ s : Fin 2, P (ix3 s (0 : Fin 8) j) := by
  unfold halvesSum
  simp only [Host.reduceAdd, Ideal.hostReduceAdd_def]
  rw [Ideal.hostReduceAdd_single reducesTo_S2x128_S128_d0 (by decide)]
  refine congrArg (_ + ·) (Finset.sum_congr rfl fun s _ => ?_)
  refine (shapeCast_apply _ _ _ (ix3 s (0 : Fin 1) j) ?_).trans ?_
  · rw [Shape.rowMajor_val_three, Shape.rowMajor_val_two]
    show (s.val * 1 + 0) * 128 + j.val = s.val * 128 + j.val
    omega
  · exact extractStridedSlice_apply _ P _ _ (ix3 s (0 : Fin 8) j) (fun a => by
      match a with
      | ⟨0, _⟩ => show s.val = 0 + s.val; omega
      | ⟨1, _⟩ => rfl
      | ⟨2, _⟩ => show j.val = 0 + j.val; omega)

/-- A rank-0 word repeated along the columns, at a column: the word. -/
theorem word_cols_apply (w : BitVec 32) (j : Fin 128) :
    broadcastInDim S128 ![] bcast_S_S128 (constant (F := Ideal) S_ .f32 w) (ix1 j) = Ideal.ofBits .f32 w :=
  broadcastInDim_apply _ bcast_S_S128 _ (ix1 j) ix0 (fun a => a.elim0)

/-- The mean of every column: the added partial sums over the number of rows, the f32 word `w`. -/
def meanVec (w : BitVec 32) (P : FVec Ideal S2x8x128 .f32) : FVec Ideal S128 .f32 :=
  Host.divf (F := Ideal) (halvesSum P) (broadcastInDim S128 ![] bcast_S_S128 (constant (F := Ideal) S_ .f32 w))

theorem meanVec_apply (w : BitVec 32) (P : FVec Ideal S2x8x128 .f32) (j : Fin 128) :
    meanVec w P (ix1 j) = Ideal.div (zeroW + ∑ s : Fin 2, P (ix3 s (0 : Fin 8) j)) (Ideal.ofBits .f32 w) := by
  show Ideal.div (halvesSum P (ix1 j)) (broadcastInDim S128 ![] bcast_S_S128 (constant (F := Ideal) S_ .f32 w) (ix1 j)) = _
  rw [halvesSum_apply, word_cols_apply]

/-- The variance of every column: the mean of the squares less the squared mean, clamped below at the zero word. -/
def varVec (w : BitVec 32) (P Q : FVec Ideal S2x8x128 .f32) : FVec Ideal S128 .f32 :=
  maximumf
    (subf (Host.divf (F := Ideal) (halvesSum Q) (broadcastInDim S128 ![] bcast_S_S128 (constant (F := Ideal) S_ .f32 w)))
      (mulf (meanVec w P) (meanVec w P)))
    (broadcastInDim S128 ![] bcast_S_S128 (constant (F := Ideal) S_ .f32 0x00000000#32))

theorem varVec_apply (w : BitVec 32) (P Q : FVec Ideal S2x8x128 .f32) (j : Fin 128) :
    varVec w P Q (ix1 j)
      = max (Ideal.div (zeroW + ∑ s : Fin 2, Q (ix3 s (0 : Fin 8) j)) (Ideal.ofBits .f32 w)
          - Ideal.div (zeroW + ∑ s : Fin 2, P (ix3 s (0 : Fin 8) j)) (Ideal.ofBits .f32 w)
            * Ideal.div (zeroW + ∑ s : Fin 2, P (ix3 s (0 : Fin 8) j)) (Ideal.ofBits .f32 w)) zeroW := by
  show max (Ideal.div (halvesSum Q (ix1 j)) (broadcastInDim S128 ![] bcast_S_S128 (constant (F := Ideal) S_ .f32 w) (ix1 j))
      - meanVec w P (ix1 j) * meanVec w P (ix1 j))
    (broadcastInDim S128 ![] bcast_S_S128 (constant (F := Ideal) S_ .f32 0x00000000#32) (ix1 j)) = _
  rw [halvesSum_apply, word_cols_apply, word_cols_apply, meanVec_apply]
  rfl

/-! ## The stretch before the user rows' first pass: the two bias vectors recast as rows -/

section
variable (W : Valuation τ sig (Elt Ideal))

theorem host0_bias1 :
    (StableHlo.after (hostOps0 (F := Ideal)) W (Proc.devRef .tc main_v0) : FVec Ideal S1x256 .f32)
      = shapeCast S1x256 (W (Proc.devRef .tc main_arg3)) shapeCasts_S256_S1x256 := by
  after_results
  rfl

theorem host0_bias2 :
    (StableHlo.after (hostOps0 (F := Ideal)) W (Proc.devRef .tc main_v1) : FVec Ideal S1x128 .f32)
      = shapeCast S1x128 (W (Proc.devRef .tc main_arg7)) shapeCasts_S128_S1x128 := by
  after_results
  rfl

end

/-! ## The stretch after the first statistics pass (the user rows) -/

section
variable (W : Valuation τ sig (Elt Ideal))

/-- The mean row at column `j`, from the partial sums `P` the stretch finds. -/
theorem host1_mean (P : FVec Ideal S2x8x128 .f32) (hP : W (Proc.devRef .tc main_v2_0) = P) (j : Fin 128) :
    (StableHlo.after (hostOps1 (F := Ideal)) W (Proc.devRef .tc main_v17) : FVec Ideal S1x128 .f32) (ix2 (0 : Fin 1) j)
      = Ideal.div (zeroW + ∑ s : Fin 2, P (ix3 s (0 : Fin 8) j)) (Ideal.ofBits .f32 0x48C35000#32) := by
  subst hP
  have e : (StableHlo.after (hostOps1 (F := Ideal)) W (Proc.devRef .tc main_v17) : FVec Ideal S1x128 .f32)
      = shapeCast S1x128 (meanVec 0x48C35000#32 (W (Proc.devRef .tc main_v2_0))) shapeCasts_S128_S1x128 := by
    after_results
    rfl
  rw [e, shapeCast_a_1a_apply, meanVec_apply]

/-- The variance row at column `j`, from the partial sums `P` and the partial sums of squares `Q`. -/
theorem host1_var (P Q : FVec Ideal S2x8x128 .f32) (hP : W (Proc.devRef .tc main_v2_0) = P)
    (hQ : W (Proc.devRef .tc main_v2_1) = Q) (j : Fin 128) :
    (StableHlo.after (hostOps1 (F := Ideal)) W (Proc.devRef .tc main_v18) : FVec Ideal S1x128 .f32) (ix2 (0 : Fin 1) j)
      = max (Ideal.div (zeroW + ∑ s : Fin 2, Q (ix3 s (0 : Fin 8) j)) (Ideal.ofBits .f32 0x48C35000#32)
          - Ideal.div (zeroW + ∑ s : Fin 2, P (ix3 s (0 : Fin 8) j)) (Ideal.ofBits .f32 0x48C35000#32)
            * Ideal.div (zeroW + ∑ s : Fin 2, P (ix3 s (0 : Fin 8) j)) (Ideal.ofBits .f32 0x48C35000#32)) zeroW := by
  subst hP hQ
  have e : (StableHlo.after (hostOps1 (F := Ideal)) W (Proc.devRef .tc main_v18) : FVec Ideal S1x128 .f32)
      = shapeCast S1x128 (varVec 0x48C35000#32 (W (Proc.devRef .tc main_v2_0)) (W (Proc.devRef .tc main_v2_1))) shapeCasts_S128_S1x128 := by
    after_results
    rfl
  rw [e, shapeCast_a_1a_apply, varVec_apply]

/-- The scale and the shift, recast as rows, at column `j`. -/
theorem host1_gamma (j : Fin 128) :
    (StableHlo.after (hostOps1 (F := Ideal)) W (Proc.devRef .tc main_v19) : FVec Ideal S1x128 .f32) (ix2 (0 : Fin 1) j)
      = (W (Proc.devRef .tc main_arg10) : FVec Ideal S128 .f32) (ix1 j) := by
  have e : (StableHlo.after (hostOps1 (F := Ideal)) W (Proc.devRef .tc main_v19) : FVec Ideal S1x128 .f32)
      = shapeCast S1x128 (W (Proc.devRef .tc main_arg10)) shapeCasts_S128_S1x128 := by
    after_results
    rfl
  rw [e, shapeCast_a_1a_apply]

theorem host1_beta (j : Fin 128) :
    (StableHlo.after (hostOps1 (F := Ideal)) W (Proc.devRef .tc main_v20) : FVec Ideal S1x128 .f32) (ix2 (0 : Fin 1) j)
      = (W (Proc.devRef .tc main_arg11) : FVec Ideal S128 .f32) (ix1 j) := by
  have e : (StableHlo.after (hostOps1 (F := Ideal)) W (Proc.devRef .tc main_v20) : FVec Ideal S1x128 .f32)
      = shapeCast S1x128 (W (Proc.devRef .tc main_arg11)) shapeCasts_S128_S1x128 := by
    after_results
    rfl
  rw [e, shapeCast_a_1a_apply]

end

/-! ## The stretch before the item rows' first pass: the two bias vectors recast as rows -/

section
variable (W : Valuation τ sig (Elt Ideal))

theorem host2_bias1 :
    (StableHlo.after (hostOps2 (F := Ideal)) W (Proc.devRef .tc main_v22) : FVec Ideal S1x256 .f32)
      = shapeCast S1x256 (W (Proc.devRef .tc main_arg5)) shapeCasts_S256_S1x256 := by
  after_results
  rfl

theorem host2_bias2 :
    (StableHlo.after (hostOps2 (F := Ideal)) W (Proc.devRef .tc main_v23) : FVec Ideal S1x128 .f32)
      = shapeCast S1x128 (W (Proc.devRef .tc main_arg9)) shapeCasts_S128_S1x128 := by
  after_results
  rfl

end

/-! ## The stretch after the second statistics pass (the item rows) -/

section
variable (W : Valuation τ sig (Elt Ideal))

/-- The mean row at column `j`, from the partial sums `P` the stretch finds. -/
theorem host3_mean (P : FVec Ideal S2x8x128 .f32) (hP : W (Proc.devRef .tc main_v24_0) = P) (j : Fin 128) :
    (StableHlo.after (hostOps3 (F := Ideal)) W (Proc.devRef .tc main_v39) : FVec Ideal S1x128 .f32) (ix2 (0 : Fin 1) j)
      = Ideal.div (zeroW + ∑ s : Fin 2, P (ix3 s (0 : Fin 8) j)) (Ideal.ofBits .f32 0x49127C00#32) := by
  subst hP
  have e : (StableHlo.after (hostOps3 (F := Ideal)) W (Proc.devRef .tc main_v39) : FVec Ideal S1x128 .f32)
      = shapeCast S1x128 (meanVec 0x49127C00#32 (W (Proc.devRef .tc main_v24_0))) shapeCasts_S128_S1x128 := by
    after_results
    rfl
  rw [e, shapeCast_a_1a_apply, meanVec_apply]

/-- The variance row at column `j`, from the partial sums `P` and the partial sums of squares `Q`. -/
theorem host3_var (P Q : FVec Ideal S2x8x128 .f32) (hP : W (Proc.devRef .tc main_v24_0) = P)
    (hQ : W (Proc.devRef .tc main_v24_1) = Q) (j : Fin 128) :
    (StableHlo.after (hostOps3 (F := Ideal)) W (Proc.devRef .tc main_v40) : FVec Ideal S1x128 .f32) (ix2 (0 : Fin 1) j)
      = max (Ideal.div (zeroW + ∑ s : Fin 2, Q (ix3 s (0 : Fin 8) j)) (Ideal.ofBits .f32 0x49127C00#32)
          - Ideal.div (zeroW + ∑ s : Fin 2, P (ix3 s (0 : Fin 8) j)) (Ideal.ofBits .f32 0x49127C00#32)
            * Ideal.div (zeroW + ∑ s : Fin 2, P (ix3 s (0 : Fin 8) j)) (Ideal.ofBits .f32 0x49127C00#32)) zeroW := by
  subst hP hQ
  have e : (StableHlo.after (hostOps3 (F := Ideal)) W (Proc.devRef .tc main_v40) : FVec Ideal S1x128 .f32)
      = shapeCast S1x128 (varVec 0x49127C00#32 (W (Proc.devRef .tc main_v24_0)) (W (Proc.devRef .tc main_v24_1))) shapeCasts_S128_S1x128 := by
    after_results
    rfl
  rw [e, shapeCast_a_1a_apply, varVec_apply]

/-- The scale and the shift, recast as rows, at column `j`. -/
theorem host3_gamma (j : Fin 128) :
    (StableHlo.after (hostOps3 (F := Ideal)) W (Proc.devRef .tc main_v41) : FVec Ideal S1x128 .f32) (ix2 (0 : Fin 1) j)
      = (W (Proc.devRef .tc main_arg12) : FVec Ideal S128 .f32) (ix1 j) := by
  have e : (StableHlo.after (hostOps3 (F := Ideal)) W (Proc.devRef .tc main_v41) : FVec Ideal S1x128 .f32)
      = shapeCast S1x128 (W (Proc.devRef .tc main_arg12)) shapeCasts_S128_S1x128 := by
    after_results
    rfl
  rw [e, shapeCast_a_1a_apply]

theorem host3_beta (j : Fin 128) :
    (StableHlo.after (hostOps3 (F := Ideal)) W (Proc.devRef .tc main_v42) : FVec Ideal S1x128 .f32) (ix2 (0 : Fin 1) j)
      = (W (Proc.devRef .tc main_arg13) : FVec Ideal S128 .f32) (ix1 j) := by
  have e : (StableHlo.after (hostOps3 (F := Ideal)) W (Proc.devRef .tc main_v42) : FVec Ideal S1x128 .f32)
      = shapeCast S1x128 (W (Proc.devRef .tc main_arg13)) shapeCasts_S128_S1x128 := by
    after_results
    rfl
  rw [e, shapeCast_a_1a_apply]

end

end Cert.KernelIdeal.HostStats

end
-- ==== Proof.LibBlockedSum.lean ====
/-
  A finite sum over `n · B` consecutive positions, cut into `n` runs of `B` positions each: in any commutative additive
  monoid (the extended reals among them: no subtraction, no finiteness)

      Σ_{k < n·B} g k  =  Σ_{s < n} Σ_{j < B} g (B·s + j).

  This is the law by which a contraction accumulated run by run — a matrix product whose contracted axis is walked in
  blocks, each block's partial product added to a running total — is the one whole contraction.
-/
import Mathlib.Algebra.BigOperators.Fin
import Mathlib.Algebra.BigOperators.Intervals

namespace Idealize.ShloMosaic.BlockedSum

variable {M : Type*} [AddCommMonoid M]

/-- Over `Finset.range`: the first `n · B` positions are `n` runs of `B`. -/
theorem sum_range_blocks (B : ℕ) (g : ℕ → M) : ∀ n : ℕ,
    ∑ k ∈ Finset.range (n * B), g k = ∑ s ∈ Finset.range n, ∑ j ∈ Finset.range B, g (B * s + j)
  | 0 => by simp
  | n + 1 => by
    rw [Nat.succ_mul, Finset.sum_range_add, sum_range_blocks B g n, Finset.sum_range_succ, Nat.mul_comm n B]

/-- The same with the positions and the positions inside a run as `Fin` indices: the form a contraction over a
    coordinate of a shape takes. -/
theorem sum_fin_blocks (n B : ℕ) (g : ℕ → M) :
    ∑ k : Fin (n * B), g k.val = ∑ s ∈ Finset.range n, ∑ j : Fin B, g (B * s + j.val) := by
  rw [Fin.sum_univ_eq_sum_range (fun k => g k) (n * B), sum_range_blocks B g n]
  refine Finset.sum_congr rfl fun s _ => ?_
  exact (Fin.sum_univ_eq_sum_range (fun j => g (B * s + j)) B).symm

end Idealize.ShloMosaic.BlockedSum
-- ==== Proof.LibBatchNormStats.lean ====
/-
  The algebra joining the two spellings of batch normalisation.

  (1) A sum over `P·T·B` consecutive rows is the sum over `P` halves of `T` blocks of `B` rows: the order in which a
      row-tiled pass with one accumulator per half visits the rows.
  (2) Sums and products of real numbers are real, so two dense layers of real inputs have real entries.
  (3) On real entries the clamped one-pass variance is the two-pass variance: the latter is a mean of squares, hence
      nonnegative, and equals the former before the clamp.
  (4) The f32 words of 400000 and 600000 denote those reals.
-/
import proofs.«115960_j19353122636427_2_alg».proof.Proof.LibBatchNorm
import proofs.«115960_j19353122636427_2_alg».proof.Proof.LibBlockedSum

noncomputable section

namespace Idealize.ShloMosaic.BatchNorm

open Idealize.ShloMosaic Idealize.ShloMosaic.ValueIdx Idealize.ShloMosaic.Affine

/-- `P` halves of `T` blocks of `B` rows. -/
theorem sum_halves_blocks (P T B : ℕ) (g : ℕ → EReal) :
    ∑ r : Fin (P * T * B), g r.val
      = ∑ s ∈ Finset.range P, ∑ k ∈ Finset.range T, ∑ p : Fin B, g (B * (T * s + k) + p.val) := by
  rw [BlockedSum.sum_fin_blocks (P * T) B g]
  exact BlockedSum.sum_range_blocks T (fun t => ∑ p : Fin B, g (B * t + p.val)) P

/-- The f32 words of the two row counts. -/
theorem ofBits_400000 : Ideal.ofBits .f32 0x48C35000#32 = ((400000 : ℝ) : EReal) := by
  simp [Ideal.ofBits, Ideal.ieee, -EReal.coe_mul]; norm_num
theorem ofBits_600000 : Ideal.ofBits .f32 0x49127C00#32 = ((600000 : ℝ) : EReal) := by
  simp [Ideal.ofBits, Ideal.ieee, -EReal.coe_mul]; norm_num

/-! ## Real entries -/

theorem real_add {a b : EReal} (ha : ∃ r : ℝ, a = r) (hb : ∃ r : ℝ, b = r) : ∃ r : ℝ, a + b = r := by
  obtain ⟨x, rfl⟩ := ha; obtain ⟨y, rfl⟩ := hb; exact ⟨x + y, (EReal.coe_add x y).symm⟩

theorem real_mul {a b : EReal} (ha : ∃ r : ℝ, a = r) (hb : ∃ r : ℝ, b = r) : ∃ r : ℝ, a * b = r := by
  obtain ⟨x, rfl⟩ := ha; obtain ⟨y, rfl⟩ := hb; exact ⟨x * y, (EReal.coe_mul x y).symm⟩

theorem real_sum {ι : Type*} (s : Finset ι) (f : ι → EReal) (h : ∀ k ∈ s, ∃ r : ℝ, f k = r) : ∃ r : ℝ, ∑ k ∈ s, f k = r := by
  classical
  induction s using Finset.induction_on with
  | empty => exact ⟨0, by simp⟩
  | insert a s ha ih =>
    rw [Finset.sum_insert ha]
    exact real_add (h a (Finset.mem_insert_self a s)) (ih fun k hk => h k (Finset.mem_insert_of_mem hk))

/-- Recasting the shape keeps real entries real. -/
theorem shapeCast_real {s t : Shape} (x : FVec Ideal s .f32) (h : s.ShapeCasts t) (hx : ∀ i, ∃ r : ℝ, x i = r) (i : t.Idx) :
    ∃ r : ℝ, shapeCast t x h i = r := by
  unfold shapeCast
  exact hx _

variable {A K H M : Nat}

theorem affine_real {φw : FTy} (X : FVec Ideal ⟨2, ![A, K]⟩ .f32) (W : FVec Ideal ⟨2, ![K, M]⟩ φw) (b : FVec Ideal ⟨2, ![1, M]⟩ .f32)
    (hX : ∀ i, ∃ r : ℝ, X i = r) (hW : ∀ i, ∃ r : ℝ, W i = r) (hb : ∀ i, ∃ r : ℝ, b i = r) (i : (⟨2, ![A, M]⟩ : Shape).Idx) :
    ∃ r : ℝ, affine X W b i = r :=
  real_add (real_sum _ _ fun k _ => real_mul (hX _) (hW _)) (hb _)

theorem lin2_real {φ1 φ2 : FTy} (X : FVec Ideal ⟨2, ![A, K]⟩ .f32) (W1 : FVec Ideal ⟨2, ![K, H]⟩ φ1) (b1 : FVec Ideal ⟨2, ![1, H]⟩ .f32)
    (W2 : FVec Ideal ⟨2, ![H, M]⟩ φ2) (b2 : FVec Ideal ⟨2, ![1, M]⟩ .f32)
    (hX : ∀ i, ∃ r : ℝ, X i = r) (hW1 : ∀ i, ∃ r : ℝ, W1 i = r) (hb1 : ∀ i, ∃ r : ℝ, b1 i = r)
    (hW2 : ∀ i, ∃ r : ℝ, W2 i = r) (hb2 : ∀ i, ∃ r : ℝ, b2 i = r) (i : (⟨2, ![A, M]⟩ : Shape).Idx) :
    ∃ r : ℝ, lin2 X W1 b1 W2 b2 i = r :=
  affine_real _ W2 b2 (affine_real X W1 b1 hX hW1 hb1) hW2 hb2 i

/-! ## The two variances -/

/-- On real entries, with the count the real number of rows, the clamped one-pass variance is the two-pass variance. -/
theorem varOnePass_eq_varTwoPass (h : FVec Ideal ⟨2, ![A, M]⟩ .f32) (hreal : ∀ i, ∃ r : ℝ, h i = r) (cnt : EReal)
    (hcnt : cnt = (((A : ℕ) : ℝ) : EReal)) (hA : A ≠ 0) (j : Fin M) : varOnePass h cnt j = varTwoPass h cnt j := by
  choose f hf using fun r : Fin A => hreal (ix2 r j)
  have hN : ((A : ℕ) : ℝ) ≠ 0 := Nat.cast_ne_zero.mpr hA
  have hlaw := Variance.var_two_pass_eq_one_pass f cnt (A : ℝ) hcnt (by simp) hN
  unfold varOnePass varTwoPass meanOf colSumSq colSum
  simp only [hf, zeroW_eq, zero_add]
  rw [← hlaw]
  -- the two-pass variance is the coercion of a nonnegative real
  refine max_eq_left ?_
  rw [hcnt]
  simp only [Ideal.div_coe hN, ← Variance.coe_sum, ← EReal.coe_mul, ← EReal.coe_sub]
  refine EReal.coe_nonneg.mpr (mul_nonneg (Finset.sum_nonneg fun p _ => mul_self_nonneg _) ?_)
  exact div_nonneg zero_le_one (Nat.cast_nonneg A)

/-! ## The accumulated sums are the column sums -/

/-- With the rows cut into `P` halves of `T` blocks of `B` rows, the per-half sums of a column (each started from the zero
    word), added over the halves, are the column's sum; `g` is the column as a function of the row number. -/
theorem halves_sum_eq {A M : ℕ} (P T B : ℕ) (hA : P * T * B = A) (h : FVec Ideal ⟨2, ![A, M]⟩ .f32) (j : Fin M) (g : ℕ → EReal)
    (hg : ∀ (r : ℕ) (hr : r < A), g r = h (ix2 ⟨r, hr⟩ j)) :
    (∑ s : Fin P, (zeroW + ∑ k ∈ Finset.range T, ∑ p : Fin B, g (B * (T * s.val + k) + p.val))) = colSum h j := by
  subst hA
  unfold colSum
  simp only [zeroW_eq, zero_add]
  rw [← Finset.sum_range (fun s => ∑ k ∈ Finset.range T, ∑ p : Fin B, g (B * (T * s + k) + p.val)), ← sum_halves_blocks P T B g]
  exact Finset.sum_congr rfl fun r _ => hg r.val r.isLt

/-- The same for the squares. -/
theorem halves_sumSq_eq {A M : ℕ} (P T B : ℕ) (hA : P * T * B = A) (h : FVec Ideal ⟨2, ![A, M]⟩ .f32) (j : Fin M) (g : ℕ → EReal)
    (hg : ∀ (r : ℕ) (hr : r < A), g r = h (ix2 ⟨r, hr⟩ j) * h (ix2 ⟨r, hr⟩ j)) :
    (∑ s : Fin P, (zeroW + ∑ k ∈ Finset.range T, ∑ p : Fin B, g (B * (T * s.val + k) + p.val))) = colSumSq h j := by
  subst hA
  unfold colSumSq
  simp only [zeroW_eq, zero_add]
  rw [← Finset.sum_range (fun s => ∑ k ∈ Finset.range T, ∑ p : Fin B, g (B * (T * s + k) + p.val)), ← sum_halves_blocks P T B g]
  exact Finset.sum_congr rfl fun r _ => hg r.val r.isLt

end Idealize.ShloMosaic.BatchNorm

end
-- ==== Proof.KernelValue.lean ====
/-
  The idealized kernel's two result arrays as functions of its arguments.

  Each node type's rows go through two passes. The first leaves, per half of the rows, the column sums of the two dense
  layers `h` and of `h²`; the host adds the two halves, divides by the row count (the column means `μ`), and forms
  `max (mean of squares − μ², 0)`. The second pass recomputes `h` block by block and writes
  `leaky ((h − μ) · (σ² + ε)^(-1/2) · γ + β)`. Adding the halves' sums of the blocks' sums is the sum over all the rows,
  and on real entries the clamped one-pass variance is the mean of the squared deviations: so each result array is the
  batch normalisation of `h` with the batch's own statistics, followed by the rectifier.
-/
import proofs.«115960_j19353122636427_2_alg».proof.Proof.KernelRun
import proofs.«115960_j19353122636427_2_alg».proof.Proof.Walk
import proofs.«115960_j19353122636427_2_alg».proof.Proof.StatsUser
import proofs.«115960_j19353122636427_2_alg».proof.Proof.StatsItem
import proofs.«115960_j19353122636427_2_alg».proof.Proof.NormUser
import proofs.«115960_j19353122636427_2_alg».proof.Proof.NormItem
import proofs.«115960_j19353122636427_2_alg».proof.Proof.HostStats
import proofs.«115960_j19353122636427_2_alg».proof.Proof.LibBatchNormStats

set_option maxRecDepth 16384

noncomputable section

namespace Cert.KernelIdeal.KernelValue

open Cert.KernelIdeal Cert.KernelIdeal.Gen Idealize.ShloMosaic.BatchNorm
open Idealize.ShloMosaic Idealize.ShloMosaic.TcCoe Idealize.SL.Sem Idealize.ShloMosaic.ValueIdx

variable (m : (ℓ : Loc nD τ sig) → Buf (Elt Ideal) ℓ) (ρ : Dev nD → PrngReg)

/-- The count words. -/
abbrev cntU : EReal := Ideal.ofBits .f32 0x48C35000#32
abbrev cntI : EReal := Ideal.ofBits .f32 0x49127C00#32

/-! ## The user type -/

/-- The two dense layers of all the user rows, from the arguments: the biases recast to rows. -/
def hU (c : Dev nD) : FVec Ideal ⟨2, ![400000, 128]⟩ .f32 :=
  lin2 (φ1 := .f32) (φ2 := .f32) (A := 400000) (K := 64) (H := 256) (M := 128) (m ((c.tc : Thread nD τ).loc main_arg0)) (m ((c.tc : Thread nD τ).loc main_arg2))
    (shapeCast S1x256 (m ((c.tc : Thread nD τ).loc main_arg3)) shapeCasts_S256_S1x256) (m ((c.tc : Thread nD τ).loc main_arg6))
    (shapeCast S1x128 (m ((c.tc : Thread nD τ).loc main_arg7)) shapeCasts_S128_S1x128)

/-- The bias rows the host made before the regions, at the statistics region's entry. -/
theorem bias1_Ua (c : Dev nD) : (V1 m ρ c main_v0 : FVec Ideal S1x256 .f32) = shapeCast S1x256 (m ((c.tc : Thread nD τ).loc main_arg3)) shapeCasts_S256_S1x256 := by
  refine (HostStats.host0_bias1 (W0 m ρ c)).trans ?_
  rfl
theorem bias2_Ua (c : Dev nD) : (V1 m ρ c main_v1 : FVec Ideal S1x128 .f32) = shapeCast S1x128 (m ((c.tc : Thread nD τ).loc main_arg7)) shapeCasts_S128_S1x128 := by
  refine (HostStats.host0_bias2 (W0 m ρ c)).trans ?_
  rfl

/-- The statistics region's matrix is the arguments'. -/
theorem hmat_U (c : Dev nD) : StatsUser.hmat (V1 m ρ) c = hU m c := by
  have e0 : V1 m ρ c main_arg0 = m ((c.tc : Thread nD τ).loc main_arg0) := Walk.W1_arg0 m ρ c
  have e2 : V1 m ρ c main_arg2 = m ((c.tc : Thread nD τ).loc main_arg2) := Walk.W1_arg2 m ρ c
  have e6 : V1 m ρ c main_arg6 = m ((c.tc : Thread nD τ).loc main_arg6) := Walk.W1_arg6 m ρ c
  unfold StatsUser.hmat hU
  rw [e0, e2, e6, bias1_Ua, bias2_Ua]

/-- So is the normalise region's. -/
theorem layers_U (c : Dev nD) :
    lin2 (A := 400000) (K := 64) (H := 256) (M := 128) (φ1 := .f32) (φ2 := .f32) (V3 m ρ c main_arg0) (V3 m ρ c main_arg2) (V3 m ρ c main_v0) (V3 m ρ c main_arg6) (V3 m ρ c main_v1)
      = hU m c := by
  have e0 : V3 m ρ c main_arg0 = m ((c.tc : Thread nD τ).loc main_arg0) := Walk.W3_arg0 m ρ c
  have e2 : V3 m ρ c main_arg2 = m ((c.tc : Thread nD τ).loc main_arg2) := Walk.W3_arg2 m ρ c
  have e6 : V3 m ρ c main_arg6 = m ((c.tc : Thread nD τ).loc main_arg6) := Walk.W3_arg6 m ρ c
  have e3 : (V3 m ρ c main_v0 : FVec Ideal S1x256 .f32) = shapeCast S1x256 (m ((c.tc : Thread nD τ).loc main_arg3)) shapeCasts_S256_S1x256 :=
    (Walk.W3_v0 m ρ c).trans (bias1_Ua m ρ c)
  have e7 : (V3 m ρ c main_v1 : FVec Ideal S1x128 .f32) = shapeCast S1x128 (m ((c.tc : Thread nD τ).loc main_arg7)) shapeCasts_S128_S1x128 :=
    (Walk.W3_v1 m ρ c).trans (bias2_Ua m ρ c)
  unfold hU
  rw [e0, e2, e6, e3, e7]

/-- The two accumulator arrays, as the statistics region leaves them. -/
theorem acc5_U (c : Dev nD) : (W2 m ρ c (Proc.devRef .tc main_v2_0) : FVec Ideal ⟨3, ![2, 8, 128]⟩ .f32) = StatsUser.sums (V1 m ρ) c :=
  (W2_arr m ρ c 5).trans (StatsUser.final5 (V1 m ρ) c)
theorem acc6_U (c : Dev nD) : (W2 m ρ c (Proc.devRef .tc main_v2_1) : FVec Ideal ⟨3, ![2, 8, 128]⟩ .f32) = StatsUser.sumsSq (V1 m ρ) c :=
  (W2_arr m ρ c 6).trans (StatsUser.final6 (V1 m ρ) c)

/-- The halves' sums added are the column sums of the whole matrix, and of its squares. -/
theorem colSum_U (c : Dev nD) (q : Fin 128) :
    (∑ s : Fin 2, StatsUser.sums (V1 m ρ) c (ix3 s (0 : Fin 8) q)) = colSum (hU m c) q := by
  refine halves_sum_eq 2 25 8000 rfl (hU m c) q (StatsUser.colAt (V1 m ρ) c q) fun r hr => ?_
  unfold StatsUser.colAt
  rw [dif_pos hr, hmat_U]
theorem colSumSq_U (c : Dev nD) (q : Fin 128) :
    (∑ s : Fin 2, StatsUser.sumsSq (V1 m ρ) c (ix3 s (0 : Fin 8) q)) = colSumSq (hU m c) q := by
  refine halves_sumSq_eq 2 25 8000 rfl (hU m c) q (StatsUser.sqAt (V1 m ρ) c q) fun r hr => ?_
  unfold StatsUser.sqAt
  rw [dif_pos hr, hmat_U]

/-- The mean row the normalise region reads is the column means. -/
theorem mean_U (c : Dev nD) (q : Fin 128) :
    (V3 m ρ c main_v17 : FVec Ideal S1x128 .f32) (ix2 (0 : Fin 1) q) = meanOf (hU m c) cntU q := by
  refine (HostStats.host1_mean (W2 m ρ c) _ (acc5_U m ρ c) q).trans ?_
  rw [colSum_U]
  rfl

/-- The variance row it reads is the one-pass variance, which on real entries is the two-pass variance. -/
theorem var_U (c : Dev nD) (q : Fin 128) (hreal : ∀ i, ∃ r : ℝ, hU m c i = r) :
    (V3 m ρ c main_v18 : FVec Ideal S1x128 .f32) (ix2 (0 : Fin 1) q) = varTwoPass (hU m c) cntU q := by
  refine (HostStats.host1_var (W2 m ρ c) _ _ (acc5_U m ρ c) (acc6_U m ρ c) q).trans ?_
  rw [colSum_U, colSumSq_U]
  refine Eq.trans ?_ (varOnePass_eq_varTwoPass (hU m c) hreal cntU (ofBits_400000.trans (congrArg (fun x : ℝ => (x : EReal)) (by norm_num))) (by decide) q)
  rfl

/-- The scale and shift rows are the arguments. -/
theorem gamma_U (c : Dev nD) (q : Fin 128) :
    (V3 m ρ c main_v19 : FVec Ideal S1x128 .f32) (ix2 (0 : Fin 1) q) = (m ((c.tc : Thread nD τ).loc main_arg10)) (ix1 q) := by
  refine (HostStats.host1_gamma (W2 m ρ c) q).trans ?_
  rw [show W2 m ρ c (Proc.devRef .tc main_arg10) = m ((c.tc : Thread nD τ).loc main_arg10) from Walk.W2_arg10 m ρ c]
theorem beta_U (c : Dev nD) (q : Fin 128) :
    (V3 m ρ c main_v20 : FVec Ideal S1x128 .f32) (ix2 (0 : Fin 1) q) = (m ((c.tc : Thread nD τ).loc main_arg11)) (ix1 q) := by
  refine (HostStats.host1_beta (W2 m ρ c) q).trans ?_
  rw [show W2 m ρ c (Proc.devRef .tc main_arg11) = m ((c.tc : Thread nD τ).loc main_arg11) from Walk.W2_arg11 m ρ c]

/-- THE RESULT ARRAY: batch normalisation of the two layers with the batch's own statistics, then the leaky rectifier. -/
theorem result_U (c : Dev nD) (hreal : ∀ i, ∃ r : ℝ, hU m c i = r) :
    W8 m ρ c (Proc.devRef .tc main_v21) = bnOut (hU m c) cntU (m ((c.tc : Thread nD τ).loc main_arg10)) (m ((c.tc : Thread nD τ).loc main_arg11)) := by
  refine ((Walk.W8_v21 m ρ c).trans (W4_arr m ρ c 9)).trans ?_
  refine (NormValue.norm_user (V3 m ρ) c).trans ?_
  funext i
  obtain ⟨p, q, rfl⟩ : ∃ (p : Fin 400000) (q : Fin 128), i = ix2 p q := ⟨i 0, i 1, eq_ix2 i⟩
  unfold NormValue.resultU
  rw [normRows_ix2, bnOut_ix2, layers_U, mean_U, var_U m ρ c q hreal, gamma_U, beta_U]

/-! ## The item type -/

/-- The two dense layers of all the item rows, from the arguments: the biases recast to rows. -/
def hI (c : Dev nD) : FVec Ideal ⟨2, ![600000, 128]⟩ .f32 :=
  lin2 (φ1 := .f32) (φ2 := .f32) (A := 600000) (K := 128) (H := 256) (M := 128) (m ((c.tc : Thread nD τ).loc main_arg1)) (m ((c.tc : Thread nD τ).loc main_arg4))
    (shapeCast S1x256 (m ((c.tc : Thread nD τ).loc main_arg5)) shapeCasts_S256_S1x256) (m ((c.tc : Thread nD τ).loc main_arg8))
    (shapeCast S1x128 (m ((c.tc : Thread nD τ).loc main_arg9)) shapeCasts_S128_S1x128)

/-- The bias rows the host made before the regions, at the statistics region's entry. -/
theorem bias1_Ia (c : Dev nD) : (V5 m ρ c main_v22 : FVec Ideal S1x256 .f32) = shapeCast S1x256 (m ((c.tc : Thread nD τ).loc main_arg5)) shapeCasts_S256_S1x256 := by
  refine (HostStats.host2_bias1 (W4 m ρ c)).trans ?_
  rw [show W4 m ρ c (Proc.devRef .tc main_arg5) = m ((c.tc : Thread nD τ).loc main_arg5) from Walk.W4_arg5 m ρ c]
theorem bias2_Ia (c : Dev nD) : (V5 m ρ c main_v23 : FVec Ideal S1x128 .f32) = shapeCast S1x128 (m ((c.tc : Thread nD τ).loc main_arg9)) shapeCasts_S128_S1x128 := by
  refine (HostStats.host2_bias2 (W4 m ρ c)).trans ?_
  rw [show W4 m ρ c (Proc.devRef .tc main_arg9) = m ((c.tc : Thread nD τ).loc main_arg9) from Walk.W4_arg9 m ρ c]

/-- The statistics region's matrix is the arguments'. -/
theorem hmat_I (c : Dev nD) : StatsItem.hmat (V5 m ρ) c = hI m c := by
  have e0 : V5 m ρ c main_arg1 = m ((c.tc : Thread nD τ).loc main_arg1) := Walk.W5_arg1 m ρ c
  have e2 : V5 m ρ c main_arg4 = m ((c.tc : Thread nD τ).loc main_arg4) := Walk.W5_arg4 m ρ c
  have e6 : V5 m ρ c main_arg8 = m ((c.tc : Thread nD τ).loc main_arg8) := Walk.W5_arg8 m ρ c
  unfold StatsItem.hmat hI
  rw [e0, e2, e6, bias1_Ia, bias2_Ia]

/-- So is the normalise region's. -/
theorem layers_I (c : Dev nD) :
    lin2 (A := 600000) (K := 128) (H := 256) (M := 128) (φ1 := .f32) (φ2 := .f32) (V7 m ρ c main_arg1) (V7 m ρ c main_arg4) (V7 m ρ c main_v22) (V7 m ρ c main_arg8) (V7 m ρ c main_v23)
      = hI m c := by
  have e0 : V7 m ρ c main_arg1 = m ((c.tc : Thread nD τ).loc main_arg1) := Walk.W7_arg1 m ρ c
  have e2 : V7 m ρ c main_arg4 = m ((c.tc : Thread nD τ).loc main_arg4) := Walk.W7_arg4 m ρ c
  have e6 : V7 m ρ c main_arg8 = m ((c.tc : Thread nD τ).loc main_arg8) := Walk.W7_arg8 m ρ c
  have e3 : (V7 m ρ c main_v22 : FVec Ideal S1x256 .f32) = shapeCast S1x256 (m ((c.tc : Thread nD τ).loc main_arg5)) shapeCasts_S256_S1x256 :=
    (Walk.W7_v22 m ρ c).trans (bias1_Ia m ρ c)
  have e7 : (V7 m ρ c main_v23 : FVec Ideal S1x128 .f32) = shapeCast S1x128 (m ((c.tc : Thread nD τ).loc main_arg9)) shapeCasts_S128_S1x128 :=
    (Walk.W7_v23 m ρ c).trans (bias2_Ia m ρ c)
  unfold hI
  rw [e0, e2, e6, e3, e7]

/-- The two accumulator arrays, as the statistics region leaves them. -/
theorem acc5_I (c : Dev nD) : (W6 m ρ c (Proc.devRef .tc main_v24_0) : FVec Ideal ⟨3, ![2, 8, 128]⟩ .f32) = StatsItem.sums (V5 m ρ) c :=
  (W6_arr m ρ c 5).trans (StatsItem.final5 (V5 m ρ) c)
theorem acc6_I (c : Dev nD) : (W6 m ρ c (Proc.devRef .tc main_v24_1) : FVec Ideal ⟨3, ![2, 8, 128]⟩ .f32) = StatsItem.sumsSq (V5 m ρ) c :=
  (W6_arr m ρ c 6).trans (StatsItem.final6 (V5 m ρ) c)

/-- The halves' sums added are the column sums of the whole matrix, and of its squares. -/
theorem colSum_I (c : Dev nD) (q : Fin 128) :
    (∑ s : Fin 2, StatsItem.sums (V5 m ρ) c (ix3 s (0 : Fin 8) q)) = colSum (hI m c) q := by
  refine halves_sum_eq 2 30 10000 rfl (hI m c) q (StatsItem.colAt (V5 m ρ) c q) fun r hr => ?_
  unfold StatsItem.colAt
  rw [dif_pos hr, hmat_I]
theorem colSumSq_I (c : Dev nD) (q : Fin 128) :
    (∑ s : Fin 2, StatsItem.sumsSq (V5 m ρ) c (ix3 s (0 : Fin 8) q)) = colSumSq (hI m c) q := by
  refine halves_sumSq_eq 2 30 10000 rfl (hI m c) q (StatsItem.sqAt (V5 m ρ) c q) fun r hr => ?_
  unfold StatsItem.sqAt
  rw [dif_pos hr, hmat_I]

/-- The mean row the normalise region reads is the column means. -/
theorem mean_I (c : Dev nD) (q : Fin 128) :
    (V7 m ρ c main_v39 : FVec Ideal S1x128 .f32) (ix2 (0 : Fin 1) q) = meanOf (hI m c) cntI q := by
  refine (HostStats.host3_mean (W6 m ρ c) _ (acc5_I m ρ c) q).trans ?_
  rw [colSum_I]
  rfl

/-- The variance row it reads is the one-pass variance, which on real entries is the two-pass variance. -/
theorem var_I (c : Dev nD) (q : Fin 128) (hreal : ∀ i, ∃ r : ℝ, hI m c i = r) :
    (V7 m ρ c main_v40 : FVec Ideal S1x128 .f32) (ix2 (0 : Fin 1) q) = varTwoPass (hI m c) cntI q := by
  refine (HostStats.host3_var (W6 m ρ c) _ _ (acc5_I m ρ c) (acc6_I m ρ c) q).trans ?_
  rw [colSum_I, colSumSq_I]
  refine Eq.trans ?_ (varOnePass_eq_varTwoPass (hI m c) hreal cntI (ofBits_600000.trans (congrArg (fun x : ℝ => (x : EReal)) (by norm_num))) (by decide) q)
  rfl

/-- The scale and shift rows are the arguments. -/
theorem gamma_I (c : Dev nD) (q : Fin 128) :
    (V7 m ρ c main_v41 : FVec Ideal S1x128 .f32) (ix2 (0 : Fin 1) q) = (m ((c.tc : Thread nD τ).loc main_arg12)) (ix1 q) := by
  refine (HostStats.host3_gamma (W6 m ρ c) q).trans ?_
  rw [show W6 m ρ c (Proc.devRef .tc main_arg12) = m ((c.tc : Thread nD τ).loc main_arg12) from Walk.W6_arg12 m ρ c]
theorem beta_I (c : Dev nD) (q : Fin 128) :
    (V7 m ρ c main_v42 : FVec Ideal S1x128 .f32) (ix2 (0 : Fin 1) q) = (m ((c.tc : Thread nD τ).loc main_arg13)) (ix1 q) := by
  refine (HostStats.host3_beta (W6 m ρ c) q).trans ?_
  rw [show W6 m ρ c (Proc.devRef .tc main_arg13) = m ((c.tc : Thread nD τ).loc main_arg13) from Walk.W6_arg13 m ρ c]

/-- THE RESULT ARRAY: batch normalisation of the two layers with the batch's own statistics, then the leaky rectifier. -/
theorem result_I (c : Dev nD) (hreal : ∀ i, ∃ r : ℝ, hI m c i = r) :
    W8 m ρ c (Proc.devRef .tc main_v43) = bnOut (hI m c) cntI (m ((c.tc : Thread nD τ).loc main_arg12)) (m ((c.tc : Thread nD τ).loc main_arg13)) := by
  refine (W8_arr m ρ c 9).trans ?_
  refine (NormValue.norm_item (V7 m ρ) c).trans ?_
  funext i
  obtain ⟨p, q, rfl⟩ : ∃ (p : Fin 600000) (q : Fin 128), i = ix2 p q := ⟨i 0, i 1, eq_ix2 i⟩
  unfold NormValue.resultI
  rw [normRows_ix2, bnOut_ix2, layers_I, mean_I, var_I m ρ c q hreal, gamma_I, beta_I]

end Cert.KernelIdeal.KernelValue

end
-- ==== Proof.RefUser.lean ====
/-
  The plain program's result for the user rows is the specification: two dense layers, then every column normalised by
  its own mean and variance over all 400000 rows, scaled, shifted, and passed through the leaky rectifier.

  The program spells each step on whole arrays: a matrix product as a sum over the contracted coordinate, a bias vector
  lifted to a row and then repeated down the rows, the mean of a column as the column's sum (started from the zero word)
  divided by the number of rows (a constant repeated along the columns), the variance as the same mean taken of the squared
  deviations, and the rectifier as a choice between `y` and `slope · y` on the test `y ≥ 0`. Read at one entry `(p, q)`,
  every step reads the entries the specification names, so the two agree entry by entry; nothing here needs the
  entries to be finite.
-/
import proofs.«115960_j19353122636427_2_alg».proof.Proof.Gen.ReferenceIdeal.Read
import proofs.«115960_j19353122636427_2_alg».proof.Proof.LibBatchNorm

noncomputable section

namespace Cert.ReferenceIdeal.RefValue

open Cert.ReferenceIdeal Cert.ReferenceIdeal.Gen Cert.ReferenceIdeal.Read Idealize.ShloMosaic.BatchNorm
open Idealize.ShloMosaic Idealize.ShloMosaic.ValueIdx Idealize.ShloMosaic.Affine

/-- A vector of `256` (of `128`) entries recast as a row has as many entries. -/
theorem u_cast256 : (⟨1, ![256]⟩ : Shape).ShapeCasts ⟨2, ![1, 256]⟩ := by decide
theorem u_cast128 : (⟨1, ![128]⟩ : Shape).ShapeCasts ⟨2, ![1, 128]⟩ := by decide

/-! ## Which entries a product entry and a column sum read -/

/-- Entry `(p, q)` of the first product reads row `p` of the input and column `q` of the weights. -/
theorem u_lidx1 (p : Fin 400000) (q : Fin 256) (k : Fin 64) : lidx_main_v0 (ix2 p q) k = ix2 p k :=
  funext fun a => Fin.ext (by match a with | ⟨0, _⟩ => rfl | ⟨1, _⟩ => rfl)
theorem u_ridx1 (p : Fin 400000) (q : Fin 256) (k : Fin 64) : ridx_main_v0 (ix2 p q) k = ix2 k q :=
  funext fun a => Fin.ext (by match a with | ⟨0, _⟩ => rfl | ⟨1, _⟩ => rfl)
/-- The same for the second product. -/
theorem u_lidx2 (p : Fin 400000) (q : Fin 128) (k : Fin 256) : lidx_main_v4 (ix2 p q) k = ix2 p k :=
  funext fun a => Fin.ext (by match a with | ⟨0, _⟩ => rfl | ⟨1, _⟩ => rfl)
theorem u_ridx2 (p : Fin 400000) (q : Fin 128) (k : Fin 256) : ridx_main_v4 (ix2 p q) k = ix2 k q :=
  funext fun a => Fin.ext (by match a with | ⟨0, _⟩ => rfl | ⟨1, _⟩ => rfl)
/-- Term `k` of the sum down column `q` is the entry `(k, q)`. -/
theorem u_sidx1 (q : Fin 128) (k : Fin 400000) : idx_main_v8 (ix1 q) k = ix2 k q :=
  funext fun a => Fin.ext (by match a with | ⟨0, _⟩ => rfl | ⟨1, _⟩ => rfl)
theorem u_sidx2 (q : Fin 128) (k : Fin 400000) : idx_main_v15 (ix1 q) k = ix2 k q :=
  funext fun a => Fin.ext (by match a with | ⟨0, _⟩ => rfl | ⟨1, _⟩ => rfl)

section
variable (x0 : FVec Ideal S400000x64 .f32) (x2 : FVec Ideal S64x256 .f32)
  (x3 : FVec Ideal S256 .f32) (x6 : FVec Ideal S256x128 .f32)
  (x7 x10 x11 : FVec Ideal S128 .f32)

/-! ## The two dense layers -/

/-- The first layer at `(p, k)`: row `p` times column `k` of the weights, plus entry `k` of the bias. -/
theorem u_layer1 (p : Fin 400000) (k : Fin 256) :
    val_main_v3 (F := Ideal) x0 x2 x3 (ix2 p k)
      = affine x0 x2 (shapeCast ⟨2, ![1, 256]⟩ x3 u_cast256) (ix2 p k) := by
  rw [val_main_v3_apply, val_main_v0_apply, affine_ix2, shapeCast_a_1a_apply]
  show _ + _ = _ + _
  refine congrArg₂ (· + ·) (Finset.sum_congr rfl fun j _ => by rw [u_lidx1, u_ridx1]) ?_
  exact bias_rows_apply x3 _ _ p k

/-- Both layers at `(p, q)`. -/
theorem u_layers_apply (p : Fin 400000) (q : Fin 128) :
    val_main_v7 (F := Ideal) x0 x2 x3 x6 x7 (ix2 p q)
      = lin2 x0 x2 (shapeCast ⟨2, ![1, 256]⟩ x3 u_cast256) x6 (shapeCast ⟨2, ![1, 128]⟩ x7 u_cast128) (ix2 p q) := by
  unfold lin2
  rw [val_main_v7_apply, val_main_v4_apply, affine_ix2, shapeCast_a_1a_apply]
  show _ + _ = _ + _
  refine congrArg₂ (· + ·) (Finset.sum_congr rfl fun j _ => ?_) (bias_rows_apply x7 _ _ p q)
  rw [u_lidx2, u_ridx2, u_layer1]

/-- Both layers, as arrays. -/
theorem u_layers :
    val_main_v7 (F := Ideal) x0 x2 x3 x6 x7
      = lin2 x0 x2 (shapeCast ⟨2, ![1, 256]⟩ x3 u_cast256) x6 (shapeCast ⟨2, ![1, 128]⟩ x7 u_cast128) := by
  funext i
  obtain ⟨p, q, rfl⟩ : ∃ (p : Fin 400000) (q : Fin 128), i = ix2 p q := ⟨i 0, i 1, eq_ix2 i⟩
  exact u_layers_apply x0 x2 x3 x6 x7 p q

/-! ## The statistics of a column -/

/-- The mean of column `q`: its sum, started from the zero word, over the number of rows. -/
theorem u_mean_apply (q : Fin 128) :
    val_main_v10 (F := Ideal) x0 x2 x3 x6 x7 (ix1 q)
      = meanOf (lin2 x0 x2 (shapeCast ⟨2, ![1, 256]⟩ x3 u_cast256) x6 (shapeCast ⟨2, ![1, 128]⟩ x7 u_cast128)) (Ideal.ofBits .f32 0x48C35000#32) q := by
  rw [val_main_v10_apply, val_main_v8_apply, val_main_v9_apply, u_layers]
  unfold meanOf colSum
  refine congrArg (fun s => Ideal.div (zeroW + s) (Ideal.ofBits .f32 0x48C35000#32)) (Finset.sum_congr rfl fun k _ => ?_)
  rw [u_sidx1]

/-- The mean, lifted to a row and repeated down the rows, at `(p, q)` (the program does this twice). -/
theorem u_mean_rows1 (p : Fin 400000) (q : Fin 128) :
    val_main_v12 (F := Ideal) x0 x2 x3 x6 x7 (ix2 p q) = val_main_v10 (F := Ideal) x0 x2 x3 x6 x7 (ix1 q) :=
  bias_rows_apply (val_main_v10 (F := Ideal) x0 x2 x3 x6 x7) _ _ p q
theorem u_mean_rows2 (p : Fin 400000) (q : Fin 128) :
    val_main_v19 (F := Ideal) x0 x2 x3 x6 x7 (ix2 p q) = val_main_v10 (F := Ideal) x0 x2 x3 x6 x7 (ix1 q) :=
  bias_rows_apply (val_main_v10 (F := Ideal) x0 x2 x3 x6 x7) _ _ p q

/-- The variance of column `q`: the mean of the squared deviations from the column's mean. -/
theorem u_var_apply (q : Fin 128) :
    val_main_v17 (F := Ideal) x0 x2 x3 x6 x7 (ix1 q)
      = varTwoPass (lin2 x0 x2 (shapeCast ⟨2, ![1, 256]⟩ x3 u_cast256) x6 (shapeCast ⟨2, ![1, 128]⟩ x7 u_cast128)) (Ideal.ofBits .f32 0x48C35000#32) q := by
  rw [val_main_v17_apply, val_main_v15_apply, val_main_v16_apply]
  unfold varTwoPass
  refine congrArg (fun s => Ideal.div (zeroW + s) (Ideal.ofBits .f32 0x48C35000#32)) (Finset.sum_congr rfl fun k _ => ?_)
  rw [u_sidx2, val_main_v14_apply, val_main_v13_apply, u_mean_rows1, u_mean_apply, u_layers]
  rfl

/-- The reciprocal root of the variance plus `ε`, lifted to a row and repeated down the rows, at `(p, q)`. -/
theorem u_rstd_rows (p : Fin 400000) (q : Fin 128) :
    val_main_v25 (F := Ideal) x0 x2 x3 x6 x7 (ix2 p q) = val_main_v23 (F := Ideal) x0 x2 x3 x6 x7 (ix1 q) :=
  bias_rows_apply (val_main_v23 (F := Ideal) x0 x2 x3 x6 x7) _ _ p q

/-- The scale and the shift, lifted to rows and repeated down the rows, at `(p, q)`. -/
theorem u_scale_rows (p : Fin 400000) (q : Fin 128) : val_main_v28 (F := Ideal) x10 (ix2 p q) = x10 (ix1 q) :=
  bias_rows_apply x10 _ _ p q
theorem u_shift_rows (p : Fin 400000) (q : Fin 128) : val_main_v31 (F := Ideal) x11 (ix2 p q) = x11 (ix1 q) :=
  bias_rows_apply x11 _ _ p q

/-! ## The result -/

/-- The plain program's result for the user rows is the specification of the two layers' output. -/
theorem ref_user :
    val_main_v37 (F := Ideal) x0 x2 x3 x6 x7 x10 x11
      = bnOut (lin2 x0 x2 (shapeCast ⟨2, ![1, 256]⟩ x3 u_cast256) x6 (shapeCast ⟨2, ![1, 128]⟩ x7 u_cast128))
          (Ideal.ofBits .f32 0x48C35000#32) x10 x11 := by
  funext i
  obtain ⟨p, q, rfl⟩ : ∃ (p : Fin 400000) (q : Fin 128), i = ix2 p q := ⟨i 0, i 1, eq_ix2 i⟩
  rw [bnOut_ix2, val_main_v37_apply, val_main_v34_apply, val_main_v36_apply, val_main_v32_apply,
    val_main_v29_apply, val_main_v26_apply, val_main_v20_apply, u_mean_rows2, u_mean_apply, u_rstd_rows,
    val_main_v23_apply, val_main_v22_apply, u_var_apply, val_main_v21_apply, u_scale_rows, u_shift_rows,
    val_main_v33_apply, val_main_v35_apply, u_layers]
  rfl

end

end Cert.ReferenceIdeal.RefValue

end
-- ==== Proof.RefItem.lean ====
/-
  The plain program's result for the item rows is the specification: two dense layers, then every column normalised by
  its own mean and variance over all 600000 rows, scaled, shifted, and passed through the leaky rectifier.

  The program spells each step on whole arrays: a matrix product as a sum over the contracted coordinate, a bias vector
  lifted to a row and then repeated down the rows, the mean of a column as the column's sum (started from the zero word)
  divided by the number of rows (a constant repeated along the columns), the variance as the same mean taken of the squared
  deviations, and the rectifier as a choice between `y` and `slope · y` on the test `y ≥ 0`. Read at one entry `(p, q)`,
  every step reads the entries the specification names, so the two agree entry by entry; nothing here needs the
  entries to be finite.
-/
import proofs.«115960_j19353122636427_2_alg».proof.Proof.Gen.ReferenceIdeal.Read
import proofs.«115960_j19353122636427_2_alg».proof.Proof.LibBatchNorm

noncomputable section

namespace Cert.ReferenceIdeal.RefValue

open Cert.ReferenceIdeal Cert.ReferenceIdeal.Gen Cert.ReferenceIdeal.Read Idealize.ShloMosaic.BatchNorm
open Idealize.ShloMosaic Idealize.ShloMosaic.ValueIdx Idealize.ShloMosaic.Affine

/-- A vector of `256` (of `128`) entries recast as a row has as many entries. -/
theorem i_cast256 : (⟨1, ![256]⟩ : Shape).ShapeCasts ⟨2, ![1, 256]⟩ := by decide
theorem i_cast128 : (⟨1, ![128]⟩ : Shape).ShapeCasts ⟨2, ![1, 128]⟩ := by decide

/-! ## Which entries a product entry and a column sum read -/

/-- Entry `(p, q)` of the first product reads row `p` of the input and column `q` of the weights. -/
theorem i_lidx1 (p : Fin 600000) (q : Fin 256) (k : Fin 128) : lidx_main_v38 (ix2 p q) k = ix2 p k :=
  funext fun a => Fin.ext (by match a with | ⟨0, _⟩ => rfl | ⟨1, _⟩ => rfl)
theorem i_ridx1 (p : Fin 600000) (q : Fin 256) (k : Fin 128) : ridx_main_v38 (ix2 p q) k = ix2 k q :=
  funext fun a => Fin.ext (by match a with | ⟨0, _⟩ => rfl | ⟨1, _⟩ => rfl)
/-- The same for the second product. -/
theorem i_lidx2 (p : Fin 600000) (q : Fin 128) (k : Fin 256) : lidx_main_v42 (ix2 p q) k = ix2 p k :=
  funext fun a => Fin.ext (by match a with | ⟨0, _⟩ => rfl | ⟨1, _⟩ => rfl)
theorem i_ridx2 (p : Fin 600000) (q : Fin 128) (k : Fin 256) : ridx_main_v42 (ix2 p q) k = ix2 k q :=
  funext fun a => Fin.ext (by match a with | ⟨0, _⟩ => rfl | ⟨1, _⟩ => rfl)
/-- Term `k` of the sum down column `q` is the entry `(k, q)`. -/
theorem i_sidx1 (q : Fin 128) (k : Fin 600000) : idx_main_v46 (ix1 q) k = ix2 k q :=
  funext fun a => Fin.ext (by match a with | ⟨0, _⟩ => rfl | ⟨1, _⟩ => rfl)
theorem i_sidx2 (q : Fin 128) (k : Fin 600000) : idx_main_v53 (ix1 q) k = ix2 k q :=
  funext fun a => Fin.ext (by match a with | ⟨0, _⟩ => rfl | ⟨1, _⟩ => rfl)

section
variable (x1 : FVec Ideal S600000x128 .f32) (x4 : FVec Ideal S128x256 .f32)
  (x5 : FVec Ideal S256 .f32) (x8 : FVec Ideal S256x128 .f32)
  (x9 x12 x13 : FVec Ideal S128 .f32)

/-! ## The two dense layers -/

/-- The first layer at `(p, k)`: row `p` times column `k` of the weights, plus entry `k` of the bias. -/
theorem i_layer1 (p : Fin 600000) (k : Fin 256) :
    val_main_v41 (F := Ideal) x1 x4 x5 (ix2 p k)
      = affine x1 x4 (shapeCast ⟨2, ![1, 256]⟩ x5 i_cast256) (ix2 p k) := by
  rw [val_main_v41_apply, val_main_v38_apply, affine_ix2, shapeCast_a_1a_apply]
  show _ + _ = _ + _
  refine congrArg₂ (· + ·) (Finset.sum_congr rfl fun j _ => by rw [i_lidx1, i_ridx1]) ?_
  exact bias_rows_apply x5 _ _ p k

/-- Both layers at `(p, q)`. -/
theorem i_layers_apply (p : Fin 600000) (q : Fin 128) :
    val_main_v45 (F := Ideal) x1 x4 x5 x8 x9 (ix2 p q)
      = lin2 x1 x4 (shapeCast ⟨2, ![1, 256]⟩ x5 i_cast256) x8 (shapeCast ⟨2, ![1, 128]⟩ x9 i_cast128) (ix2 p q) := by
  unfold lin2
  rw [val_main_v45_apply, val_main_v42_apply, affine_ix2, shapeCast_a_1a_apply]
  show _ + _ = _ + _
  refine congrArg₂ (· + ·) (Finset.sum_congr rfl fun j _ => ?_) (bias_rows_apply x9 _ _ p q)
  rw [i_lidx2, i_ridx2, i_layer1]

/-- Both layers, as arrays. -/
theorem i_layers :
    val_main_v45 (F := Ideal) x1 x4 x5 x8 x9
      = lin2 x1 x4 (shapeCast ⟨2, ![1, 256]⟩ x5 i_cast256) x8 (shapeCast ⟨2, ![1, 128]⟩ x9 i_cast128) := by
  funext i
  obtain ⟨p, q, rfl⟩ : ∃ (p : Fin 600000) (q : Fin 128), i = ix2 p q := ⟨i 0, i 1, eq_ix2 i⟩
  exact i_layers_apply x1 x4 x5 x8 x9 p q

/-! ## The statistics of a column -/

/-- The mean of column `q`: its sum, started from the zero word, over the number of rows. -/
theorem i_mean_apply (q : Fin 128) :
    val_main_v48 (F := Ideal) x1 x4 x5 x8 x9 (ix1 q)
      = meanOf (lin2 x1 x4 (shapeCast ⟨2, ![1, 256]⟩ x5 i_cast256) x8 (shapeCast ⟨2, ![1, 128]⟩ x9 i_cast128)) (Ideal.ofBits .f32 0x49127C00#32) q := by
  rw [val_main_v48_apply, val_main_v46_apply, val_main_v47_apply, i_layers]
  unfold meanOf colSum
  refine congrArg (fun s => Ideal.div (zeroW + s) (Ideal.ofBits .f32 0x49127C00#32)) (Finset.sum_congr rfl fun k _ => ?_)
  rw [i_sidx1]

/-- The mean, lifted to a row and repeated down the rows, at `(p, q)` (the program does this twice). -/
theorem i_mean_rows1 (p : Fin 600000) (q : Fin 128) :
    val_main_v50 (F := Ideal) x1 x4 x5 x8 x9 (ix2 p q) = val_main_v48 (F := Ideal) x1 x4 x5 x8 x9 (ix1 q) :=
  bias_rows_apply (val_main_v48 (F := Ideal) x1 x4 x5 x8 x9) _ _ p q
theorem i_mean_rows2 (p : Fin 600000) (q : Fin 128) :
    val_main_v57 (F := Ideal) x1 x4 x5 x8 x9 (ix2 p q) = val_main_v48 (F := Ideal) x1 x4 x5 x8 x9 (ix1 q) :=
  bias_rows_apply (val_main_v48 (F := Ideal) x1 x4 x5 x8 x9) _ _ p q

/-- The variance of column `q`: the mean of the squared deviations from the column's mean. -/
theorem i_var_apply (q : Fin 128) :
    val_main_v55 (F := Ideal) x1 x4 x5 x8 x9 (ix1 q)
      = varTwoPass (lin2 x1 x4 (shapeCast ⟨2, ![1, 256]⟩ x5 i_cast256) x8 (shapeCast ⟨2, ![1, 128]⟩ x9 i_cast128)) (Ideal.ofBits .f32 0x49127C00#32) q := by
  rw [val_main_v55_apply, val_main_v53_apply, val_main_v54_apply]
  unfold varTwoPass
  refine congrArg (fun s => Ideal.div (zeroW + s) (Ideal.ofBits .f32 0x49127C00#32)) (Finset.sum_congr rfl fun k _ => ?_)
  rw [i_sidx2, val_main_v52_apply, val_main_v51_apply, i_mean_rows1, i_mean_apply, i_layers]
  rfl

/-- The reciprocal root of the variance plus `ε`, lifted to a row and repeated down the rows, at `(p, q)`. -/
theorem i_rstd_rows (p : Fin 600000) (q : Fin 128) :
    val_main_v63 (F := Ideal) x1 x4 x5 x8 x9 (ix2 p q) = val_main_v61 (F := Ideal) x1 x4 x5 x8 x9 (ix1 q) :=
  bias_rows_apply (val_main_v61 (F := Ideal) x1 x4 x5 x8 x9) _ _ p q

/-- The scale and the shift, lifted to rows and repeated down the rows, at `(p, q)`. -/
theorem i_scale_rows (p : Fin 600000) (q : Fin 128) : val_main_v66 (F := Ideal) x12 (ix2 p q) = x12 (ix1 q) :=
  bias_rows_apply x12 _ _ p q
theorem i_shift_rows (p : Fin 600000) (q : Fin 128) : val_main_v69 (F := Ideal) x13 (ix2 p q) = x13 (ix1 q) :=
  bias_rows_apply x13 _ _ p q

/-! ## The result -/

/-- The plain program's result for the item rows is the specification of the two layers' output. -/
theorem ref_item :
    val_main_v75 (F := Ideal) x1 x4 x5 x8 x9 x12 x13
      = bnOut (lin2 x1 x4 (shapeCast ⟨2, ![1, 256]⟩ x5 i_cast256) x8 (shapeCast ⟨2, ![1, 128]⟩ x9 i_cast128))
          (Ideal.ofBits .f32 0x49127C00#32) x12 x13 := by
  funext i
  obtain ⟨p, q, rfl⟩ : ∃ (p : Fin 600000) (q : Fin 128), i = ix2 p q := ⟨i 0, i 1, eq_ix2 i⟩
  rw [bnOut_ix2, val_main_v75_apply, val_main_v72_apply, val_main_v74_apply, val_main_v70_apply,
    val_main_v67_apply, val_main_v64_apply, val_main_v58_apply, i_mean_rows2, i_mean_apply, i_rstd_rows,
    val_main_v61_apply, val_main_v60_apply, i_var_apply, val_main_v59_apply, i_scale_rows, i_shift_rows,
    val_main_v71_apply, val_main_v73_apply, i_layers]
  rfl

end

end Cert.ReferenceIdeal.RefValue

end
-- ==== Proof.LibFiniteTest.lean ====
/-
  The test "every entry is finite", read at one entry over the extended reals.

  A precondition `jnp.all(jnp.abs(x) < inf)` prints, per array, as a comparison of `Host.absf x` with the float word of +∞
  lifted to the array's shape. On the extended reals that word denotes ⊤ and |a| is max a (−a), which is below ⊤ exactly
  when a is neither ⊤ nor ⊥: an entry passing the test is the image of a real number.
-/
import Idealize.ShloMosaic.PureOps.Ideal.Laws
import Idealize.ShloMosaic.Lib.ValueIdx

noncomputable section

namespace Idealize.ShloMosaic.FiniteTest

/-- The rank-0 shape has one index. -/
theorem subsingleton_scalarIdx : Subsingleton (⟨0, ![]⟩ : Shape).Idx := ⟨fun a b => funext fun d => d.elim0⟩

/-- The float word of +∞ denotes ⊤. -/
theorem inf_word : Ideal.ofBits .f32 0x7F800000#32 = (⊤ : EReal) := by simp [Ideal.ofBits, Ideal.ieee]

/-- An extended real whose absolute value is below ⊤ is a real number. -/
theorem real_of_abs_lt_top (a : EReal) (h : Ideal.cmp .olt (max a (-a)) (⊤ : EReal) = 1#1) : ∃ r : ℝ, a = r := by
  induction a using EReal.rec with
  | bot => exfalso; simp [Ideal.cmp] at h
  | coe r => exact ⟨r, rfl⟩
  | top => exfalso; simp [Ideal.cmp] at h

/-- One array's test at one entry: an entry whose absolute value compares below the lifted +∞ word is a real number. -/
theorem real_of_test {s : Shape} (x : FVec Ideal s .f32)
    (hb : (⟨0, ![]⟩ : Shape).BroadcastsInDim s (![] : Fin 0 → Fin s.rank)) (i : s.Idx)
    (h : cmpf .olt (Host.absf x) (broadcastInDim s ![] hb (constant (F := Ideal) ⟨0, ![]⟩ .f32 0x7F800000#32)) i = 1#1) :
    ∃ r : ℝ, x i = r := by
  have e : Ideal.cmp .olt (max (x i) (-(x i))) (Ideal.ofBits .f32 0x7F800000#32) = 1#1 := h
  rw [inf_word] at e
  exact real_of_abs_lt_top (x i) e

end Idealize.ShloMosaic.FiniteTest

end
-- ==== Proof.Finite.lean ====
/-
  From the precondition to real entries.

  The precondition is the conjunction, over the fourteen argument arrays, of the test "every entry has absolute value below
  +∞", each test one `and`-reduction of an entrywise comparison to a single bit, the fourteen bits joined by `and` from the
  left. Where the result is one, every bit is one, so every comparison holds at every entry; and an extended real whose
  absolute value is below ⊤ is neither ⊤ nor ⊥, that is, it is a real number.
-/
import proofs.«115960_j19353122636427_2_alg».proof.Defs
import proofs.«115960_j19353122636427_2_alg».proof.Proof.LibFiniteTest
import Idealize.ShloMosaic.Lib.ReduceAll
import Idealize.ShloMosaic.Lib.Affine

noncomputable section

namespace Cert.FiniteArgs

open Idealize.ShloMosaic Idealize.ShloMosaic.ValueIdx Idealize.SL.Sem
open Cert.Pre_finite_inputs

variable [Cert.Pre_finite_inputs.Facts]

/-- One array's test: where the `and` of all the comparisons is one, every entry is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ix0 = 1#1) (i : s.Idx) : ∃ r : ℝ, x i = r := by
  haveI := FiniteTest.subsingleton_scalarIdx
  exact FiniteTest.real_of_test x hb i (Host.reduce_andi_all _ _ hr hu ix0 e i)

/-- The whole test: where it is all ones, every entry of every array is a real number. -/
theorem fn_real (a0 : FVec Ideal S400000x64 .f32) (a1 : FVec Ideal S600000x128 .f32) (a2 : FVec Ideal S64x256 .f32) (a3 : FVec Ideal S256 .f32) (a4 : FVec Ideal S128x256 .f32) (a5 : FVec Ideal S256 .f32) (a6 : FVec Ideal S256x128 .f32) (a7 : FVec Ideal S128 .f32) (a8 : FVec Ideal S256x128 .f32) (a9 : FVec Ideal S128 .f32) (a10 : FVec Ideal S128 .f32) (a11 : FVec Ideal S128 .f32) (a12 : FVec Ideal S128 .f32) (a13 : FVec Ideal S128 .f32)
    (h : Cert.Pre_finite_inputs.fn (F := Ideal) a0 a1 a2 a3 a4 a5 a6 a7 a8 a9 a10 a11 a12 a13 = fun _ => 1#1) :
    (∀ i, ∃ r : ℝ, a0 i = r) ∧
      (∀ i, ∃ r : ℝ, a1 i = r) ∧
      (∀ i, ∃ r : ℝ, a2 i = r) ∧
      (∀ i, ∃ r : ℝ, a3 i = r) ∧
      (∀ i, ∃ r : ℝ, a4 i = r) ∧
      (∀ i, ∃ r : ℝ, a5 i = r) ∧
      (∀ i, ∃ r : ℝ, a6 i = r) ∧
      (∀ i, ∃ r : ℝ, a7 i = r) ∧
      (∀ i, ∃ r : ℝ, a8 i = r) ∧
      (∀ i, ∃ r : ℝ, a9 i = r) ∧
      (∀ i, ∃ r : ℝ, a10 i = r) ∧
      (∀ i, ∃ r : ℝ, a11 i = r) ∧
      (∀ i, ∃ r : ℝ, a12 i = r) ∧
      (∀ i, ∃ r : ℝ, a13 i = r) := by
  have h0 : Cert.Pre_finite_inputs.fn (F := Ideal) a0 a1 a2 a3 a4 a5 a6 a7 a8 a9 a10 a11 a12 a13 ix0 = 1#1 := congrFun h ix0
  dsimp only [Cert.Pre_finite_inputs.fn, fn_part1, fn_part2, fn_part3, fn_part4] at h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨h0, e1⟩ := IntOp.andi_eq_one.1 h0
  exact ⟨real_of_all a0 _ _ _ h0, real_of_all a1 _ _ _ e1, real_of_all a2 _ _ _ e2, real_of_all a3 _ _ _ e3, real_of_all a4 _ _ _ e4, real_of_all a5 _ _ _ e5, real_of_all a6 _ _ _ e6, real_of_all a7 _ _ _ e7, real_of_all a8 _ _ _ e8, real_of_all a9 _ _ _ e9, real_of_all a10 _ _ _ e10, real_of_all a11 _ _ _ e11, real_of_all a12 _ _ _ e12, real_of_all a13 _ _ _ e13⟩

/-- Under the precondition, every entry of every argument array of the kernel's program is a real number. -/
theorem args_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S400000x64.Idx, ∃ r : ℝ,
        (m ((c.tc : Thread Cert.KernelIdeal.nD Cert.KernelIdeal.τ).loc Cert.KernelIdeal.main_arg0) : FVec Ideal Cert.KernelIdeal.S400000x64 .f32) i = (r : EReal)) ∧
      (∀ i : Cert.KernelIdeal.S600000x128.Idx, ∃ r : ℝ,
        (m ((c.tc : Thread Cert.KernelIdeal.nD Cert.KernelIdeal.τ).loc Cert.KernelIdeal.main_arg1) : FVec Ideal Cert.KernelIdeal.S600000x128 .f32) i = (r : EReal)) ∧
      (∀ i : Cert.KernelIdeal.S64x256.Idx, ∃ r : ℝ,
        (m ((c.tc : Thread Cert.KernelIdeal.nD Cert.KernelIdeal.τ).loc Cert.KernelIdeal.main_arg2) : FVec Ideal Cert.KernelIdeal.S64x256 .f32) i = (r : EReal)) ∧
      (∀ i : Cert.KernelIdeal.S256.Idx, ∃ r : ℝ,
        (m ((c.tc : Thread Cert.KernelIdeal.nD Cert.KernelIdeal.τ).loc Cert.KernelIdeal.main_arg3) : FVec Ideal Cert.KernelIdeal.S256 .f32) i = (r : EReal)) ∧
      (∀ i : Cert.KernelIdeal.S128x256.Idx, ∃ r : ℝ,
        (m ((c.tc : Thread Cert.KernelIdeal.nD Cert.KernelIdeal.τ).loc Cert.KernelIdeal.main_arg4) : FVec Ideal Cert.KernelIdeal.S128x256 .f32) i = (r : EReal)) ∧
      (∀ i : Cert.KernelIdeal.S256.Idx, ∃ r : ℝ,
        (m ((c.tc : Thread Cert.KernelIdeal.nD Cert.KernelIdeal.τ).loc Cert.KernelIdeal.main_arg5) : FVec Ideal Cert.KernelIdeal.S256 .f32) i = (r : EReal)) ∧
      (∀ i : Cert.KernelIdeal.S256x128.Idx, ∃ r : ℝ,
        (m ((c.tc : Thread Cert.KernelIdeal.nD Cert.KernelIdeal.τ).loc Cert.KernelIdeal.main_arg6) : FVec Ideal Cert.KernelIdeal.S256x128 .f32) i = (r : EReal)) ∧
      (∀ i : Cert.KernelIdeal.S128.Idx, ∃ r : ℝ,
        (m ((c.tc : Thread Cert.KernelIdeal.nD Cert.KernelIdeal.τ).loc Cert.KernelIdeal.main_arg7) : FVec Ideal Cert.KernelIdeal.S128 .f32) i = (r : EReal)) ∧
      (∀ i : Cert.KernelIdeal.S256x128.Idx, ∃ r : ℝ,
        (m ((c.tc : Thread Cert.KernelIdeal.nD Cert.KernelIdeal.τ).loc Cert.KernelIdeal.main_arg8) : FVec Ideal Cert.KernelIdeal.S256x128 .f32) i = (r : EReal)) ∧
      (∀ i : Cert.KernelIdeal.S128.Idx, ∃ r : ℝ,
        (m ((c.tc : Thread Cert.KernelIdeal.nD Cert.KernelIdeal.τ).loc Cert.KernelIdeal.main_arg9) : FVec Ideal Cert.KernelIdeal.S128 .f32) i = (r : EReal)) ∧
      (∀ i : Cert.KernelIdeal.S128.Idx, ∃ r : ℝ,
        (m ((c.tc : Thread Cert.KernelIdeal.nD Cert.KernelIdeal.τ).loc Cert.KernelIdeal.main_arg10) : FVec Ideal Cert.KernelIdeal.S128 .f32) i = (r : EReal)) ∧
      (∀ i : Cert.KernelIdeal.S128.Idx, ∃ r : ℝ,
        (m ((c.tc : Thread Cert.KernelIdeal.nD Cert.KernelIdeal.τ).loc Cert.KernelIdeal.main_arg11) : FVec Ideal Cert.KernelIdeal.S128 .f32) i = (r : EReal)) ∧
      (∀ i : Cert.KernelIdeal.S128.Idx, ∃ r : ℝ,
        (m ((c.tc : Thread Cert.KernelIdeal.nD Cert.KernelIdeal.τ).loc Cert.KernelIdeal.main_arg12) : FVec Ideal Cert.KernelIdeal.S128 .f32) i = (r : EReal)) ∧
      (∀ i : Cert.KernelIdeal.S128.Idx, ∃ r : ℝ,
        (m ((c.tc : Thread Cert.KernelIdeal.nD Cert.KernelIdeal.τ).loc Cert.KernelIdeal.main_arg13) : FVec Ideal Cert.KernelIdeal.S128 .f32) i = (r : EReal)) :=
  fn_real _ _ _ _ _ _ _ _ _ _ _ _ _ _ (h c)

end Cert.FiniteArgs

end
-- ==== Proof.lean ====
/-
  The certificate of a two-layer perceptron with batch normalisation and a leaky rectifier, per node type, computed in
  two passes over row blocks against the plain formula.

  The kernel computes per type `h = (x·W1 + b1)·W2 + b2` twice. Its first pass accumulates, per half of the rows, the
  column sums of `h` and of `h²`; the host adds the halves, divides by the row count and forms the variance as
  `max (E[h²] − E[h]², 0)`; its second pass writes `leaky ((h − E[h]) · (var + ε)^(-1/2) · γ + β)`. The reference
  computes the mean, then the variance as the mean of `(h − E[h])²`, then the same expression. On the extended reals the
  matrix products, the lifted biases and the sums in any grouping agree outright; the two variances agree because, the
  inputs being finite, every entry of `h` is a real number, where the mean of squared deviations is nonnegative and
  equals the mean of squares less the squared mean. Both float-format changes of the kernel are the identity there.
-/
import proofs.«115960_j19353122636427_2_alg».proof.Defs
import proofs.«115960_j19353122636427_2_alg».proof.Proof.Gen.Kernel
import proofs.«115960_j19353122636427_2_alg».proof.Proof.Gen.Kernel.Skeleton
import proofs.«115960_j19353122636427_2_alg».proof.Proof.Gen.Kernel.Launch
import proofs.«115960_j19353122636427_2_alg».proof.Proof.Gen.Kernel.Points
import proofs.«115960_j19353122636427_2_alg».proof.Proof.Gen.Kernel.Frame
import proofs.«115960_j19353122636427_2_alg».proof.Proof.Gen.KernelIdeal
import proofs.«115960_j19353122636427_2_alg».proof.Proof.Gen.KernelIdeal.Skeleton
import proofs.«115960_j19353122636427_2_alg».proof.Proof.Gen.KernelIdeal.Launch
import proofs.«115960_j19353122636427_2_alg».proof.Proof.Gen.KernelIdeal.Points
import proofs.«115960_j19353122636427_2_alg».proof.Proof.Gen.KernelIdeal.Frame
import proofs.«115960_j19353122636427_2_alg».proof.Proof.Gen.ReferenceIdeal
import proofs.«115960_j19353122636427_2_alg».proof.Proof.Gen.ReferenceIdeal.Run
import proofs.«115960_j19353122636427_2_alg».proof.Proof.Gen.ReferenceIdeal.Read
import proofs.«115960_j19353122636427_2_alg».proof.Proof.Gen.Pre_finite_inputs
import proofs.«115960_j19353122636427_2_alg».proof.Proof.KernelValue
import proofs.«115960_j19353122636427_2_alg».proof.Proof.RefUser
import proofs.«115960_j19353122636427_2_alg».proof.Proof.RefItem
import proofs.«115960_j19353122636427_2_alg».proof.Proof.Finite
import proofs.«115960_j19353122636427_2_alg».proof.Proof.LibBatchNormStats
import Idealize.ShloMosaic.Adequacy
import Idealize.ShloMosaic.Init

set_option maxRecDepth 16384

noncomputable section

namespace Cert.Proof

open Idealize.ShloMosaic Idealize.SL.Sem Idealize.ShloMosaic.BatchNorm

/-- The three programs run, nothing faulting, and leave their arguments as launched. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- With finite inputs the two layers of either type have real entries. -/
theorem hU_real (m : (ℓ : Loc Cert.KernelIdeal.nD Cert.KernelIdeal.τ Cert.KernelIdeal.sig) → Buf (Elt Ideal) ℓ)
    (hpre : Cert.Pre_KernelIdeal m) (c : Dev Cert.KernelIdeal.nD) (i) : ∃ r : ℝ, Cert.KernelIdeal.KernelValue.hU m c i = r := by
  obtain ⟨r0, r1, r2, r3, r4, r5, r6, r7, r8, r9, r10, r11, r12, r13⟩ := Cert.FiniteArgs.args_real m hpre c
  exact lin2_real _ _ _ _ _ r0 r2 (shapeCast_real _ _ r3) r6 (shapeCast_real _ _ r7) i
theorem hI_real (m : (ℓ : Loc Cert.KernelIdeal.nD Cert.KernelIdeal.τ Cert.KernelIdeal.sig) → Buf (Elt Ideal) ℓ)
    (hpre : Cert.Pre_KernelIdeal m) (c : Dev Cert.KernelIdeal.nD) (i) : ∃ r : ℝ, Cert.KernelIdeal.KernelValue.hI m c i = r := by
  obtain ⟨r0, r1, r2, r3, r4, r5, r6, r7, r8, r9, r10, r11, r12, r13⟩ := Cert.FiniteArgs.args_real m hpre c
  exact lin2_real _ _ _ _ _ r1 r4 (shapeCast_real _ _ r5) r8 (shapeCast_real _ _ r9) i

/-- Both idealized programs end with each result array at the batch normalisation of the two layers, rectified. -/
theorem algebraic : Cert.algebraic_KernelIdeal_ReferenceIdeal := by
  intro m ρ m' ρ' hpre hagree
  refine ⟨fun c => bnOut (Cert.KernelIdeal.KernelValue.hU m c) Cert.KernelIdeal.KernelValue.cntU (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => bnOut (Cert.KernelIdeal.KernelValue.hI m c) Cert.KernelIdeal.KernelValue.cntI (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono (fun r h c =>
      ⟨(h c).1.trans (Cert.KernelIdeal.KernelValue.result_U m ρ c (hU_real m hpre c)),
        (h c).2.1.trans (Cert.KernelIdeal.KernelValue.result_I m ρ c (hI_real m hpre c)), (h c).2.2⟩)
      (Cert.KernelIdeal.RunValue.run_values m ρ)
  · refine (θ_run Cert.ReferenceIdeal.defs _ _).mono (fun r h c => ⟨?_, ?_, (h c).2.2⟩)
      (Cert.ReferenceIdeal.Value.run (F := Ideal) m' ρ')
    · obtain ⟨a0, a1, a2, a3, a4, a5, a6, a7, a8, a9, a10, a11, a12, a13⟩ := hagree c
      rw [(h c).1, Cert.ReferenceIdeal.Read.val_main_v37_eq, Cert.ReferenceIdeal.RefValue.ref_user, a0, a2, a3, a6, a7, a10, a11]
      rfl
    · obtain ⟨a0, a1, a2, a3, a4, a5, a6, a7, a8, a9, a10, a11, a12, a13⟩ := hagree c
      rw [(h c).2.1, Cert.ReferenceIdeal.Read.val_main_v75_eq, Cert.ReferenceIdeal.RefValue.ref_item, a1, a4, a5, a8, a9, a12, a13]
      rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
